-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x8192 : Shape := ⟨3, ![32, 64, 8192]⟩
abbrev S_ : Shape := ⟨0, ![]⟩

class Facts : Prop where
  bcast_S_S32x64x8192 : S_.BroadcastsInDim S32x64x8192 (![] : Fin 0 → Fin S32x64x8192.rank)
  reducesTo_S32x64x8192_S_d0_1_2 : S32x64x8192.ReducesTo [0, 1, 2] S_
  h_S_ : 0 < S_.numel

variable [Facts]

def fn {F : FTy → Type} [FloatOps F] (main_arg0 : FVec F S32x64x8192 .f32) : IVec S_ 1 :=
  let main_v0 : FVec F S32x64x8192 .f32 := Host.absf main_arg0
  let main_cst : FVec F S_ .f32 := constant S_ .f32 0x7F800000#32
  let main_v1 : FVec F S32x64x8192 .f32 := broadcastInDim S32x64x8192 ![] bcast_S_S32x64x8192 main_cst
  let main_v2 : IVec S32x64x8192 1 := cmpf .olt main_v0 main_v1
  let main_c : IVec S_ 1 := constantI S_ 1 1#1
  let main_v3 : IVec S_ 1 := (fun x v => Host.reduce IntOp.andi x v reducesTo_S32x64x8192_S_d0_1_2 h_S_) main_v2 main_c
  main_v3
-- ==== Kernel.lean ====
abbrev S32x64x8192 : Shape := ⟨3, ![32, 64, 8192]⟩
abbrev S8x64x64 : Shape := ⟨3, ![8, 64, 64]⟩
abbrev S8x64x1 : Shape := ⟨3, ![8, 64, 1]⟩
abbrev S4x64x8192 : Shape := ⟨3, ![4, 64, 8192]⟩
abbrev S1x64x64 : Shape := ⟨3, ![1, 64, 64]⟩
abbrev S1x64x1 : Shape := ⟨3, ![1, 64, 1]⟩
abbrev S64x64 : Shape := ⟨2, ![64, 64]⟩
abbrev S64x1 : Shape := ⟨2, ![64, 1]⟩
abbrev S1x64x8192 : Shape := ⟨3, ![1, 64, 8192]⟩
abbrev S64x8192 : Shape := ⟨2, ![64, 8192]⟩
abbrev S64 : Shape := ⟨1, ![64]⟩
abbrev S_ : Shape := ⟨0, ![]⟩
abbrev S1x64 : Shape := ⟨2, ![1, 64]⟩

abbrev nBuf : Space → Nat
  | .hbm => 100
  | .vmem => 12
  | .smem => 0
  | _ => 0

abbrev bufTy : (tb : Table) → Fin (tcTables nBuf tb) → BufTy
  | .hbm, ⟨0, _⟩ => ⟨S32x64x8192, .f32⟩
  | .hbm, ⟨1, _⟩ => ⟨S8x64x64, .f32⟩
  | .hbm, ⟨2, _⟩ => ⟨S8x64x1, .f32⟩
  | .hbm, ⟨3, _⟩ => ⟨S_, .f32⟩
  | .hbm, ⟨4, _⟩ => ⟨S64x64, .f32⟩
  | .hbm, ⟨5, _⟩ => ⟨S_, .f32⟩
  | .hbm, ⟨6, _⟩ => ⟨S64x1, .f32⟩
  | .hbm, ⟨7, _⟩ => ⟨S64x64, .i32⟩
  | .hbm, ⟨8, _⟩ => ⟨S64x64, .i32⟩
  | .hbm, ⟨9, _⟩ => ⟨S_, .i32⟩
  | .hbm, ⟨10, _⟩ => ⟨S64x64, .i32⟩
  | .hbm, ⟨11, _⟩ => ⟨S64x64, .i32⟩
  | .hbm, ⟨12, _⟩ => ⟨S64x64, .i1⟩
  | .hbm, ⟨13, _⟩ => ⟨S64x64, .f32⟩
  | .hbm, ⟨14, _⟩ => ⟨S_, .f32⟩
  | .hbm, ⟨15, _⟩ => ⟨S64x1, .f32⟩
  | .hbm, ⟨16, _⟩ => ⟨S64x1, .f32⟩
  | .hbm, ⟨17, _⟩ => ⟨S_, .f32⟩
  | .hbm, ⟨18, _⟩ => ⟨S64x64, .f32⟩
  | .hbm, ⟨19, _⟩ => ⟨S64x64, .f32⟩
  | .hbm, ⟨20, _⟩ => ⟨S_, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S1x64, .f32⟩
  | .hbm, ⟨25, _⟩ => ⟨S64x64, .f32⟩
  | .hbm, ⟨26, _⟩ => ⟨S_, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .i32⟩
  | .hbm, ⟨31, _⟩ => ⟨S64x64, .i32⟩
  | .hbm, ⟨32, _⟩ => ⟨S_, .i32⟩
  | .hbm, ⟨33, _⟩ => ⟨S64x64, .i32⟩
  | .hbm, ⟨34, _⟩ => ⟨S64x64, .i32⟩
  | .hbm, ⟨35, _⟩ => ⟨S64x64, .i1⟩
  | .hbm, ⟨36, _⟩ => ⟨S_, .f32⟩
  | .hbm, ⟨37, _⟩ => ⟨S64x64, .f32⟩
  | .hbm, ⟨38, _⟩ => ⟨S64x64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S_, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S_, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S_, .f32⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S_, .f32⟩
  | .hbm, ⟨62, _⟩ => ⟨S64x64, .f32⟩
  | .hbm, ⟨63, _⟩ => ⟨S64x64, .f32⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S_, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S_, .f32⟩
  | .hbm, ⟨72, _⟩ => ⟨S64x64, .f32⟩
  | .hbm, ⟨73, _⟩ => ⟨S64x64, .f32⟩
  | .hbm, ⟨74, _⟩ => ⟨S64x64, .f32⟩
  | .hbm, ⟨75, _⟩ => ⟨S64x64, .f32⟩
  | .hbm, ⟨76, _⟩ => ⟨S64x64, .f32⟩
  | .hbm, ⟨77, _⟩ => ⟨S_, .f32⟩
  | .hbm, ⟨78, _⟩ => ⟨S64x64, .f32⟩
  | .hbm, ⟨79, _⟩ => ⟨S64x64, .f32⟩
  | .hbm, ⟨80, _⟩ => ⟨S64x64, .f32⟩
  | .hbm, ⟨81, _⟩ => ⟨S_, .f32⟩
  | .hbm, ⟨82, _⟩ => ⟨S64x64, .f32⟩
  | .hbm, ⟨83, _⟩ => ⟨S64x64, .f32⟩
  | .hbm, ⟨84, _⟩ => ⟨S64x64, .f32⟩
  | .hbm, ⟨85, _⟩ => ⟨S64x64, .f32⟩
  | .hbm, ⟨86, _⟩ => ⟨S64x64, .f32⟩
  | .hbm, ⟨87, _⟩ => ⟨S_, .f32⟩
  | .hbm, ⟨88, _⟩ => ⟨S64x64, .f32⟩
  | .hbm, ⟨89, _⟩ => ⟨S64x64, .f32⟩
  | .hbm, ⟨90, _⟩ => ⟨S64x64, .f32⟩
  | .hbm, ⟨91, _⟩ => ⟨S_, .f32⟩
  | .hbm, ⟨92, _⟩ => ⟨S64x64, .f32⟩
  | .hbm, ⟨93, _⟩ => ⟨S64x64, .f32⟩
  | .hbm, ⟨94, _⟩ => ⟨S64x64, .f32⟩
  | .hbm, ⟨95, _⟩ => ⟨S_, .f32⟩
  | .hbm, ⟨96, _⟩ => ⟨S64x64, .f32⟩
  | .hbm, ⟨97, _⟩ => ⟨S64x64, .f32⟩
  | .hbm, ⟨98, _⟩ => ⟨S64x1, .f32⟩
  | .hbm, ⟨99, _⟩ => ⟨S32x64x8192, .f32⟩
  | .local _ .vmem, ⟨0, _⟩ => ⟨S4x64x8192, .f32⟩
  | .local _ .vmem, ⟨1, _⟩ => ⟨S4x64x8192, .f32⟩
  | .local _ .vmem, ⟨2, _⟩ => ⟨S1x64x64, .f32⟩
  | .local _ .vmem, ⟨3, _⟩ => ⟨S1x64x64, .f32⟩
  | .local _ .vmem, ⟨4, _⟩ => ⟨S1x64x1, .f32⟩
  | .local _ .vmem, ⟨5, _⟩ => ⟨S1x64x1, .f32⟩
  | .local _ .vmem, ⟨6, _⟩ => ⟨S4x64x8192, .f32⟩
  | .local _ .vmem, ⟨7, _⟩ => ⟨S4x64x8192, .f32⟩
  | .local _ .vmem, ⟨8, _⟩ => ⟨S64x64, .f32⟩
  | .local _ .vmem, ⟨9, _⟩ => ⟨S64x1, .f32⟩
  | .local _ .vmem, ⟨10, _⟩ => ⟨S4x64x8192, .f32⟩
  | .local _ .vmem, ⟨11, _⟩ => ⟨S4x64x8192, .f32⟩
  | _, _ => ⟨S32x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_c : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_cst : Ref sig .tc := ⟨.hbm, 36, rfl⟩
abbrev main_call0_v5 : Ref sig .tc := ⟨.hbm, 37, rfl⟩
abbrev main_call0_v6 : Ref sig .tc := ⟨.hbm, 38, rfl⟩
abbrev main_call0_cst_0 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_15 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x64x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x64x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S4x64x8192_S1x64x8192_0_0_0 : ∀ a, (![0, 0, 0] : Fin 3 → Nat) a + S1x64x8192.size a ≤ S4x64x8192.size a
  h_S1x64x8192 : 0 < S1x64x8192.numel
  shapeCasts_S1x64x8192_S64x8192 : S1x64x8192.ShapeCasts S64x8192
  reduces_S64x8192_S64 : S64x8192.Reduces [1] S64
  shapeCasts_S64_S64x1 : S64.ShapeCasts S64x1
  inb_S4x64x8192_S1x64x8192_1_0_0 : ∀ a, (![1, 0, 0] : Fin 3 → Nat) a + S1x64x8192.size a ≤ S4x64x8192.size a
  inb_S4x64x8192_S1x64x8192_2_0_0 : ∀ a, (![2, 0, 0] : Fin 3 → Nat) a + S1x64x8192.size a ≤ S4x64x8192.size a
  inb_S4x64x8192_S1x64x8192_3_0_0 : ∀ a, (![3, 0, 0] : Fin 3 → Nat) a + S1x64x8192.size a ≤ S4x64x8192.size a
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  reducesTo_S8x64x64_S64x64_d0 : S8x64x64.ReducesTo [0] S64x64
  h_S_ : 0 < S_.numel
  reducesTo_S8x64x1_S64x1_d0 : S8x64x1.ReducesTo [0] S64x1
  bcast_S_S64x64 : S_.BroadcastsInDim S64x64 (![] : Fin 0 → Fin S64x64.rank)
  bcast_S_S64x1 : S_.BroadcastsInDim S64x1 (![] : Fin 0 → Fin S64x1.rank)
  transposes_S64x1_S1x64_1_0 : S64x1.Transposes [1, 0] S1x64
  reducesTo_S64x64_S_d0_1 : S64x64.ReducesTo [0, 1] S_
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  shapeCasts_S64x8192_S1x64x8192 : S64x8192.ShapeCasts S1x64x8192
  dot_S64x8192_S64x8192_S64x64_1_1_0_0_n_n_wf : DotDims.WF S64x8192 S64x8192 S64x64 [1] [1] [0] [0] [] []
  dot_S64x1_S1x64_S64x64_1_0_0_1_n_n_wf : DotDims.WF S64x1 S1x64 S64x64 [1] [0] [0] [1] [] []
  dot_S64x64_S64x64_S64x64_1_0_0_1_n_n_wf : DotDims.WF S64x64 S64x64 S64x64 [1] [0] [0] [1] [] []
  dot_S64x64_S64x1_S64x1_1_0_0_1_n_n_wf : DotDims.WF S64x64 S64x1 S64x1 [1] [0] [0] [1] [] []
  dot_S64x64_S64x8192_S64x8192_1_0_0_1_n_n_wf : DotDims.WF S64x64 S64x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x8192.size a ≤ S32x64x8192.size a
  hwx0_0 : ∀ i : grid0.Coords, EltTy.bits .f32 = 32 ∨ (Rect.block (s := S32x64x8192) S4x64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S8x64x64.size a
  hwx0_1 : ∀ i : grid0.Coords, EltTy.bits .f32 = 32 ∨ (Rect.block (s := S8x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1.size a ≤ S8x64x1.size a
  hwx0_2 : ∀ i : grid0.Coords, EltTy.bits .f32 = 32 ∨ (Rect.block (s := S8x64x1) S1x64x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x64x8192.size a ≤ S32x64x8192.size a
  hwx1_0 : ∀ i : grid1.Coords, EltTy.bits .f32 = 32 ∨ (Rect.block (s := S32x64x8192) S4x64x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x64x8192.size a ≤ S32x64x8192.size a
  hwx1_3 : ∀ i : grid1.Coords, EltTy.bits .f32 = 32 ∨ (Rect.block (s := S32x64x8192) S4x64x8192.size (cc1_transform_3 i) (hinb1_3 i)).WholeWords (EltTy.packing .f32)

variable [Facts₀]

def dot_S64x8192_S64x8192_S64x64_1_1_0_0_n_n : DotDims S64x8192 S64x8192 S64x64 where
  lhsContracting := [1]
  rhsContracting := [1]
  lhsNonContracting := [0]
  rhsNonContracting := [0]
  lhsBatch := []
  rhsBatch := []
  wf := dot_S64x8192_S64x8192_S64x64_1_1_0_0_n_n_wf
def dot_S64x1_S1x64_S64x64_1_0_0_1_n_n : DotDims S64x1 S1x64 S64x64 where
  lhsContracting := [1]
  rhsContracting := [0]
  lhsNonContracting := [0]
  rhsNonContracting := [1]
  lhsBatch := []
  rhsBatch := []
  wf := dot_S64x1_S1x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf
def dot_S64x64_S64x8192_S64x8192_1_0_0_1_n_n : DotDims S64x64 S64x8192 S64x8192 where
  lhsContracting := [1]
  rhsContracting := [0]
  lhsNonContracting := [0]
  rhsNonContracting := [1]
  lhsBatch := []
  rhsBatch := []
  wf := dot_S64x64_S64x8192_S64x8192_1_0_0_1_n_n_wf

abbrev win0_0 : Pipeline.Window sig grid0 :=
  Pipeline.Window.ofSpec (Memref.whole main_arg0) S4x64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x64x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S4x64x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v68) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S4x64x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x64x8192 : Shape := ⟨3, ![32, 64, 8192]⟩
abbrev S64x32x8192 : Shape := ⟨3, ![64, 32, 8192]⟩
abbrev S64x262144 : Shape := ⟨2, ![64, 262144]⟩
abbrev S_ : Shape := ⟨0, ![]⟩
abbrev S64 : Shape := ⟨1, ![64]⟩
abbrev S64x1 : Shape := ⟨2, ![64, 1]⟩
abbrev S64x64 : Shape := ⟨2, ![64, 64]⟩
abbrev S262144x64 : Shape := ⟨2, ![262144, 64]⟩

abbrev nBuf : Space → Nat
  | .hbm => 98
  | .vmem => 0
  | .smem => 0
  | _ => 0

abbrev bufTy : (tb : Table) → Fin (tcTables nBuf tb) → BufTy
  | .hbm, ⟨0, _⟩ => ⟨S32x64x8192, .f32⟩
  | .hbm, ⟨1, _⟩ => ⟨S64x32x8192, .f32⟩
  | .hbm, ⟨2, _⟩ => ⟨S64x262144, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S_, .f32⟩
  | .hbm, ⟨7, _⟩ => ⟨S64x1, .f32⟩
  | .hbm, ⟨8, _⟩ => ⟨S64x1, .f32⟩
  | .hbm, ⟨9, _⟩ => ⟨S64x262144, .f32⟩
  | .hbm, ⟨10, _⟩ => ⟨S64x262144, .f32⟩
  | .hbm, ⟨11, _⟩ => ⟨S64x64, .i32⟩
  | .hbm, ⟨12, _⟩ => ⟨S64x64, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S64x64, .i1⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S262144x64, .f32⟩
  | .hbm, ⟨22, _⟩ => ⟨S64x64, .f32⟩
  | .hbm, ⟨23, _⟩ => ⟨S_, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .i32⟩
  | .hbm, ⟨28, _⟩ => ⟨S64x64, .i32⟩
  | .hbm, ⟨29, _⟩ => ⟨S_, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S_, .f32⟩
  | .hbm, ⟨34, _⟩ => ⟨S64x64, .f32⟩
  | .hbm, ⟨35, _⟩ => ⟨S64x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S64x64, .f32⟩
  | .hbm, ⟨41, _⟩ => ⟨S64x64, .f32⟩
  | .hbm, ⟨42, _⟩ => ⟨S_, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S_, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S_, .f32⟩
  | .hbm, ⟨53, _⟩ => ⟨S64x64, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S_, .f32⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S_, .f32⟩
  | .hbm, ⟨63, _⟩ => ⟨S64x64, .f32⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S_, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S64x64, .f32⟩
  | .hbm, ⟨72, _⟩ => ⟨S_, .f32⟩
  | .hbm, ⟨73, _⟩ => ⟨S64x64, .f32⟩
  | .hbm, ⟨74, _⟩ => ⟨S64x64, .f32⟩
  | .hbm, ⟨75, _⟩ => ⟨S64x64, .f32⟩
  | .hbm, ⟨76, _⟩ => ⟨S64x64, .f32⟩
  | .hbm, ⟨77, _⟩ => ⟨S_, .f32⟩
  | .hbm, ⟨78, _⟩ => ⟨S64x64, .f32⟩
  | .hbm, ⟨79, _⟩ => ⟨S64x64, .f32⟩
  | .hbm, ⟨80, _⟩ => ⟨S64x64, .f32⟩
  | .hbm, ⟨81, _⟩ => ⟨S64x64, .f32⟩
  | .hbm, ⟨82, _⟩ => ⟨S_, .f32⟩
  | .hbm, ⟨83, _⟩ => ⟨S64x64, .f32⟩
  | .hbm, ⟨84, _⟩ => ⟨S64x64, .f32⟩
  | .hbm, ⟨85, _⟩ => ⟨S64x64, .f32⟩
  | .hbm, ⟨86, _⟩ => ⟨S64x64, .f32⟩
  | .hbm, ⟨87, _⟩ => ⟨S_, .f32⟩
  | .hbm, ⟨88, _⟩ => ⟨S64x64, .f32⟩
  | .hbm, ⟨89, _⟩ => ⟨S64x64, .f32⟩
  | .hbm, ⟨90, _⟩ => ⟨S64x64, .f32⟩
  | .hbm, ⟨91, _⟩ => ⟨S64x64, .f32⟩
  | .hbm, ⟨92, _⟩ => ⟨S_, .f32⟩
  | .hbm, ⟨93, _⟩ => ⟨S64x64, .f32⟩
  | .hbm, ⟨94, _⟩ => ⟨S64x64, .f32⟩
  | .hbm, ⟨95, _⟩ => ⟨S64x262144, .f32⟩
  | .hbm, ⟨96, _⟩ => ⟨S64x32x8192, .f32⟩
  | .hbm, ⟨97, _⟩ => ⟨S32x64x8192, .f32⟩
  | _, _ => ⟨S32x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_v1 : Ref sig .tc := ⟨.hbm, 28, rfl⟩
abbrev main_call0_c : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_cst : Ref sig .tc := ⟨.hbm, 33, rfl⟩
abbrev main_call0_v5 : Ref sig .tc := ⟨.hbm, 34, rfl⟩
abbrev main_call0_v6 : Ref sig .tc := ⟨.hbm, 35, rfl⟩
abbrev main_call0_cst_0 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  transposes_S32x64x8192_S64x32x8192_1_0_2 : S32x64x8192.Transposes [1, 0, 2] S64x32x8192
  shapeCasts_S64x32x8192_S64x262144 : S64x32x8192.ShapeCasts S64x262144
  reducesTo_S64x262144_S64_d1 : S64x262144.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x262144_0_1 : S64x1.BroadcastsInDim S64x262144 (![0, 1] : Fin 2 → Fin S64x262144.rank)
  bcast_S_S64x64 : S_.BroadcastsInDim S64x64 (![] : Fin 0 → Fin S64x64.rank)
  transposes_S64x262144_S262144x64_1_0 : S64x262144.Transposes [1, 0] S262144x64
  reducesTo_S64x64_S_d0_1 : S64x64.ReducesTo [0, 1] S_
  shapeCasts_S64x262144_S64x32x8192 : S64x262144.ShapeCasts S64x32x8192
  transposes_S64x32x8192_S32x64x8192_1_0_2 : S64x32x8192.Transposes [1, 0, 2] S32x64x8192
  dot_S64x262144_S262144x64_S64x64_1_0_0_1_n_n_wf : DotDims.WF S64x262144 S262144x64 S64x64 [1] [0] [0] [1] [] []
  dot_S64x64_S64x64_S64x64_1_0_0_1_n_n_wf : DotDims.WF S64x64 S64x64 S64x64 [1] [0] [0] [1] [] []
  dot_S64x64_S64x262144_S64x262144_1_0_0_1_n_n_wf : DotDims.WF S64x64 S64x262144 S64x262144 [1] [0] [0] [1] [] []

variable [Facts₀]

def dot_S64x262144_S262144x64_S64x64_1_0_0_1_n_n : DotDims S64x262144 S262144x64 S64x64 where
  lhsContracting := [1]
  rhsContracting := [0]
  lhsNonContracting := [0]
  rhsNonContracting := [1]
  lhsBatch := []
  rhsBatch := []
  wf := dot_S64x262144_S262144x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x262144_S64x262144_1_0_0_1_n_n : DotDims S64x64 S64x262144 S64x262144 where
  lhsContracting := [1]
  rhsContracting := [0]
  lhsNonContracting := [0]
  rhsNonContracting := [1]
  lhsBatch := []
  rhsBatch := []
  wf := dot_S64x64_S64x262144_S64x262144_1_0_0_1_n_n_wf

class Facts : Prop extends Facts₀ where

variable [Facts]
-- ==== Proof.KRun.lean ====
/-
  The idealized kernel program's run with its result named.

  The program is two pipelined regions with stretches of host operations between them. Every weakly fair
  execution terminates without a fault; at the end every unscoped buffer holds what the fold of the program's
  segments over the launch memory leaves in it: a host stretch applies its operations in order, a region leaves
  each of its output arrays at what its grid points wrote back and every other buffer as it found it. Here that
  final fold is read at the result array and at the argument array.
-/
import proofs.«114804_j29222957482780_2_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the final
    fold's contents and the argument array as launched. -/
theorem run_named : θ_run defs (onTc (τ := τ) (main (F := F))) ⟨m, fun _ => 0, ρ⟩ (fun r => ∀ c : Dev nD,
      r.2.mem ((c.tc : Thread nD τ).loc main_v69) = W5 m ρ c (Proc.devRef .tc main_v69)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v69 (by decide)),
        (h c _ (mem_uc main_arg0 (by decide))).trans (W5_main_arg0 m ρ c)⟩)

end Cert.KernelIdeal.KValue

end
-- ==== Proof.KHost.lean ====
/-
  The host operations between the two regions, as one chain of stages at the exact values.

  From the first region's partial second moments (eight [64, 64] tiles) and partial sums (eight [64, 1] columns):
  their sums over the eight blocks S1 and s; the mean column s / M; the covariance
  ε·I + S1 / M − (s · sᵀ) / M²; its trace, the reciprocal of the trace, the covariance scaled to unit trace;
  five Newton–Schulz steps P ← 1.5·P − 0.5·(((P·P)·P)·Σ_N) from the identity; the whitening matrix
  P·√(1/trace); the bias column, the whitening matrix times the mean. The second region reads the input array,
  the whitening matrix and the bias column.
-/
import proofs.«114804_j29222957482780_2_alg».proof.Proof.Gen.KernelIdeal.Frame
import Idealize.ShloMosaic.Lib.StableHlo.Run
import Idealize.ShloMosaic.PureOps.Ideal
import Idealize.ShloMosaic.PureOps.Ideal.Laws

set_option maxRecDepth 16384

noncomputable section

namespace Cert.KernelIdeal.KValue

open Idealize.ShloMosaic Idealize.SL.Sem
open Cert.KernelIdeal Cert.KernelIdeal.Gen

/-- A 64 × 64 matrix of exact values. -/
abbrev Mt := FVec Ideal S64x64 .f32
/-- A column of 64 exact values. -/
abbrev Cl := FVec Ideal S64x1 .f32
/-- A scalar. -/
abbrev Sc := FVec Ideal S_ .f32

def zeroS : Sc := constant (F := Ideal) S_ .f32 0x00000000#32
/-- A scalar spread over a matrix. -/
def bcastS (v : Sc) : Mt := broadcastInDim S64x64 ![] Facts₀.bcast_S_S64x64 v
/-- A literal spread over a matrix. -/
def splat (w : BitVec 32) : Mt := bcastS (constant (F := Ideal) S_ .f32 w)
/-- The diagonal mask: row index equal to column index. -/
def diagV : IVec S64x64 1 :=
  cmpi .eq (addi (iotaInDim S64x64 32 0) (broadcastInDim S64x64 ![] Facts₀.bcast_S_S64x64 (constantI S_ 32 0#32))) (iotaInDim S64x64 32 1)
/-- The identity matrix. -/
def eyeV : Mt := uitofp (F := Ideal) .f32 diagV
/-- The partial second moments summed over the blocks. -/
def s1V (p : FVec Ideal S8x64x64 .f32) : Mt := Host.reduceAdd (F := Ideal) p zeroS Facts₀.reducesTo_S8x64x64_S64x64_d0 Facts₀.h_S_
/-- The partial sums summed over the blocks. -/
def sV (p : FVec Ideal S8x64x1 .f32) : Cl := Host.reduceAdd (F := Ideal) p zeroS Facts₀.reducesTo_S8x64x1_S64x1_d0 Facts₀.h_S_
/-- The mean column. -/
def meanV (s : Cl) : Cl :=
  Host.divf (F := Ideal) s (broadcastInDim S64x1 ![] Facts₀.bcast_S_S64x1 (constant (F := Ideal) S_ .f32 0x48800000#32))
/-- The covariance. -/
def sigmaV (S1 : Mt) (s : Cl) : Mt :=
  subf (addf (mulf eyeV (splat 0x3727C5AC#32)) (Host.divf (F := Ideal) S1 (splat 0x48800000#32)))
    (Host.divf (F := Ideal)
      (Host.dotGeneral (F := Ideal) dot_S64x1_S1x64_S64x64_1_0_0_1_n_n none s (transpose S1x64 [1, 0] s Facts₀.transposes_S64x1_S1x64_1_0))
      (splat 0x51800000#32))
/-- The trace. -/
def traceV (A : Mt) : Sc :=
  Host.reduceAdd (F := Ideal) (select diagV A (bcastS zeroS)) zeroS Facts₀.reducesTo_S64x64_S_d0_1 Facts₀.h_S_
/-- The reciprocal of the trace. -/
def rTrV (t : Sc) : Sc := Host.divf (F := Ideal) (constant (F := Ideal) S_ .f32 0x3F800000#32) t
/-- The matrix product. -/
def mmV (A B : Mt) : Mt := Host.dotGeneral (F := Ideal) dot_S64x64_S64x64_S64x64_1_0_0_1_n_n none A B
/-- One Newton–Schulz step. -/
def stepV (SN P : Mt) : Mt :=
  subf (mulf (splat 0x3FC00000#32) P) (mulf (splat 0x3F000000#32) (mmV (mmV (mmV P P) P) SN))
/-- The whitening matrix from the covariance and its trace. -/
def wmV (A : Mt) (t : Sc) (E : Mt) : Mt :=
  mulf (stepV (mulf A (bcastS (rTrV t))) (stepV (mulf A (bcastS (rTrV t))) (stepV (mulf A (bcastS (rTrV t)))
      (stepV (mulf A (bcastS (rTrV t))) (stepV (mulf A (bcastS (rTrV t))) E)))))
    (bcastS (Host.sqrt (F := Ideal) (rTrV t)))
/-- The bias column. -/
def biasV (W : Mt) (μ : Cl) : Cl := Host.dotGeneral (F := Ideal) dot_S64x64_S64x1_S64x1_1_0_0_1_n_n none W μ

variable (m : (ℓ : Loc nD τ sig) → Buf (Elt Ideal) ℓ) (ρ : Dev nD → PrngReg)

/-- After the first stretch: the covariance, the mean column and the identity matrix. -/
theorem W2_v20 (c : Dev nD) :
    (W2 m ρ c (Proc.devRef .tc main_v20) : Mt)
      = sigmaV (s1V (W1 m ρ c (Proc.devRef .tc main_v0_0))) (sV (W1 m ρ c (Proc.devRef .tc main_v0_1))) := by
  show StableHlo.after hostOps1 (W1 m ρ c) (Proc.devRef .tc main_v20) = _
  after_results_simp
  rfl

theorem W2_v10 (c : Dev nD) :
    (W2 m ρ c (Proc.devRef .tc main_v10) : Cl) = meanV (sV (W1 m ρ c (Proc.devRef .tc main_v0_1))) := by
  show StableHlo.after hostOps1 (W1 m ρ c) (Proc.devRef .tc main_v10) = _
  after_results_simp
  rfl

theorem W2_v8 (c : Dev nD) : (W2 m ρ c (Proc.devRef .tc main_v8) : Mt) = eyeV := by
  show StableHlo.after hostOps1 (W1 m ρ c) (Proc.devRef .tc main_v8) = _
  after_results_simp
  rfl

/-- After the trace's stretch: the trace of the covariance; the covariance, the mean and the identity stay. -/
theorem W3_v21 (c : Dev nD) :
    (W3 m ρ c (Proc.devRef .tc main_v21) : Sc) = traceV (W2 m ρ c (Proc.devRef .tc main_v20)) := by
  show StableHlo.after hostOps1_1 (W2 m ρ c) (Proc.devRef .tc main_v21) = _
  after_results_simp
  rfl

theorem W3_v20 (c : Dev nD) : W3 m ρ c (Proc.devRef .tc main_v20) = W2 m ρ c (Proc.devRef .tc main_v20) := by
  show StableHlo.after hostOps1_1 (W2 m ρ c) (Proc.devRef .tc main_v20) = _
  after_results_simp

theorem W3_v10 (c : Dev nD) : W3 m ρ c (Proc.devRef .tc main_v10) = W2 m ρ c (Proc.devRef .tc main_v10) := by
  show StableHlo.after hostOps1_1 (W2 m ρ c) (Proc.devRef .tc main_v10) = _
  after_results_simp

theorem W3_v8 (c : Dev nD) : W3 m ρ c (Proc.devRef .tc main_v8) = W2 m ρ c (Proc.devRef .tc main_v8) := by
  show StableHlo.after hostOps1_1 (W2 m ρ c) (Proc.devRef .tc main_v8) = _
  after_results_simp

/-- After the last stretch: the whitening matrix and the bias column. -/
theorem W4_v67 (c : Dev nD) :
    (W4 m ρ c (Proc.devRef .tc main_v67) : Mt)
      = wmV (W3 m ρ c (Proc.devRef .tc main_v20)) (W3 m ρ c (Proc.devRef .tc main_v21)) (W3 m ρ c (Proc.devRef .tc main_v8)) := by
  show StableHlo.after hostOps1_2 (W3 m ρ c) (Proc.devRef .tc main_v67) = _
  after_results_simp
  rfl

set_option maxHeartbeats 4000000 in
theorem W4_v68 (c : Dev nD) :
    (W4 m ρ c (Proc.devRef .tc main_v68) : Cl)
      = biasV (wmV (W3 m ρ c (Proc.devRef .tc main_v20)) (W3 m ρ c (Proc.devRef .tc main_v21)) (W3 m ρ c (Proc.devRef .tc main_v8)))
          (W3 m ρ c (Proc.devRef .tc main_v10)) := by
  show StableHlo.after hostOps1_2 (W3 m ρ c) (Proc.devRef .tc main_v68) = _
  after_results_simp
  rfl

end Cert.KernelIdeal.KValue

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.KApply.lean ====
/-
  The second region's body, read by coordinates.

  At a grid point the body holds a block x0 of four batches of the input ([4, 64, 8192]), the whitening matrix
  x1 ([64, 64]) and the bias column x2 ([64, 1]); for each of the four batches a it stores the [64, 8192] slab
  x1 · x0[a] − x2 (the bias spread along the positions) at batch a of the output block. The four stored slabs
  tile the output block, and every one of them is the restriction of ONE function of the block's index:
  at (a, p, q) the value Σ_k x1(p, k) · x0(a, k, q) − x2(p, 0).
-/
import proofs.«114804_j29222957482780_2_alg».proof.Proof.Gen.KernelIdeal.Frame
import proofs.«114804_j29222957482780_2_alg».proof.Proof.LibMatmulNN
import proofs.«114804_j29222957482780_2_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.KValue

open Idealize.ShloMosaic Idealize.ShloMosaic.ValueIdx
open Cert.KernelIdeal Cert.KernelIdeal.Gen Cert.KernelIdeal.Facts₀

/-- The output block as one function of its index (a, p, q): Σ_k x1(p, k) · x0(a, k, q) − x2(p, 0). -/
def applyBlk (x0 : S4x64x8192.Idx → EReal) (x1 : S64x64.Idx → EReal) (x2 : S64x1.Idx → EReal) : S4x64x8192.Idx → EReal :=
  fun y => (∑ k : Fin 64, x1 (ix2 (y 1) k) * x0 (ix3 (y 0) k (y 2))) - x2 (ix2 (y 1) (0 : Fin 1))

/-- One batch's slab: the matrix product with the slab minus the bias column spread along the positions, at (u, p, q). -/
def slab (w : FVec Ideal S64x64 .f32) (β : FVec Ideal S64x1 .f32) (v : FVec Ideal S1x64x8192 .f32) : FVec Ideal S1x64x8192 .f32 :=
  shapeCast S1x64x8192
    (subf (matmul dot_S64x64_S64x8192_S64x8192_1_0_0_1_n_n none w (shapeCast S64x8192 v Facts₀.shapeCasts_S1x64x8192_S64x8192)
        (constant S64x8192 .f32 0x00000000#32))
      (broadcastTo S64x8192 β Facts₀.broadcasts_S64x1_S64x8192))
    Facts₀.shapeCasts_S64x8192_S1x64x8192

theorem slab_apply (w : FVec Ideal S64x64 .f32) (β : FVec Ideal S64x1 .f32) (v : FVec Ideal S1x64x8192 .f32)
    (u : Fin 1) (p : Fin 64) (q : Fin 8192) :
    slab w β v (ix3 u p q) = (∑ k : Fin 64, w (ix2 p k) * v (ix3 (0 : Fin 1) k q)) - β (ix2 p (0 : Fin 1)) := by
  unfold slab
  refine (shapeCast_ab_1ab_apply _ _ u p q).trans ?_
  show _ - _ = _
  rw [Cert.LibMatmulNN.matmul_nn_apply _ rfl rfl rfl rfl rfl rfl, Cert.LibColumns.broadcastTo_a1_ab_apply]
  simp only [shapeCast_1ab_ab_apply]

theorem pay1_eq (v1 : FVec Ideal S64x64 .f32) (v3 : FVec Ideal S64x1 .f32) (v28 : Vec Ideal S1x64x8192 .f32) :
    k1_pay1 v1 v3 v28 = slab v1 v3 v28 := rfl
theorem pay2_eq (v0 : Vec Ideal S64x64 .f32) : k1_pay2 v0 = v0 := shapeCast_self _ _
theorem pay3_eq (v2 : Vec Ideal S64x1 .f32) : k1_pay3 v2 = v2 := shapeCast_self _ _
theorem pay4_eq (v0 : Vec Ideal S64x64 .f32) (v2 : Vec Ideal S64x1 .f32) (v : Vec Ideal S1x64x8192 .f32) :
    k1_pay4 v0 v2 v = slab v0 v2 v := by
  show slab (k1_pay2 v0) (k1_pay3 v2) v = _
  rw [pay2_eq, pay3_eq]
theorem pay5_eq (v0 : Vec Ideal S64x64 .f32) (v2 : Vec Ideal S64x1 .f32) (v : Vec Ideal S1x64x8192 .f32) :
    k1_pay5 v0 v2 v = slab v0 v2 v := by
  show slab (k1_pay2 v0) (k1_pay3 v2) v = _
  rw [pay2_eq, pay3_eq]
theorem pay6_eq (v0 : Vec Ideal S64x64 .f32) (v2 : Vec Ideal S64x1 .f32) (v : Vec Ideal S1x64x8192 .f32) :
    k1_pay6 v0 v2 v = slab v0 v2 v := by
  show slab (k1_pay2 v0) (k1_pay3 v2) v = _
  rw [pay2_eq, pay3_eq]

end Cert.KernelIdeal.KValue

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.KStats.lean ====
/-
  The first region's body, read by coordinates.

  At a grid point the body holds a block x0 of four batches of the input ([4, 64, 8192]). It adds, from zero and
  batch after batch, each batch's second moments x0[a] · x0[a]ᵀ (contracted over the positions) into a [64, 64]
  tile and each batch's row sums into a [64, 1] column, and stores both whole. So the stored tile at (u, i, j)
  is Σ_a Σ_l x0(a, i, l) · x0(a, j, l) and the stored column at (u, i, z) is Σ_a Σ_l x0(a, i, l).
-/
import proofs.«114804_j29222957482780_2_alg».proof.Proof.Gen.KernelIdeal.Frame
import proofs.«114804_j29222957482780_2_alg».proof.Proof.LibMatmulNT
import proofs.«114804_j29222957482780_2_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.KValue

open Idealize.ShloMosaic Idealize.ShloMosaic.ValueIdx
open Cert.KernelIdeal Cert.KernelIdeal.Gen Cert.KernelIdeal.Facts₀

/-! ## A batch of the block, loaded -/

theorem emb_batch0 (u : Fin 1) (i : Fin 64) (l : Fin 8192) : r0_0.emb (ix3 (n0 := 1) (n1 := 64) (n2 := 8192) u i l) = ix3 (n0 := 4) (n1 := 64) (n2 := 8192) (0 : Fin 4) i l := by
  refine funext fun ax => Fin.ext ?_
  have hu : u.val = 0 := by omega
  match ax with
  | ⟨0, _⟩ => show 0 + 1 * u.val = 0; omega
  | ⟨1, _⟩ => show 0 + 1 * i.val = i.val; omega
  | ⟨2, _⟩ => show 0 + 1 * l.val = l.val; omega

theorem ld_batch0 (x0 : Vec Ideal S4x64x8192 .f32) (u : Fin 1) (i : Fin 64) (l : Fin 8192) :
    View.ld x0 r0_0 (ix3 (n0 := 1) (n1 := 64) (n2 := 8192) u i l) = x0 (ix3 (n0 := 4) (n1 := 64) (n2 := 8192) (0 : Fin 4) i l) :=
  congrArg x0 (emb_batch0 u i l)

theorem emb_batch1 (u : Fin 1) (i : Fin 64) (l : Fin 8192) : r0_1.emb (ix3 (n0 := 1) (n1 := 64) (n2 := 8192) u i l) = ix3 (n0 := 4) (n1 := 64) (n2 := 8192) (1 : Fin 4) i l := by
  refine funext fun ax => Fin.ext ?_
  have hu : u.val = 0 := by omega
  match ax with
  | ⟨0, _⟩ => show 1 + 1 * u.val = 1; omega
  | ⟨1, _⟩ => show 0 + 1 * i.val = i.val; omega
  | ⟨2, _⟩ => show 0 + 1 * l.val = l.val; omega

theorem ld_batch1 (x0 : Vec Ideal S4x64x8192 .f32) (u : Fin 1) (i : Fin 64) (l : Fin 8192) :
    View.ld x0 r0_1 (ix3 (n0 := 1) (n1 := 64) (n2 := 8192) u i l) = x0 (ix3 (n0 := 4) (n1 := 64) (n2 := 8192) (1 : Fin 4) i l) :=
  congrArg x0 (emb_batch1 u i l)

theorem emb_batch2 (u : Fin 1) (i : Fin 64) (l : Fin 8192) : r0_2.emb (ix3 (n0 := 1) (n1 := 64) (n2 := 8192) u i l) = ix3 (n0 := 4) (n1 := 64) (n2 := 8192) (2 : Fin 4) i l := by
  refine funext fun ax => Fin.ext ?_
  have hu : u.val = 0 := by omega
  match ax with
  | ⟨0, _⟩ => show 2 + 1 * u.val = 2; omega
  | ⟨1, _⟩ => show 0 + 1 * i.val = i.val; omega
  | ⟨2, _⟩ => show 0 + 1 * l.val = l.val; omega

theorem ld_batch2 (x0 : Vec Ideal S4x64x8192 .f32) (u : Fin 1) (i : Fin 64) (l : Fin 8192) :
    View.ld x0 r0_2 (ix3 (n0 := 1) (n1 := 64) (n2 := 8192) u i l) = x0 (ix3 (n0 := 4) (n1 := 64) (n2 := 8192) (2 : Fin 4) i l) :=
  congrArg x0 (emb_batch2 u i l)

theorem emb_batch3 (u : Fin 1) (i : Fin 64) (l : Fin 8192) : r0_3.emb (ix3 (n0 := 1) (n1 := 64) (n2 := 8192) u i l) = ix3 (n0 := 4) (n1 := 64) (n2 := 8192) (3 : Fin 4) i l := by
  refine funext fun ax => Fin.ext ?_
  have hu : u.val = 0 := by omega
  match ax with
  | ⟨0, _⟩ => show 3 + 1 * u.val = 3; omega
  | ⟨1, _⟩ => show 0 + 1 * i.val = i.val; omega
  | ⟨2, _⟩ => show 0 + 1 * l.val = l.val; omega

theorem ld_batch3 (x0 : Vec Ideal S4x64x8192 .f32) (u : Fin 1) (i : Fin 64) (l : Fin 8192) :
    View.ld x0 r0_3 (ix3 (n0 := 1) (n1 := 64) (n2 := 8192) u i l) = x0 (ix3 (n0 := 4) (n1 := 64) (n2 := 8192) (3 : Fin 4) i l) :=
  congrArg x0 (emb_batch3 u i l)

/-! ## One batch's second moments and row sums -/

/-- A batch slab contracted with itself over the positions, at (i, j). -/
theorem gram_apply (v : FVec Ideal S1x64x8192 .f32) (i j : Fin 64) :
    matmul dot_S64x8192_S64x8192_S64x64_1_1_0_0_n_n none (shapeCast S64x8192 v Facts₀.shapeCasts_S1x64x8192_S64x8192)
        (shapeCast S64x8192 v Facts₀.shapeCasts_S1x64x8192_S64x8192) (constant S64x64 .f32 0x00000000#32) (ix2 i j)
      = ∑ l : Fin 8192, v (ix3 (0 : Fin 1) i l) * v (ix3 (0 : Fin 1) j l) := by
  rw [Cert.LibMatmulNT.matmul_nt_apply _ rfl rfl rfl rfl rfl rfl]
  simp only [shapeCast_1ab_ab_apply]

/-- A batch slab's row sums kept as a column, at (i, z). -/
theorem rowsum_apply (v : FVec Ideal S1x64x8192 .f32) (i : Fin 64) (z : Fin 1) :
    shapeCast S64x1 (multiReduction .add [1] S64 (shapeCast S64x8192 v Facts₀.shapeCasts_S1x64x8192_S64x8192) 0x00000000#32
        Facts₀.reduces_S64x8192_S64 (.inl rfl) rfl) Facts₀.shapeCasts_S64_S64x1 (ix2 i z)
      = ∑ l : Fin 8192, v (ix3 (0 : Fin 1) i l) := by
  refine (Cert.LibColumns.shapeCast_a_a1_apply _ _ i z).trans ?_
  refine (Cert.LibColumns.multiReduction_add_rows_apply _ _ _ _ _ i).trans ?_
  simp only [shapeCast_1ab_ab_apply]

/-! ## The stored tile and column -/

/-- The stored [1, 64, 64] tile at (u, i, j): the four batches' second moments, added from zero. -/
theorem pay7_apply (v2 v9 v16 v23 : Vec Ideal S1x64x8192 .f32) (u : Fin 1) (i j : Fin 64) :
    k0_pay7 v2 v9 v16 v23 (ix3 u i j)
      = (∑ l : Fin 8192, v2 (ix3 (0 : Fin 1) i l) * v2 (ix3 (0 : Fin 1) j l))
        + (∑ l : Fin 8192, v9 (ix3 (0 : Fin 1) i l) * v9 (ix3 (0 : Fin 1) j l))
        + (∑ l : Fin 8192, v16 (ix3 (0 : Fin 1) i l) * v16 (ix3 (0 : Fin 1) j l))
        + (∑ l : Fin 8192, v23 (ix3 (0 : Fin 1) i l) * v23 (ix3 (0 : Fin 1) j l)) := by
  unfold k0_pay7 k0_pay2 k0_pay3 k0_pay4 k0_pay5
  dsimp only
  refine (shapeCast_ab_1ab_apply _ _ u i j).trans ?_
  show (((Ideal.ofBits .f32 0x00000000#32 + _) + _) + _) + _ = _
  rw [Ideal.ofBits_zero_f32, zero_add, gram_apply, gram_apply, gram_apply, gram_apply]

/-- The stored [1, 64, 1] column at (u, i, z): the four batches' row sums, added from zero. -/
theorem pay1_pay6_apply (v2 v9 v16 v23 : Vec Ideal S1x64x8192 .f32) (u : Fin 1) (i : Fin 64) (z : Fin 1) :
    k0_pay1 (k0_pay6 v2 v9 v16 v23) (ix3 u i z)
      = (∑ l : Fin 8192, v2 (ix3 (0 : Fin 1) i l)) + (∑ l : Fin 8192, v9 (ix3 (0 : Fin 1) i l))
        + (∑ l : Fin 8192, v16 (ix3 (0 : Fin 1) i l)) + (∑ l : Fin 8192, v23 (ix3 (0 : Fin 1) i l)) := by
  unfold k0_pay1 k0_pay6 k0_pay2 k0_pay3 k0_pay4 k0_pay5
  dsimp only
  refine (shapeCast_ab_1ab_apply _ _ u i z).trans ?_
  show (((Ideal.ofBits .f32 0x00000000#32 + _) + _) + _) + _ = _
  rw [Ideal.ofBits_zero_f32, zero_add, rowsum_apply, rowsum_apply, rowsum_apply, rowsum_apply]

end Cert.KernelIdeal.KValue

end
-- ==== Proof.KBlocks.lean ====
/-
  What each region's body leaves in an output block, as one function of the block's index.

  The second region stores four slabs that tile its [4, 64, 8192] output block, each the restriction of
  `applyBlk`; the first region stores its [1, 64, 64] tile and its [1, 64, 1] column whole.
-/
import proofs.«114804_j29222957482780_2_alg».proof.Proof.KApply
import proofs.«114804_j29222957482780_2_alg».proof.Proof.KStats

set_option maxRecDepth 16384

open scoped BigOperators

noncomputable section

namespace Cert.KernelIdeal.KValue

open Idealize.ShloMosaic Idealize.ShloMosaic.ValueIdx
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The first region's stored tile, by coordinates. -/
def statsTile (x0 : Vec Ideal S4x64x8192 .f32) : S1x64x64.Idx → EReal := fun y =>
  ∑ a : Fin 4, ∑ l : Fin 8192, x0 (ix3 a (y 1) l) * x0 (ix3 a (y 2) l)
/-- The first region's stored column, by coordinates. -/
def statsCol (x0 : Vec Ideal S4x64x8192 .f32) : S1x64x1.Idx → EReal := fun y =>
  ∑ a : Fin 4, ∑ l : Fin 8192, x0 (ix3 a (y 1) l)

theorem out0_1_eq (x0 : Vec Ideal S4x64x8192 .f32) : out0_1 x0 = statsTile x0 := by
  unfold out0_1
  rw [View.canon_unit_zero hz3]
  funext y
  obtain ⟨u, i, j, rfl⟩ : ∃ (u : Fin 1) (i j : Fin 64), y = ix3 u i j := ⟨y 0, y 1, y 2, eq_ix3 y⟩
  rw [pay7_apply]
  have e0 : ∀ (p : Fin 64) (l : Fin 8192), View.ld x0 r0_0 (ix3 (n0 := 1) (n1 := 64) (n2 := 8192) 0 p l) = x0 (ix3 (n0 := 4) (n1 := 64) (n2 := 8192) 0 p l) := fun p l => ld_batch0 x0 0 p l
  have e1 : ∀ (p : Fin 64) (l : Fin 8192), View.ld x0 r0_1 (ix3 (n0 := 1) (n1 := 64) (n2 := 8192) 0 p l) = x0 (ix3 (n0 := 4) (n1 := 64) (n2 := 8192) 1 p l) := fun p l => ld_batch1 x0 0 p l
  have e2 : ∀ (p : Fin 64) (l : Fin 8192), View.ld x0 r0_2 (ix3 (n0 := 1) (n1 := 64) (n2 := 8192) 0 p l) = x0 (ix3 (n0 := 4) (n1 := 64) (n2 := 8192) 2 p l) := fun p l => ld_batch2 x0 0 p l
  have e3 : ∀ (p : Fin 64) (l : Fin 8192), View.ld x0 r0_3 (ix3 (n0 := 1) (n1 := 64) (n2 := 8192) 0 p l) = x0 (ix3 (n0 := 4) (n1 := 64) (n2 := 8192) 3 p l) := fun p l => ld_batch3 x0 0 p l
  generalize View.ld x0 r0_0 = v0 at e0 ⊢
  generalize View.ld x0 r0_1 = v1 at e1 ⊢
  generalize View.ld x0 r0_2 = v2 at e2 ⊢
  generalize View.ld x0 r0_3 = v3 at e3 ⊢
  simp only [e0, e1, e2, e3]
  show _ = ∑ a : Fin 4, ∑ l : Fin 8192, x0 (ix3 a i l) * x0 (ix3 a j l)
  rw [Fin.sum_univ_four]

theorem out0_2_eq (x0 : Vec Ideal S4x64x8192 .f32) : out0_2 x0 = statsCol x0 := by
  unfold out0_2
  rw [View.canon_unit_zero hz3]
  funext y
  obtain ⟨u, i, z, rfl⟩ : ∃ (u : Fin 1) (i : Fin 64) (z : Fin 1), y = ix3 u i z := ⟨y 0, y 1, y 2, eq_ix3 y⟩
  rw [pay1_pay6_apply]
  have e0 : ∀ (p : Fin 64) (l : Fin 8192), View.ld x0 r0_0 (ix3 (n0 := 1) (n1 := 64) (n2 := 8192) 0 p l) = x0 (ix3 (n0 := 4) (n1 := 64) (n2 := 8192) 0 p l) := fun p l => ld_batch0 x0 0 p l
  have e1 : ∀ (p : Fin 64) (l : Fin 8192), View.ld x0 r0_1 (ix3 (n0 := 1) (n1 := 64) (n2 := 8192) 0 p l) = x0 (ix3 (n0 := 4) (n1 := 64) (n2 := 8192) 1 p l) := fun p l => ld_batch1 x0 0 p l
  have e2 : ∀ (p : Fin 64) (l : Fin 8192), View.ld x0 r0_2 (ix3 (n0 := 1) (n1 := 64) (n2 := 8192) 0 p l) = x0 (ix3 (n0 := 4) (n1 := 64) (n2 := 8192) 2 p l) := fun p l => ld_batch2 x0 0 p l
  have e3 : ∀ (p : Fin 64) (l : Fin 8192), View.ld x0 r0_3 (ix3 (n0 := 1) (n1 := 64) (n2 := 8192) 0 p l) = x0 (ix3 (n0 := 4) (n1 := 64) (n2 := 8192) 3 p l) := fun p l => ld_batch3 x0 0 p l
  generalize View.ld x0 r0_0 = v0 at e0 ⊢
  generalize View.ld x0 r0_1 = v1 at e1 ⊢
  generalize View.ld x0 r0_2 = v2 at e2 ⊢
  generalize View.ld x0 r0_3 = v3 at e3 ⊢
  simp only [e0, e1, e2, e3]
  show _ = ∑ a : Fin 4, ∑ l : Fin 8192, x0 (ix3 a i l)
  rw [Fin.sum_univ_four]

theorem out1_3_eq (x0 : Vec Ideal S4x64x8192 .f32) (x1 : Vec Ideal S64x64 .f32) (x2 : Vec Ideal S64x1 .f32) :
    out1_3 x0 x1 x2 = applyBlk x0 x1 x2 := by
  funext y
  unfold out1_3
  refine View.canon_apply_of_pieces (Val := Elt Ideal) (e := .f32) (applyBlk x0 x1 x2) _ ?_ y (cover1_3 _ _ _ _ y)
  intro p hp x
  simp only [List.mem_cons, List.not_mem_nil, or_false] at hp
  have h1 : View.ld x1 r1_0 = x1 := View.ld_unit_zero (S := S64x64) hz2 _ x1
  have h2 : View.ld x2 r1_1 = x2 := View.ld_unit_zero (S := S64x1) hz2 _ x2
  rcases hp with rfl | rfl | rfl | rfl
  · obtain ⟨u, i, l, rfl⟩ : ∃ (u : Fin 1) (i : Fin 64) (l : Fin 8192), x = ix3 u i l := ⟨x 0, x 1, x 2, eq_ix3 x⟩
    show k1_pay1 (k1_pay2 (View.ld x1 r1_0)) (k1_pay3 (View.ld x2 r1_1)) (View.ld x0 r0_3) (ix3 u i l) = applyBlk x0 x1 x2 (r0_3.emb (ix3 u i l))
    rw [pay1_eq, pay2_eq, pay3_eq, slab_apply, h1, h2, emb_batch3]
    have e : ∀ (p : Fin 64) (q : Fin 8192), View.ld x0 r0_3 (ix3 (n0 := 1) (n1 := 64) (n2 := 8192) 0 p q) = x0 (ix3 (n0 := 4) (n1 := 64) (n2 := 8192) 3 p q) := fun p q => ld_batch3 x0 0 p q
    generalize View.ld x0 r0_3 = v at e ⊢
    simp only [e]
    rfl
  · obtain ⟨u, i, l, rfl⟩ : ∃ (u : Fin 1) (i : Fin 64) (l : Fin 8192), x = ix3 u i l := ⟨x 0, x 1, x 2, eq_ix3 x⟩
    show k1_pay6 (View.ld x1 r1_0) (View.ld x2 r1_1) (View.ld x0 r0_2) (ix3 u i l) = applyBlk x0 x1 x2 (r0_2.emb (ix3 u i l))
    rw [pay6_eq, slab_apply, h1, h2, emb_batch2]
    have e : ∀ (p : Fin 64) (q : Fin 8192), View.ld x0 r0_2 (ix3 (n0 := 1) (n1 := 64) (n2 := 8192) 0 p q) = x0 (ix3 (n0 := 4) (n1 := 64) (n2 := 8192) 2 p q) := fun p q => ld_batch2 x0 0 p q
    generalize View.ld x0 r0_2 = v at e ⊢
    simp only [e]
    rfl
  · obtain ⟨u, i, l, rfl⟩ : ∃ (u : Fin 1) (i : Fin 64) (l : Fin 8192), x = ix3 u i l := ⟨x 0, x 1, x 2, eq_ix3 x⟩
    show k1_pay5 (View.ld x1 r1_0) (View.ld x2 r1_1) (View.ld x0 r0_1) (ix3 u i l) = applyBlk x0 x1 x2 (r0_1.emb (ix3 u i l))
    rw [pay5_eq, slab_apply, h1, h2, emb_batch1]
    have e : ∀ (p : Fin 64) (q : Fin 8192), View.ld x0 r0_1 (ix3 (n0 := 1) (n1 := 64) (n2 := 8192) 0 p q) = x0 (ix3 (n0 := 4) (n1 := 64) (n2 := 8192) 1 p q) := fun p q => ld_batch1 x0 0 p q
    generalize View.ld x0 r0_1 = v at e ⊢
    simp only [e]
    rfl
  · obtain ⟨u, i, l, rfl⟩ : ∃ (u : Fin 1) (i : Fin 64) (l : Fin 8192), x = ix3 u i l := ⟨x 0, x 1, x 2, eq_ix3 x⟩
    show k1_pay4 (View.ld x1 r1_0) (View.ld x2 r1_1) (View.ld x0 r0_0) (ix3 u i l) = applyBlk x0 x1 x2 (r0_0.emb (ix3 u i l))
    rw [pay4_eq, slab_apply, h1, h2, emb_batch0]
    have e : ∀ (p : Fin 64) (q : Fin 8192), View.ld x0 r0_0 (ix3 (n0 := 1) (n1 := 64) (n2 := 8192) 0 p q) = x0 (ix3 (n0 := 4) (n1 := 64) (n2 := 8192) 0 p q) := fun p q => ld_batch0 x0 0 p q
    generalize View.ld x0 r0_0 = v at e ⊢
    simp only [e]
    rfl

end Cert.KernelIdeal.KValue

end
-- ==== Proof.KApplyArr.lean ====
/-
  The second region's result array as one function of the arrays the region reads.

  The region's eight grid points each write back one block of four batches; block t holds the batches
  4t … 4t + 3. The whitening matrix and the bias column are read whole at every point. What point t writes
  back is block t of the function (b, p, q) ↦ Σ_k W(p, k) · X(b, k, q) − β(p, 0); the eight blocks tile the
  array, so the array ends holding that function.
-/
import proofs.«114804_j29222957482780_2_alg».proof.Proof.KBlocks

set_option maxRecDepth 16384

open scoped BigOperators

noncomputable section

namespace Cert.KernelIdeal.KValue

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The second region's result array as one function of the arrays it reads: at (b, p, q),
    Σ_k W(p, k) · X(b, k, q) − β(p, 0). -/
def applyArr (X : S32x64x8192.Idx → EReal) (W : S64x64.Idx → EReal) (B : S64x1.Idx → EReal) : S32x64x8192.Idx → EReal :=
  fun y => (∑ k : Fin 64, W (ix2 (y 1) k) * X (ix3 (y 0) k (y 2))) - B (ix2 (y 1) (0 : Fin 1))

/-- The printed index maps of the second region, decided over its eight grid points. -/
theorem idx1 : ∀ t : Fin cfg1.N, win1_0.index t (0 : Fin 3) = t.val ∧ win1_0.index t (1 : Fin 3) = 0 ∧ win1_0.index t (2 : Fin 3) = 0
    ∧ win1_3.index t (0 : Fin 3) = t.val ∧ win1_3.index t (1 : Fin 3) = 0 ∧ win1_3.index t (2 : Fin 3) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

theorem iblk1_1_eq (c : Dev nD) (t : Fin cfg1.N) : (iblk1 V c 1 t : S64x64.Idx → EReal) = V c main_v67 := by
  obtain ⟨e0, e1, e2, e3, e4, e5, e6, e7, e8, e9⟩ := idx1 t
  funext y
  show V c main_v67 (((cfg1.win 1).blk t).view.emb y) = V c main_v67 y
  refine congrArg (V c main_v67) (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega

theorem iblk1_2_eq (c : Dev nD) (t : Fin cfg1.N) : (iblk1 V c 2 t : S64x1.Idx → EReal) = V c main_v68 := by
  obtain ⟨e0, e1, e2, e3, e4, e5, e6, e7, e8, e9⟩ := idx1 t
  funext y
  show V c main_v68 (((cfg1.win 2).blk t).view.emb y) = V c main_v68 y
  refine congrArg (V c main_v68) (funext fun a => Fin.ext ?_)
  match a with
  | ⟨0, _⟩ => show win1_2.index t (0 : Fin 2) * 64 + 1 * (y 0).val = (y 0).val; omega
  | ⟨1, _⟩ => show win1_2.index t (1 : Fin 2) * 1 + 1 * (y 1).val = (y 1).val; omega

theorem iblk1_0_apply (c : Dev nD) (t : Fin cfg1.N) (y : S4x64x8192.Idx) (i : S32x64x8192.Idx)
    (h0 : (i 0).val = 4 * t.val + (y 0).val) (h1 : (i 1).val = (y 1).val) (h2 : (i 2).val = (y 2).val) :
    iblk1 V c 0 t y = V c main_arg0 i := by
  obtain ⟨e0, e1, e2, e3, e4, e5, e6, e7, e8, e9⟩ := idx1 t
  show V c main_arg0 (((cfg1.win 0).blk t).view.emb y) = V c main_arg0 i
  refine congrArg (V c main_arg0) (funext fun a => Fin.ext ?_)
  match a with
  | ⟨0, _⟩ => show win1_0.index t (0 : Fin 3) * 4 + 1 * (y 0).val = (i 0).val; omega
  | ⟨1, _⟩ => show win1_0.index t (1 : Fin 3) * 64 + 1 * (y 1).val = (i 1).val; omega
  | ⟨2, _⟩ => show win1_0.index t (2 : Fin 3) * 8192 + 1 * (y 2).val = (i 2).val; omega

theorem flushed1_3_eq (c : Dev nD) (t : Fin cfg1.N) :
    (dat1 V c).flushed 3 t
      = ((cfg1.win 3).blk t).view.read (Elt Ideal) (applyArr (V c main_arg0) (V c main_v67) (V c main_v68)) := by
  show (cfg1.win 3).cut (grid1.coords t) ((dat1 V c).after 3 t) = _
  rw [after1_3, out1_3_eq]
  obtain ⟨e0, e1, e2, e3, e4, e5, e6, e7, e8, e9⟩ := idx1 t
  funext j
  show applyBlk (iblk1 V c 0 t) (iblk1 V c 1 t) (iblk1 V c 2 t) j
    = applyArr (V c main_arg0) (V c main_v67) (V c main_v68) (((cfg1.win 3).blk t).view.emb j)
  rw [iblk1_1_eq, iblk1_2_eq]
  unfold applyBlk applyArr
  have he0 : ((((cfg1.win 3).blk t).view.emb j) 0).val = 4 * t.val + (j 0).val := by
    show win1_3.index t (0 : Fin 3) * 4 + 1 * (j 0).val = _; omega
  have he1 : ((((cfg1.win 3).blk t).view.emb j) 1).val = (j 1).val := by
    show win1_3.index t (1 : Fin 3) * 64 + 1 * (j 1).val = _; omega
  have he2 : ((((cfg1.win 3).blk t).view.emb j) 2).val = (j 2).val := by
    show win1_3.index t (2 : Fin 3) * 8192 + 1 * (j 2).val = _; omega
  refine congrArg₂ (· - ·) (Finset.sum_congr rfl fun k _ => congrArg₂ (· * ·) (congrArg (V c main_v67) ?_) ?_)
    (congrArg (V c main_v68) ?_)
  · funext a; apply Fin.ext
    match a with
    | ⟨0, _⟩ => exact he1.symm
    | ⟨1, _⟩ => rfl
  · exact iblk1_0_apply V c t _ _ he0 rfl he2
  · funext a; apply Fin.ext
    match a with
    | ⟨0, _⟩ => exact he1.symm
    | ⟨1, _⟩ => rfl

/-- An index of the result array is in point `t`'s block iff each coordinate is in the block's range on its axis. -/
theorem mem_blk1_3 (t : Fin cfg1.N) (i : S32x64x8192.Idx) :
    i ∈ ((cfg1.win 3).blk t).view.set ↔ ∀ a : Fin 3, win1_3.index t a * S4x64x8192.size a ≤ (i a).val
      ∧ (i a).val < win1_3.index t a * S4x64x8192.size a + S4x64x8192.size a := by
  show i ∈ ((View.whole main_v69).slice (win1_3.rect t)).set ↔ _
  rw [View.set_slice_whole, Rect.mem_set_unit]
  exact Iff.rfl

/-- Every index of the result array is in the block of the point its batch falls in. -/
theorem covered1_3 (i : S32x64x8192.Idx) :
    ∃ t : Fin cfg1.N, (cfg1.win 3).flush t = true ∧ i ∈ ((cfg1.win 3).blk t).view.set := by
  have hi0 : (i 0).val < 32 := (i 0).isLt
  have hi1 : (i 1).val < 64 := (i 1).isLt
  have hi2 : (i 2).val < 8192 := (i 2).isLt
  have ht : (i 0).val / 4 < 8 := by omega
  obtain ⟨e0, e1, e2, e3, e4, e5, -⟩ := idx1 (⟨(i 0).val / 4, ht⟩ : Fin cfg1.N)
  have e3' : win1_3.index (⟨(i 0).val / 4, ht⟩ : Fin cfg1.N) (0 : Fin 3) = (i 0).val / 4 := e3
  refine ⟨⟨(i 0).val / 4, ht⟩, flush1_3 _, ?_⟩
  rw [mem_blk1_3]
  intro a
  match a with
  | ⟨0, _⟩ =>
    show win1_3.index _ (0 : Fin 3) * 4 ≤ (i 0).val ∧ (i 0).val < win1_3.index _ (0 : Fin 3) * 4 + 4
    omega
  | ⟨1, _⟩ =>
    show win1_3.index _ (1 : Fin 3) * 64 ≤ (i 1).val ∧ (i 1).val < win1_3.index _ (1 : Fin 3) * 64 + 64
    omega
  | ⟨2, _⟩ =>
    show win1_3.index _ (2 : Fin 3) * 8192 ≤ (i 2).val ∧ (i 2).val < win1_3.index _ (2 : Fin 3) * 8192 + 8192
    omega

/-- The result array after the region. -/
theorem final1_3 (c : Dev nD) :
    (dat1 V c).arrAt 3 cfg1.N = applyArr (V c main_arg0) (V c main_v67) (V c main_v68) :=
  (dat1 V c).arrAt_eq_of_cover 3 _ (fun t _ => flushed1_3_eq V c t) covered1_3

end Cert.KernelIdeal.KValue

end
-- ==== Proof.KStatsArr.lean ====
/-
  The first region's two result arrays, each as one function of the input array.

  The region's eight grid points each read one block of four batches of the input (block t holds the batches
  4t … 4t + 3) and write back one 64 × 64 tile of second moments and one column of 64 sums. What point t writes
  back is block t of the function (n, i, j) ↦ Σ_{a < 4} Σ_l X(4n + a, i, l) · X(4n + a, j, l), respectively of
  (n, i, ·) ↦ Σ_{a < 4} Σ_l X(4n + a, i, l); the eight blocks tile each array, so each array ends holding that
  function.
-/
import proofs.«114804_j29222957482780_2_alg».proof.Proof.KBlocks

set_option maxRecDepth 16384

open scoped BigOperators

noncomputable section

namespace Cert.KernelIdeal.KStatsArr

open Idealize.ShloMosaic Idealize.ShloMosaic.TcCoe Idealize.ShloMosaic.ValueIdx Idealize.SL.Sem
open Cert.KernelIdeal Cert.KernelIdeal.Gen Cert.KernelIdeal.KValue
open Idealize.ShloMosaic.Pipeline (Dat)

variable (V : (c : Dev nD) → (b : Ref sig .tc) → Buf (Elt Ideal) ((c : Thread nD τ).loc b))

/-- Block n's partial second moments: over its four batches and all positions, the products of channels i and j. -/
def blockS1 (X : S32x64x8192.Idx → EReal) (n : Fin 8) (i j : Fin 64) : EReal :=
  ∑ a : Fin 4, ∑ l : Fin 8192, X (ix3 ⟨4 * n.val + a.val, by omega⟩ i l) * X (ix3 ⟨4 * n.val + a.val, by omega⟩ j l)

/-- Block n's partial sums: over its four batches and all positions, channel i. -/
def blockS (X : S32x64x8192.Idx → EReal) (n : Fin 8) (i : Fin 64) : EReal :=
  ∑ a : Fin 4, ∑ l : Fin 8192, X (ix3 ⟨4 * n.val + a.val, by omega⟩ i l)

/-- The printed index maps of the first region, decided over its eight grid points: every window's block index is
    (t, 0, 0) at point t. -/
theorem idx0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The input block of point t at (a, p, q) is the input array at (4t + a, p, q). -/
theorem iblk0_0_apply (c : Dev nD) (t : Fin cfg0.N) (y : S4x64x8192.Idx) (i : S32x64x8192.Idx)
    (h0 : (i 0).val = 4 * t.val + (y 0).val) (h1 : (i 1).val = (y 1).val) (h2 : (i 2).val = (y 2).val) :
    iblk0 V c 0 t y = V c main_arg0 i := by
  obtain ⟨e0, e1, e2, e3, e4, e5, e6, e7, e8⟩ := idx0 t
  show V c main_arg0 (((cfg0.win 0).blk t).view.emb y) = V c main_arg0 i
  refine congrArg (V c main_arg0) (funext fun a => Fin.ext ?_)
  match a with
  | ⟨0, _⟩ => show win0_0.index t (0 : Fin 3) * 4 + 1 * (y 0).val = (i 0).val; omega
  | ⟨1, _⟩ => show win0_0.index t (1 : Fin 3) * 64 + 1 * (y 1).val = (i 1).val; omega
  | ⟨2, _⟩ => show win0_0.index t (2 : Fin 3) * 8192 + 1 * (y 2).val = (i 2).val; omega

/-! ## The tiles of second moments -/

/-- What point t writes back to the array of tiles is block t of the partial second moments. -/
theorem flushed0_1_eq (c : Dev nD) (t : Fin cfg0.N) :
    (dat0 V c).flushed 1 t
      = ((cfg0.win 1).blk t).view.read (Elt Ideal) (fun y : S8x64x64.Idx => blockS1 (V c main_arg0) (y 0) (y 1) (y 2)) := by
  show (cfg0.win 1).cut (grid0.coords t) ((dat0 V c).after 1 t) = _
  rw [after0_1, out0_1_eq]
  obtain ⟨e0, e1, e2, e3, e4, e5, e6, e7, e8⟩ := idx0 t
  funext j
  show statsTile (iblk0 V c 0 t) j
    = blockS1 (V c main_arg0) ((((cfg0.win 1).blk t).view.emb j) 0) ((((cfg0.win 1).blk t).view.emb j) 1)
        ((((cfg0.win 1).blk t).view.emb j) 2)
  unfold statsTile blockS1
  have hj0 : (j 0).val < 1 := (j 0).isLt
  have he0 : ((((cfg0.win 1).blk t).view.emb j) 0).val = t.val := by
    show win0_1.index t (0 : Fin 3) * 1 + 1 * (j 0).val = _; omega
  have he1 : ((((cfg0.win 1).blk t).view.emb j) 1).val = (j 1).val := by
    show win0_1.index t (1 : Fin 3) * 64 + 1 * (j 1).val = _; omega
  have he2 : ((((cfg0.win 1).blk t).view.emb j) 2).val = (j 2).val := by
    show win0_1.index t (2 : Fin 3) * 64 + 1 * (j 2).val = _; omega
  refine Finset.sum_congr rfl fun a _ => Finset.sum_congr rfl fun l _ => congrArg₂ (· * ·) ?_ ?_
  · refine iblk0_0_apply V c t _ _ ?_ he1 rfl
    show 4 * ((((cfg0.win 1).blk t).view.emb j) 0).val + a.val = 4 * t.val + a.val
    omega
  · refine iblk0_0_apply V c t _ _ ?_ he2 rfl
    show 4 * ((((cfg0.win 1).blk t).view.emb j) 0).val + a.val = 4 * t.val + a.val
    omega

/-- An index of the array of tiles is in point t's block iff each coordinate is in the block's range on its axis. -/
theorem mem_blk0_1 (t : Fin cfg0.N) (i : S8x64x64.Idx) :
    i ∈ ((cfg0.win 1).blk t).view.set ↔ ∀ a : Fin 3, win0_1.index t a * S1x64x64.size a ≤ (i a).val
      ∧ (i a).val < win0_1.index t a * S1x64x64.size a + S1x64x64.size a := by
  show i ∈ ((View.whole main_v0_0).slice (win0_1.rect t)).set ↔ _
  rw [View.set_slice_whole, Rect.mem_set_unit]
  exact Iff.rfl

/-- Every index of the array of tiles is in the block of the point that is its first coordinate. -/
theorem covered0_1 (i : S8x64x64.Idx) :
    ∃ t : Fin cfg0.N, (cfg0.win 1).flush t = true ∧ i ∈ ((cfg0.win 1).blk t).view.set := by
  have hi0 : (i 0).val < 8 := (i 0).isLt
  have hi1 : (i 1).val < 64 := (i 1).isLt
  have hi2 : (i 2).val < 64 := (i 2).isLt
  obtain ⟨-, -, -, e3, e4, e5, -⟩ := idx0 (⟨(i 0).val, hi0⟩ : Fin cfg0.N)
  have e3' : win0_1.index (⟨(i 0).val, hi0⟩ : Fin cfg0.N) (0 : Fin 3) = (i 0).val := e3
  refine ⟨⟨(i 0).val, hi0⟩, flush0_1 _, ?_⟩
  rw [mem_blk0_1]
  intro a
  match a with
  | ⟨0, _⟩ =>
    show win0_1.index _ (0 : Fin 3) * 1 ≤ (i 0).val ∧ (i 0).val < win0_1.index _ (0 : Fin 3) * 1 + 1
    omega
  | ⟨1, _⟩ =>
    show win0_1.index _ (1 : Fin 3) * 64 ≤ (i 1).val ∧ (i 1).val < win0_1.index _ (1 : Fin 3) * 64 + 64
    omega
  | ⟨2, _⟩ =>
    show win0_1.index _ (2 : Fin 3) * 64 ≤ (i 2).val ∧ (i 2).val < win0_1.index _ (2 : Fin 3) * 64 + 64
    omega

/-- The array of tiles after the region: tile n holds block n's partial second moments. -/
theorem final0_1 (c : Dev nD) :
    (dat0 V c).arrAt 1 cfg0.N = fun y : S8x64x64.Idx => blockS1 (V c main_arg0) (y 0) (y 1) (y 2) :=
  (dat0 V c).arrAt_eq_of_cover 1 _ (fun t _ => flushed0_1_eq V c t) covered0_1

/-! ## The columns of sums -/

/-- What point t writes back to the array of columns is block t of the partial sums. -/
theorem flushed0_2_eq (c : Dev nD) (t : Fin cfg0.N) :
    (dat0 V c).flushed 2 t
      = ((cfg0.win 2).blk t).view.read (Elt Ideal) (fun y : S8x64x1.Idx => blockS (V c main_arg0) (y 0) (y 1)) := by
  show (cfg0.win 2).cut (grid0.coords t) ((dat0 V c).after 2 t) = _
  rw [after0_2, out0_2_eq]
  obtain ⟨e0, e1, e2, e3, e4, e5, e6, e7, e8⟩ := idx0 t
  funext j
  show statsCol (iblk0 V c 0 t) j
    = blockS (V c main_arg0) ((((cfg0.win 2).blk t).view.emb j) 0) ((((cfg0.win 2).blk t).view.emb j) 1)
  unfold statsCol blockS
  have hj0 : (j 0).val < 1 := (j 0).isLt
  have he0 : ((((cfg0.win 2).blk t).view.emb j) 0).val = t.val := by
    show win0_2.index t (0 : Fin 3) * 1 + 1 * (j 0).val = _; omega
  have he1 : ((((cfg0.win 2).blk t).view.emb j) 1).val = (j 1).val := by
    show win0_2.index t (1 : Fin 3) * 64 + 1 * (j 1).val = _; omega
  refine Finset.sum_congr rfl fun a _ => Finset.sum_congr rfl fun l _ => ?_
  refine iblk0_0_apply V c t _ _ ?_ he1 rfl
  show 4 * ((((cfg0.win 2).blk t).view.emb j) 0).val + a.val = 4 * t.val + a.val
  omega

/-- An index of the array of columns is in point t's block iff each coordinate is in the block's range on its axis. -/
theorem mem_blk0_2 (t : Fin cfg0.N) (i : S8x64x1.Idx) :
    i ∈ ((cfg0.win 2).blk t).view.set ↔ ∀ a : Fin 3, win0_2.index t a * S1x64x1.size a ≤ (i a).val
      ∧ (i a).val < win0_2.index t a * S1x64x1.size a + S1x64x1.size a := by
  show i ∈ ((View.whole main_v0_1).slice (win0_2.rect t)).set ↔ _
  rw [View.set_slice_whole, Rect.mem_set_unit]
  exact Iff.rfl

/-- Every index of the array of columns is in the block of the point that is its first coordinate. -/
theorem covered0_2 (i : S8x64x1.Idx) :
    ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 1 := (i 2).isLt
  obtain ⟨-, -, -, -, -, -, e6, e7, e8⟩ := idx0 (⟨(i 0).val, hi0⟩ : Fin cfg0.N)
  have e6' : win0_2.index (⟨(i 0).val, hi0⟩ : Fin cfg0.N) (0 : Fin 3) = (i 0).val := e6
  refine ⟨⟨(i 0).val, hi0⟩, flush0_2 _, ?_⟩
  rw [mem_blk0_2]
  intro a
  match a with
  | ⟨0, _⟩ =>
    show win0_2.index _ (0 : Fin 3) * 1 ≤ (i 0).val ∧ (i 0).val < win0_2.index _ (0 : Fin 3) * 1 + 1
    omega
  | ⟨1, _⟩ =>
    show win0_2.index _ (1 : Fin 3) * 64 ≤ (i 1).val ∧ (i 1).val < win0_2.index _ (1 : Fin 3) * 64 + 64
    omega
  | ⟨2, _⟩ =>
    show win0_2.index _ (2 : Fin 3) * 1 ≤ (i 2).val ∧ (i 2).val < win0_2.index _ (2 : Fin 3) * 1 + 1
    omega

/-- The array of columns after the region: column n holds block n's partial sums. -/
theorem final0_2 (c : Dev nD) :
    (dat0 V c).arrAt 2 cfg0.N = fun y : S8x64x1.Idx => blockS (V c main_arg0) (y 0) (y 1) :=
  (dat0 V c).arrAt_eq_of_cover 2 _ (fun t _ => flushed0_2_eq V c t) covered0_2

end Cert.KernelIdeal.KStatsArr

end
-- ==== Proof.Whitening.lean ====
/-
  Whitening by a Newton–Schulz iteration: the two computations of this certificate as functions of the input
  array by coordinates, on the extended reals.

  The input is x(b, i, l), 32 batches of 64 channels by 8192 positions; M = 32 · 8192 = 2^18 samples per channel.

  One computation ("two-pass", prefix `r`): the channel means μ_i = (Σ_{b,l} x(b,i,l)) / M, the centred array
  xc = x − μ, the covariance Σ = ε·I + (Σ_{b,l} xc(b,i,l)·xc(b,j,l)) · 2^-18, its trace t, Σ_N = Σ · (1/t), five steps
  P ← 1.5·P − (0.5·((P·P)·P))·Σ_N from P = I, W = P · √(1/t), and the result Σ_k W(i,k)·xc(b,k,l).

  The other ("one-pass", prefix `k`): per block of four batches the partial second moments and sums, added over
  the eight blocks into S1(i,j) = Σ x(b,i,l)·x(b,j,l) and s(i) = Σ x(b,i,l); μ = s / M,
  Σ = ε·I + S1 / M − (s(i)·s(j)) / M², the same trace, Σ_N and W but with each step written
  P ← 1.5·P − 0.5·(((P·P)·P)·Σ_N), a bias β_i = Σ_k W(i,k)·μ_k, and the result Σ_k W(i,k)·x(b,k,l) − β_i.

  The float literals stay the words the programs hold (ε = 0x3727C5AC, M = 0x48800000, M² = 0x51800000,
  2^-18 = 0x36800000, 1, 1.5, 0.5); division and square root are the extended reals' (`Ideal.div`, `Ideal.sqrt`).
-/
import Idealize.ShloMosaic.PureOps.Ideal
import Idealize.ShloMosaic.Lib.ValueIdx

open scoped BigOperators

noncomputable section

namespace Cert.Whitening

open Idealize.ShloMosaic Idealize.ShloMosaic.ValueIdx

/-- The input and the result by coordinates: batch, channel, position. -/
abbrev Arr := Fin 32 → Fin 64 → Fin 8192 → EReal
/-- A 64 × 64 matrix by coordinates. -/
abbrev Mat := Fin 64 → Fin 64 → EReal
/-- A column of 64 entries. -/
abbrev Col := Fin 64 → EReal

/-- The shape of the input and of the result. -/
abbrev SX : Shape := ⟨3, ![32, 64, 8192]⟩

/-- An array of shape [32, 64, 8192] read by coordinates. -/
def coords (X : SX.Idx → EReal) : Arr := fun b i l => X (ix3 b i l)
/-- A function of coordinates as an array of shape [32, 64, 8192]. -/
def ofCoords (G : Arr) : SX.Idx → EReal := fun y => G (y 0) (y 1) (y 2)

theorem ofCoords_ix3 (G : Arr) (b : Fin 32) (i : Fin 64) (l : Fin 8192) : ofCoords G (ix3 b i l) = G b i l := rfl

/-! ## The literals -/

def wEps : EReal := Ideal.ofBits .f32 0x3727C5AC#32
def wM : EReal := Ideal.ofBits .f32 0x48800000#32
def wMM : EReal := Ideal.ofBits .f32 0x51800000#32
def wInvM : EReal := Ideal.ofBits .f32 0x36800000#32
def wOne : EReal := Ideal.ofBits .f32 0x3F800000#32
def w15 : EReal := Ideal.ofBits .f32 0x3FC00000#32
def w05 : EReal := Ideal.ofBits .f32 0x3F000000#32

/-! ## What both computations share -/

/-- The identity matrix. -/
def eye : Mat := fun i j => if i = j then 1 else 0
/-- The matrix product. -/
def mm (A B : Mat) : Mat := fun i j => ∑ k, A i k * B k j
/-- The trace. -/
def tr (A : Mat) : EReal := ∑ i, A i i
/-- The reciprocal of the trace. -/
def rTr (S : Mat) : EReal := Ideal.div wOne (tr S)
/-- The covariance scaled to unit trace. -/
def sigN (S : Mat) : Mat := fun i j => S i j * rTr S
/-- The whitening matrix from the last iterate. -/
def wmOf (S P : Mat) : Mat := fun i j => P i j * Ideal.sqrt (rTr S)

/-! ## The one-pass computation -/

/-- Block `n`'s partial second moments: its four batches, each contracted over the positions. -/
def kBlockS1 (X : Arr) (n : Fin 8) : Mat := fun i j =>
  ∑ a : Fin 4, ∑ l, X ⟨4 * n.val + a.val, by omega⟩ i l * X ⟨4 * n.val + a.val, by omega⟩ j l
/-- Block `n`'s partial sums. -/
def kBlockS (X : Arr) (n : Fin 8) : Col := fun i => ∑ a : Fin 4, ∑ l, X ⟨4 * n.val + a.val, by omega⟩ i l
def kS1 (X : Arr) : Mat := fun i j => ∑ n, kBlockS1 X n i j
def kS (X : Arr) : Col := fun i => ∑ n, kBlockS X n i
def kMean (X : Arr) : Col := fun i => Ideal.div (kS X i) wM
def kSigma (X : Arr) : Mat := fun i j =>
  eye i j * wEps + Ideal.div (kS1 X i j) wM - Ideal.div (kS X i * kS X j) wMM
def kStep (SN P : Mat) : Mat := fun i j => w15 * P i j - w05 * mm (mm (mm P P) P) SN i j
def kP (X : Arr) : Mat :=
  kStep (sigN (kSigma X)) (kStep (sigN (kSigma X)) (kStep (sigN (kSigma X)) (kStep (sigN (kSigma X))
    (kStep (sigN (kSigma X)) eye))))
def kWm (X : Arr) : Mat := wmOf (kSigma X) (kP X)
def kBias (X : Arr) : Col := fun i => ∑ k, kWm X i k * kMean X k
def kOut (X : Arr) : Arr := fun b i l => (∑ k, kWm X i k * X b k l) - kBias X i

/-! ## The two-pass computation -/

def rSum (X : Arr) : Col := fun i => ∑ b, ∑ l, X b i l
def rMean (X : Arr) : Col := fun i => Ideal.div (rSum X i) wM
def rC (X : Arr) : Arr := fun b i l => X b i l - rMean X i
def rSigma (X : Arr) : Mat := fun i j => eye i j * wEps + (∑ b, ∑ l, rC X b i l * rC X b j l) * wInvM
def rStep (SN P : Mat) : Mat := fun i j => w15 * P i j - mm (fun a b => w05 * mm (mm P P) P a b) SN i j
def rP (X : Arr) : Mat :=
  rStep (sigN (rSigma X)) (rStep (sigN (rSigma X)) (rStep (sigN (rSigma X)) (rStep (sigN (rSigma X))
    (rStep (sigN (rSigma X)) eye))))
def rWm (X : Arr) : Mat := wmOf (rSigma X) (rP X)
def rOut (X : Arr) : Arr := fun b i l => ∑ k, rWm X i k * rC X b k l

end Cert.Whitening

end
-- ==== Proof.LibEyeTrace.lean ====
/-
  The identity matrix (jnp.eye) and the trace (jnp.trace) of a 64 × 64 matrix as the host writes them, read by
  coordinates on the extended reals.

  The identity matrix is written as: the row number (plus a splat of the integer 0) compared for equality with the
  column number, both as 32-bit words, and the resulting bit converted to a float. Rows and columns are below 64, far
  below 2^32, so the words are equal exactly when the numbers are, and the bit reads as 1 on the diagonal and 0 off it.

  The trace is written as: that same comparison selects the matrix's entry on the diagonal and the float zero off it,
  and the host sums the selected matrix over both axes from the float zero. The sum over all pairs (i, j) of
  "A(i, j) if i = j, else 0" is the sum over i of A(i, i).
-/
import Idealize.ShloMosaic.PureOps.Ideal
import Idealize.ShloMosaic.PureOps.Ideal.Laws
import Idealize.ShloMosaic.Lib.ValueIdx

open scoped BigOperators

noncomputable section

namespace Cert.MidOps

open Idealize.ShloMosaic Idealize.ShloMosaic.ValueIdx

/-- The shape of a 64 × 64 matrix. -/
abbrev S64 : Shape := ⟨2, ![64, 64]⟩
/-- The shape of a scalar. -/
abbrev S0 : Shape := ⟨0, ![]⟩

/-- Two numbers below 64 are equal as 32-bit words exactly when they are equal. -/
theorem ofNat_eq_iff (i j : Fin 64) : BitVec.ofNat 32 i.val = BitVec.ofNat 32 j.val ↔ i = j := by
  constructor
  · intro h
    have e := congrArg BitVec.toNat h
    simp only [BitVec.toNat_ofNat] at e
    have := i.isLt; have := j.isLt
    apply Fin.ext; omega
  · rintro rfl; rfl

/-- The comparison "row number + 0 = column number" at the entry (i, j): the bit 1 on the diagonal, 0 off it. -/
theorem diag_apply (hb : S0.BroadcastsInDim S64 (![] : Fin 0 → Fin S64.rank)) (i j : Fin 64) :
    cmpi .eq (addi (iotaInDim S64 32 0) (broadcastInDim S64 ![] hb (constantI S0 32 0#32))) (iotaInDim S64 32 1) (ix2 i j)
      = if i = j then 1#1 else 0#1 := by
  show IntOp.cmpi .eq (IntOp.addi (BitVec.ofNat 32 i.val) 0#32) (BitVec.ofNat 32 j.val) = _
  have h0 : IntOp.addi (BitVec.ofNat 32 i.val) 0#32 = BitVec.ofNat 32 i.val := BitVec.add_zero _
  rw [h0]
  show BitVec.ofBool (BitVec.ofNat 32 i.val == BitVec.ofNat 32 j.val) = _
  by_cases h : i = j
  · subst h; simp
  · have hne : BitVec.ofNat 32 i.val ≠ BitVec.ofNat 32 j.val := fun e => h ((ofNat_eq_iff i j).1 e)
    rw [beq_eq_false_iff_ne.2 hne, if_neg h]
    rfl

/-- The identity matrix as the programs write it, at the entry (i, j): 1 on the diagonal, 0 off it. -/
theorem eye_apply (hb : S0.BroadcastsInDim S64 (![] : Fin 0 → Fin S64.rank)) (i j : Fin 64) :
    (uitofp .f32 (cmpi .eq (addi (iotaInDim S64 32 0) (broadcastInDim S64 ![] hb (constantI S0 32 0#32)))
      (iotaInDim S64 32 1)) : FVec Ideal S64 .f32) (ix2 i j) = if i = j then (1 : EReal) else 0 := by
  show (((cmpi .eq (addi (iotaInDim S64 32 0) (broadcastInDim S64 ![] hb (constantI S0 32 0#32)))
      (iotaInDim S64 32 1) (ix2 i j)).toNat : ℝ) : EReal) = _
  rw [diag_apply hb i j]
  by_cases h : i = j
  · simp [h]
  · simp [h]

/-- The same with the two coordinates compared as numbers. -/
theorem eye_apply_val (hb : S0.BroadcastsInDim S64 (![] : Fin 0 → Fin S64.rank)) (i j : Fin 64) :
    (uitofp .f32 (cmpi .eq (addi (iotaInDim S64 32 0) (broadcastInDim S64 ![] hb (constantI S0 32 0#32)))
      (iotaInDim S64 32 1)) : FVec Ideal S64 .f32) (ix2 i j) = if i.val = j.val then (1 : EReal) else 0 := by
  rw [eye_apply hb i j]
  by_cases h : i = j
  · rw [if_pos h, if_pos (congrArg Fin.val h)]
  · rw [if_neg h, if_neg (fun e => h (Fin.ext e))]

/-- The same at any index of the matrix: 1 where the two coordinates are the same number, 0 elsewhere. -/
theorem eye_apply_idx (hb : S0.BroadcastsInDim S64 (![] : Fin 0 → Fin S64.rank)) (y : S64.Idx) :
    (uitofp .f32 (cmpi .eq (addi (iotaInDim S64 32 0) (broadcastInDim S64 ![] hb (constantI S0 32 0#32)))
      (iotaInDim S64 32 1)) : FVec Ideal S64 .f32) y = if (y 0).val = (y 1).val then (1 : EReal) else 0 := by
  have hy : y = ix2 (n0 := 64) (n1 := 64) (y 0) (y 1) := eq_ix2 y
  conv_lhs => rw [hy]
  exact eye_apply_val hb (y 0) (y 1)

/-- The selection the trace makes at the entry (i, j): the matrix's entry on the diagonal, 0 off it. -/
theorem diagSelect_apply (hb : S0.BroadcastsInDim S64 (![] : Fin 0 → Fin S64.rank)) (A : FVec Ideal S64 .f32) (i j : Fin 64) :
    select (cmpi .eq (addi (iotaInDim S64 32 0) (broadcastInDim S64 ![] hb (constantI S0 32 0#32))) (iotaInDim S64 32 1))
      A (broadcastInDim S64 ![] hb (constant S0 .f32 0x00000000#32)) (ix2 i j) = if i = j then A (ix2 i j) else 0 := by
  show Scalar.select (cmpi .eq (addi (iotaInDim S64 32 0) (broadcastInDim S64 ![] hb (constantI S0 32 0#32)))
      (iotaInDim S64 32 1) (ix2 i j)) (A (ix2 i j)) (Ideal.ofBits .f32 0x00000000#32) = _
  rw [diag_apply hb i j, Ideal.ofBits_zero_f32]
  by_cases h : i = j
  · rw [if_pos h, if_pos h, select_one]
  · rw [if_neg h, if_neg h, select_zero]

/-- The trace as the programs write it: the host's sum, over both axes and from the float zero, of the matrix with
    everything off the diagonal replaced by zero, is the sum of the diagonal entries. -/
theorem trace_apply (hb : S0.BroadcastsInDim S64 (![] : Fin 0 → Fin S64.rank)) (hr : S64.ReducesTo [0, 1] S0)
    (h0 : 0 < S0.numel) (A : FVec Ideal S64 .f32) :
    Host.reduceAdd
      (select (cmpi .eq (addi (iotaInDim S64 32 0) (broadcastInDim S64 ![] hb (constantI S0 32 0#32))) (iotaInDim S64 32 1))
        A (broadcastInDim S64 ![] hb (constant S0 .f32 0x00000000#32)))
      (constant S0 .f32 0x00000000#32) hr h0 ValueIdx.ix0 = ∑ i : Fin 64, A (ix2 i i) := by
  simp only [Host.reduceAdd, Ideal.hostReduceAdd_def]
  rw [Ideal.hostReduceAdd_total hr (fun b => b.elim0), constant_apply, Ideal.ofBits_zero_f32, zero_add, sum_idx2]
  refine Finset.sum_congr rfl fun i _ => ?_
  simp only [diagSelect_apply hb A]
  rw [Finset.sum_ite_eq]
  exact if_pos (Finset.mem_univ i)

end Cert.MidOps

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.KMid.lean ====
/-
  The host operations between the two regions, read by coordinates.

  Each stage of the chain is an array operation; read at an index it is the corresponding operation of the
  specification on the entries:
    * a literal spread over a matrix is the literal's value at every entry; the comparison of the row number with the
      column number, converted to a float, is the identity matrix;
    * the sum over the leading axis of eight tiles is, at (i, j), the sum over the tiles of their entries (i, j),
      from the float zero;
    * the quotient, the product, the sum and the difference of arrays are taken entry by entry;
    * the product of a column [64, 1] with its transpose [1, 64] contracts an axis of extent one: at (i, j) it is
      the product of the column's entries i and j;
    * the trace selects the diagonal and sums everything; a scalar spread over a matrix is that scalar everywhere;
    * a matrix product at (i, j) is the sum over k of the products of the entries (i, k) and (k, j).
  Composed, the chain gives the specification's covariance, its trace, the scaled covariance, the five
  Newton–Schulz steps, the whitening matrix and the bias column of the one-pass computation.
-/
import proofs.«114804_j29222957482780_2_alg».proof.Proof.KHost
import proofs.«114804_j29222957482780_2_alg».proof.Proof.Whitening
import proofs.«114804_j29222957482780_2_alg».proof.Proof.LibEyeTrace
import proofs.«114804_j29222957482780_2_alg».proof.Proof.LibHostMatmulNN
import Idealize.ShloMosaic.Lib.ValueLayout

open scoped BigOperators

noncomputable section

namespace Cert.KernelIdeal.KMid

open Cert.KernelIdeal Cert.KernelIdeal.KValue Cert.Whitening Idealize.ShloMosaic Idealize.ShloMosaic.ValueIdx

/-! ## The single operations at an index -/

theorem zeroS_apply (j : S_.Idx) : zeroS j = 0 := Ideal.ofBits_zero_f32

theorem bcastS_apply (v : Sc) (j : S64x64.Idx) : bcastS v j = v ix0 :=
  broadcastInDim_apply _ _ v j ix0 fun a => a.elim0

theorem splat_apply (w : BitVec 32) (j : S64x64.Idx) : splat w j = Ideal.ofBits .f32 w := by
  unfold splat
  rw [bcastS_apply]
  rfl

theorem eyeV_apply (i j : Fin 64) : eyeV (ix2 i j) = eye i j :=
  Cert.MidOps.eye_apply Facts₀.bcast_S_S64x64 i j

/-- The host's sum of an `[n, a, b]` array over its leading axis, at `(p, q)`: the initial value plus the sum over
    `k` of the entries `(k, p, q)`. -/
theorem hostReduceAdd_lead_apply {n a b : ℕ} {φ : FTy} {u : Shape} (x : FVec Ideal ⟨3, ![n, a, b]⟩ φ)
    (init : u.Idx → Ideal φ) (h' : (⟨3, ![n, a, b]⟩ : Shape).ReducesTo [0] ⟨2, ![a, b]⟩)
    (h : (⟨3, ![n, a, b]⟩ : Shape).Reduces [0] ⟨2, ![a, b]⟩) (hu : 0 < u.numel) (p : Fin a) (q : Fin b) :
    Host.reduceAdd x init h' hu (ix2 p q) = init (Shape.Idx.first hu) + ∑ k : Fin n, x (ix3 k p q) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl
  | ⟨2, _⟩ => rfl

theorem s1V_apply (P : FVec Ideal S8x64x64 .f32) (i j : Fin 64) : s1V P (ix2 i j) = ∑ n : Fin 8, P (ix3 n i j) := by
  unfold s1V
  rw [hostReduceAdd_lead_apply P zeroS _ (by decide) _ i j, zeroS_apply, zero_add]

theorem sV_apply (P : FVec Ideal S8x64x1 .f32) (i : Fin 64) (z : Fin 1) : sV P (ix2 i z) = ∑ n : Fin 8, P (ix3 n i z) := by
  unfold sV
  rw [hostReduceAdd_lead_apply P zeroS _ (by decide) _ i z, zeroS_apply, zero_add]

theorem meanV_apply (s : Cl) (j : S64x1.Idx) : meanV s j = Ideal.div (s j) wM := by
  show Ideal.div (s j)
    (broadcastInDim S64x1 ![] Facts₀.bcast_S_S64x1 (constant (F := Ideal) S_ .f32 0x48800000#32) j) = _
  rw [broadcastInDim_apply _ _ _ j ix0 fun a => a.elim0]
  rfl

theorem sigmaV_apply (S1 : Mt) (s : Cl) (i j : Fin 64) :
    sigmaV S1 s (ix2 i j)
      = eye i j * wEps + Ideal.div (S1 (ix2 i j)) wM - Ideal.div (s (ix2 i 0) * s (ix2 j 0)) wMM := by
  have hd : Host.dotGeneral (F := Ideal) dot_S64x1_S1x64_S64x64_1_0_0_1_n_n none s
      (transpose S1x64 [1, 0] s Facts₀.transposes_S64x1_S1x64_1_0) (ix2 i j) = s (ix2 i 0) * s (ix2 j 0) := by
    rw [Cert.LibHostMatmulNN.hostDot_nn_apply _ rfl rfl rfl rfl rfl rfl, Fin.sum_univ_one, transpose_ix2_apply]
  show eyeV (ix2 i j) * splat 0x3727C5AC#32 (ix2 i j) + Ideal.div (S1 (ix2 i j)) (splat 0x48800000#32 (ix2 i j))
      - Ideal.div (Host.dotGeneral (F := Ideal) dot_S64x1_S1x64_S64x64_1_0_0_1_n_n none s
          (transpose S1x64 [1, 0] s Facts₀.transposes_S64x1_S1x64_1_0) (ix2 i j)) (splat 0x51800000#32 (ix2 i j)) = _
  rw [hd, eyeV_apply, splat_apply, splat_apply, splat_apply]
  rfl

theorem traceV_apply (A : Mt) : traceV A ix0 = ∑ i : Fin 64, A (ix2 i i) :=
  Cert.MidOps.trace_apply Facts₀.bcast_S_S64x64 Facts₀.reducesTo_S64x64_S_d0_1 Facts₀.h_S_ A

theorem rTrV_apply (t : Sc) (j : S_.Idx) : rTrV t j = Ideal.div wOne (t j) := rfl

theorem mmV_apply (A B : Mt) (i j : Fin 64) : mmV A B (ix2 i j) = ∑ k : Fin 64, A (ix2 i k) * B (ix2 k j) :=
  Cert.LibHostMatmulNN.hostDot_nn_apply _ rfl rfl rfl rfl rfl rfl none A B i j

theorem biasV_apply (W : Mt) (μ : Cl) (i : Fin 64) (z : Fin 1) :
    biasV W μ (ix2 i z) = ∑ k : Fin 64, W (ix2 i k) * μ (ix2 k z) :=
  Cert.LibHostMatmulNN.hostDot_nn_apply _ rfl rfl rfl rfl rfl rfl none W μ i z

/-! ## The stages on matrices given by their entries -/

theorem mmV_coords {A B : Mt} {a b : Mat} (hA : ∀ i j, A (ix2 i j) = a i j) (hB : ∀ i j, B (ix2 i j) = b i j)
    (i j : Fin 64) : mmV A B (ix2 i j) = mm a b i j := by
  rw [mmV_apply]
  exact Finset.sum_congr rfl fun k _ => by rw [hA, hB]

theorem stepV_coords {SN P : Mt} {sn p : Mat} (hSN : ∀ i j, SN (ix2 i j) = sn i j) (hP : ∀ i j, P (ix2 i j) = p i j)
    (i j : Fin 64) : stepV SN P (ix2 i j) = kStep sn p i j := by
  have h3 := mmV_coords (mmV_coords (mmV_coords hP hP) hP) hSN i j
  show splat 0x3FC00000#32 (ix2 i j) * P (ix2 i j)
      - splat 0x3F000000#32 (ix2 i j) * mmV (mmV (mmV P P) P) SN (ix2 i j) = _
  rw [splat_apply, splat_apply, hP, h3]
  rfl

theorem wmV_coords {A E : Mt} {t : Sc} {a : Mat} (hA : ∀ i j, A (ix2 i j) = a i j) (ht : t ix0 = tr a)
    (hE : ∀ i j, E (ix2 i j) = eye i j) (i j : Fin 64) :
    wmV A t E (ix2 i j)
      = wmOf a (kStep (sigN a) (kStep (sigN a) (kStep (sigN a) (kStep (sigN a) (kStep (sigN a) eye))))) i j := by
  have hr : rTrV t ix0 = rTr a := by
    rw [rTrV_apply, ht]
    rfl
  have hSN : ∀ i j, mulf A (bcastS (rTrV t)) (ix2 i j) = sigN a i j := by
    intro i j
    rw [mulf_apply, bcastS_apply, hA, hr]
    rfl
  have h5 := stepV_coords hSN (stepV_coords hSN (stepV_coords hSN (stepV_coords hSN (stepV_coords hSN hE)))) i j
  unfold wmV
  rw [mulf_apply, h5, bcastS_apply]
  show _ * Ideal.sqrt (rTrV t ix0) = _
  rw [hr]
  rfl

/-! ## The chain from the first region's partial sums -/

theorem s1_read (X : Arr) (P1 : FVec Ideal S8x64x64 .f32)
    (h1 : ∀ (n : Fin 8) (i j : Fin 64), P1 (ix3 n i j) = kBlockS1 X n i j) (i j : Fin 64) :
    s1V P1 (ix2 i j) = kS1 X i j := by
  rw [s1V_apply]
  exact Finset.sum_congr rfl fun n _ => h1 n i j

theorem s_read (X : Arr) (P2 : FVec Ideal S8x64x1 .f32)
    (h2 : ∀ (n : Fin 8) (i : Fin 64) (z : Fin 1), P2 (ix3 n i z) = kBlockS X n i) (i : Fin 64) (z : Fin 1) :
    sV P2 (ix2 i z) = kS X i := by
  rw [sV_apply]
  exact Finset.sum_congr rfl fun n _ => h2 n i z

theorem sigma_read (X : Arr) (P1 : FVec Ideal S8x64x64 .f32) (P2 : FVec Ideal S8x64x1 .f32)
    (h1 : ∀ (n : Fin 8) (i j : Fin 64), P1 (ix3 n i j) = kBlockS1 X n i j)
    (h2 : ∀ (n : Fin 8) (i : Fin 64) (z : Fin 1), P2 (ix3 n i z) = kBlockS X n i) (i j : Fin 64) :
    sigmaV (s1V P1) (sV P2) (ix2 i j) = kSigma X i j := by
  rw [sigmaV_apply, s1_read X P1 h1, s_read X P2 h2, s_read X P2 h2]
  rfl

theorem trace_read (X : Arr) (P1 : FVec Ideal S8x64x64 .f32) (P2 : FVec Ideal S8x64x1 .f32)
    (h1 : ∀ (n : Fin 8) (i j : Fin 64), P1 (ix3 n i j) = kBlockS1 X n i j)
    (h2 : ∀ (n : Fin 8) (i : Fin 64) (z : Fin 1), P2 (ix3 n i z) = kBlockS X n i) :
    traceV (sigmaV (s1V P1) (sV P2)) ix0 = tr (kSigma X) := by
  rw [traceV_apply]
  exact Finset.sum_congr rfl fun i _ => sigma_read X P1 P2 h1 h2 i i

/-- The whitening matrix the host chain computes is the specification's, entry by entry. -/
theorem kWm_read (X : Arr) (P1 : FVec Ideal S8x64x64 .f32) (P2 : FVec Ideal S8x64x1 .f32)
    (h1 : ∀ (n : Fin 8) (i j : Fin 64), P1 (ix3 n i j) = kBlockS1 X n i j)
    (h2 : ∀ (n : Fin 8) (i : Fin 64) (z : Fin 1), P2 (ix3 n i z) = kBlockS X n i) (i j : Fin 64) :
    wmV (sigmaV (s1V P1) (sV P2)) (traceV (sigmaV (s1V P1) (sV P2))) eyeV (ix2 i j) = kWm X i j :=
  wmV_coords (sigma_read X P1 P2 h1 h2) (trace_read X P1 P2 h1 h2) eyeV_apply i j

/-- The bias column the host chain computes is the specification's, entry by entry. -/
theorem kBias_read (X : Arr) (P1 : FVec Ideal S8x64x64 .f32) (P2 : FVec Ideal S8x64x1 .f32)
    (h1 : ∀ (n : Fin 8) (i j : Fin 64), P1 (ix3 n i j) = kBlockS1 X n i j)
    (h2 : ∀ (n : Fin 8) (i : Fin 64) (z : Fin 1), P2 (ix3 n i z) = kBlockS X n i) (i : Fin 64) (z : Fin 1) :
    biasV (wmV (sigmaV (s1V P1) (sV P2)) (traceV (sigmaV (s1V P1) (sV P2))) eyeV) (meanV (sV P2)) (ix2 i z)
      = kBias X i := by
  rw [biasV_apply]
  refine Finset.sum_congr rfl fun k _ => ?_
  rw [kWm_read X P1 P2 h1 h2 i k, meanV_apply, s_read X P2 h2]
  rfl

end Cert.KernelIdeal.KMid

end
-- ==== Proof.KValue.lean ====
/-
  The idealized kernel program's result as the one-pass whitening of the input.

  The final fold of the program's segments, read at the result array, is the second region's array function of
  the input, the whitening matrix and the bias column; those two are the host chain's terms over the first
  region's output arrays; and those are, block by block, the partial second moments and partial sums of the
  input. By coordinates this is `kOut` of the specification.
-/
import proofs.«114804_j29222957482780_2_alg».proof.Proof.KRun
import proofs.«114804_j29222957482780_2_alg».proof.Proof.KHost
import proofs.«114804_j29222957482780_2_alg».proof.Proof.KApplyArr
import proofs.«114804_j29222957482780_2_alg».proof.Proof.KStatsArr
import proofs.«114804_j29222957482780_2_alg».proof.Proof.KMid
import proofs.«114804_j29222957482780_2_alg».proof.Proof.Whitening

set_option maxRecDepth 16384

open scoped BigOperators

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.KStatsArr Cert.KernelIdeal.KMid Cert.Whitening
open Idealize.ShloMosaic.Pipeline (Dat)

variable (m : (ℓ : Loc nD τ sig) → Buf (Elt Ideal) ℓ) (ρ : Dev nD → PrngReg)

/-- The second region finds the input array as launched. -/
theorem V4_arg0 (c : Dev nD) : V4 m ρ c main_arg0 = m ((c : Thread nD τ).loc main_arg0) :=
  ((W5_arr m ρ c 0).trans (((dat1 (V4 m ρ) c).arrAt_in 0 rfl _).trans (A_eq1 (V4 m ρ) c 0))).symm.trans
    (W5_main_arg0 m ρ c)

/-- The first region's output arrays: per block the partial second moments and the partial sums of the input. -/
theorem W1_v0_0 (c : Dev nD) :
    (W1 m ρ c (Proc.devRef .tc main_v0_0) : S8x64x64.Idx → EReal)
      = fun y => blockS1 (m ((c : Thread nD τ).loc main_arg0)) (y 0) (y 1) (y 2) :=
  (W1_arr m ρ c 1).trans (final0_1 (V0 m ρ) c)

theorem W1_v0_1 (c : Dev nD) :
    (W1 m ρ c (Proc.devRef .tc main_v0_1) : S8x64x1.Idx → EReal)
      = fun y => blockS (m ((c : Thread nD τ).loc main_arg0)) (y 0) (y 1) :=
  (W1_arr m ρ c 2).trans (final0_2 (V0 m ρ) c)

/-- The program's result array at the end of the run. -/
theorem W5_v69 (c : Dev nD) :
    (W5 m ρ c (Proc.devRef .tc main_v69) : S32x64x8192.Idx → EReal)
      = ofCoords (kOut (coords (m ((c : Thread nD τ).loc main_arg0)))) := by
  refine (W5_arr m ρ c 3).trans ?_
  rw [final1_3]
  have hA : (V4 m ρ c main_arg0 : S32x64x8192.Idx → EReal) = m ((c : Thread nD τ).loc main_arg0) := V4_arg0 m ρ c
  have hW : (V4 m ρ c main_v67 : Mt)
      = wmV (sigmaV (s1V (W1 m ρ c (Proc.devRef .tc main_v0_0))) (sV (W1 m ρ c (Proc.devRef .tc main_v0_1))))
          (traceV (sigmaV (s1V (W1 m ρ c (Proc.devRef .tc main_v0_0))) (sV (W1 m ρ c (Proc.devRef .tc main_v0_1))))) eyeV := by
    show (W4 m ρ c (Proc.devRef .tc main_v67) : Mt) = _
    rw [W4_v67, W3_v21, W3_v20, W3_v8, W2_v20, W2_v8]
  have hB : (V4 m ρ c main_v68 : Cl)
      = biasV (wmV (sigmaV (s1V (W1 m ρ c (Proc.devRef .tc main_v0_0))) (sV (W1 m ρ c (Proc.devRef .tc main_v0_1))))
          (traceV (sigmaV (s1V (W1 m ρ c (Proc.devRef .tc main_v0_0))) (sV (W1 m ρ c (Proc.devRef .tc main_v0_1))))) eyeV)
          (meanV (sV (W1 m ρ c (Proc.devRef .tc main_v0_1)))) := by
    show (W4 m ρ c (Proc.devRef .tc main_v68) : Cl) = _
    rw [W4_v68, W3_v21, W3_v20, W3_v8, W3_v10, W2_v20, W2_v8, W2_v10]
  rw [hA, hW, hB]
  have h1 : ∀ (n : Fin 8) (i j : Fin 64), (W1 m ρ c (Proc.devRef .tc main_v0_0) : S8x64x64.Idx → EReal) (ix3 n i j)
      = kBlockS1 (coords (m ((c : Thread nD τ).loc main_arg0))) n i j := fun n i j => by
    rw [W1_v0_0]; rfl
  have h2 : ∀ (n : Fin 8) (i : Fin 64) (z : Fin 1), (W1 m ρ c (Proc.devRef .tc main_v0_1) : S8x64x1.Idx → EReal) (ix3 n i z)
      = kBlockS (coords (m ((c : Thread nD τ).loc main_arg0))) n i := fun n i z => by
    rw [W1_v0_1]; rfl
  funext y
  obtain ⟨b, p, q, rfl⟩ : ∃ (b : Fin 32) (p : Fin 64) (q : Fin 8192), y = ix3 b p q := ⟨y 0, y 1, y 2, eq_ix3 y⟩
  show (∑ k : Fin 64,
        wmV (sigmaV (s1V (W1 m ρ c (Proc.devRef .tc main_v0_0))) (sV (W1 m ρ c (Proc.devRef .tc main_v0_1))))
          (traceV (sigmaV (s1V (W1 m ρ c (Proc.devRef .tc main_v0_0))) (sV (W1 m ρ c (Proc.devRef .tc main_v0_1))))) eyeV
          (ix2 (n0 := 64) (n1 := 64) p k)
        * m ((c : Thread nD τ).loc main_arg0) (ix3 (n0 := 32) (n1 := 64) (n2 := 8192) b k q))
      - biasV (wmV (sigmaV (s1V (W1 m ρ c (Proc.devRef .tc main_v0_0))) (sV (W1 m ρ c (Proc.devRef .tc main_v0_1))))
          (traceV (sigmaV (s1V (W1 m ρ c (Proc.devRef .tc main_v0_0))) (sV (W1 m ρ c (Proc.devRef .tc main_v0_1))))) eyeV)
          (meanV (sV (W1 m ρ c (Proc.devRef .tc main_v0_1)))) (ix2 (n0 := 64) (n1 := 1) p (0 : Fin 1))
    = kOut (coords (m ((c : Thread nD τ).loc main_arg0))) b p q
  rw [kBias_read _ _ _ h1 h2]
  simp only [kWm_read _ _ _ h1 h2]
  rfl

/-- Every weakly fair execution of the program terminates, nothing faulting, with the result array at the one-pass
    whitening of the input and the input as launched. -/
theorem run_value : θ_run defs (onTc (τ := τ) (main (F := Ideal))) ⟨m, fun _ => 0, ρ⟩ (fun r => ∀ c : Dev nD,
      r.2.mem ((c.tc : Thread nD τ).loc main_v69) = ofCoords (kOut (coords (m ((c.tc : Thread nD τ).loc main_arg0))))
      ∧ r.2.mem ((c.tc : Thread nD τ).loc main_arg0) = m ((c.tc : Thread nD τ).loc main_arg0)) :=
  (θ_run defs _ _).mono (fun r h c => ⟨(h c).1.trans (W5_v69 m ρ c), (h c).2⟩) (run_named m ρ)

end Cert.KernelIdeal.KValue

end
-- ==== Proof.RefRun.lean ====
/-
  The reference program's run. Its @main is a straight line of 97 host operations (the call of the trace
  function, and the select it calls in turn, written out at the call site over the call's buffers). From any
  memory with zero counters every weakly fair execution terminates with the result buffer at the operations'
  composed pure term of the argument array and the argument unchanged.

  The composed term is written as a chain of named stages, each a function of the argument array X at the
  extended reals: X as a [64, 262144] array (a transpose and a reshape), the row sums, the column of means,
  the centred array, the identity matrix, the covariance, its trace, the reciprocal of the trace, the
  covariance scaled to unit trace, the five iterates, the whitening matrix, its product with the centred
  array, and the result (a reshape and a transpose back).

  The line is read in eleven consecutive windows: after each window every buffer that a later window still
  reads holds its stage.
-/
import proofs.«114804_j29222957482780_2_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

section Program

variable {F : FTy → Type} [FloatOps F]

/-- @main's 97 operations, in order, the trace function's eleven written at its call. -/
abbrev ops : List (HloOp τ sig (Elt F)) :=
  [ StableHlo.unary main_arg0 main_v0 ((transpose S64x32x8192 [1, 0, 2] · transposes_S32x64x8192_S64x32x8192_1_0_2) : (⟨S32x64x8192, .f32⟩ : BufTy).Contents (Elt F) → (⟨S64x32x8192, .f32⟩ : BufTy).Contents (Elt F)),
    StableHlo.reshape main_v0 main_v1 rfl shapeCasts_S64x32x8192_S64x262144,
    StableHlo.nullary main_cst (constant S_ .f32 0x00000000#32),
    StableHlo.binary main_v1 main_cst main_v2 ((fun x v => Host.reduceAdd x v reducesTo_S64x262144_S64_d1 h_S_) : (⟨S64x262144, .f32⟩ : BufTy).Contents (Elt F) → (⟨S_, .f32⟩ : BufTy).Contents (Elt F) → (⟨S64, .f32⟩ : BufTy).Contents (Elt F)),
    StableHlo.unary main_v2 main_v3 (broadcastInDim S64x1 ![0] bcast_S64_S64x1_0 : (⟨S64, .f32⟩ : BufTy).Contents (Elt F) → (⟨S64x1, .f32⟩ : BufTy).Contents (Elt F)),
    StableHlo.nullary main_cst_0 (constant S_ .f32 0x48800000#32),
    StableHlo.unary main_cst_0 main_v4 (broadcastInDim S64x1 ![] bcast_S_S64x1 : (⟨S_, .f32⟩ : BufTy).Contents (Elt F) → (⟨S64x1, .f32⟩ : BufTy).Contents (Elt F)),
    StableHlo.binary main_v3 main_v4 main_v5 (Host.divf : (⟨S64x1, .f32⟩ : BufTy).Contents (Elt F) → (⟨S64x1, .f32⟩ : BufTy).Contents (Elt F) → (⟨S64x1, .f32⟩ : BufTy).Contents (Elt F)),
    StableHlo.unary main_v5 main_v6 (broadcastInDim S64x262144 ![0, 1] bcast_S64x1_S64x262144_0_1 : (⟨S64x1, .f32⟩ : BufTy).Contents (Elt F) → (⟨S64x262144, .f32⟩ : BufTy).Contents (Elt F)),
    StableHlo.binary main_v1 main_v6 main_v7 (subf : (⟨S64x262144, .f32⟩ : BufTy).Contents (Elt F) → (⟨S64x262144, .f32⟩ : BufTy).Contents (Elt F) → (⟨S64x262144, .f32⟩ : BufTy).Contents (Elt F)),
    StableHlo.nullary main_v8 (iotaInDim S64x64 32 0),
    StableHlo.nullary main_v9 (iotaInDim S64x64 32 1),
    StableHlo.nullary main_c (constantI S_ 32 0#32),
    StableHlo.unary main_c main_v10 (broadcastInDim S64x64 ![] bcast_S_S64x64 : (⟨S_, .i32⟩ : BufTy).Contents (Elt F) → (⟨S64x64, .i32⟩ : BufTy).Contents (Elt F)),
    StableHlo.binary main_v8 main_v10 main_v11 (addi : (⟨S64x64, .i32⟩ : BufTy).Contents (Elt F) → (⟨S64x64, .i32⟩ : BufTy).Contents (Elt F) → (⟨S64x64, .i32⟩ : BufTy).Contents (Elt F)),
    StableHlo.binary main_v11 main_v9 main_v12 (cmpi .eq : (⟨S64x64, .i32⟩ : BufTy).Contents (Elt F) → (⟨S64x64, .i32⟩ : BufTy).Contents (Elt F) → (⟨S64x64, .i1⟩ : BufTy).Contents (Elt F)),
    StableHlo.unary main_v12 main_v13 (uitofp .f32 : (⟨S64x64, .i1⟩ : BufTy).Contents (Elt F) → (⟨S64x64, .f32⟩ : BufTy).Contents (Elt F)),
    StableHlo.nullary main_cst_1 (constant S_ .f32 0x3727C5AC#32),
    StableHlo.unary main_cst_1 main_v14 (broadcastInDim S64x64 ![] bcast_S_S64x64 : (⟨S_, .f32⟩ : BufTy).Contents (Elt F) → (⟨S64x64, .f32⟩ : BufTy).Contents (Elt F)),
    StableHlo.binary main_v13 main_v14 main_v15 (mulf : (⟨S64x64, .f32⟩ : BufTy).Contents (Elt F) → (⟨S64x64, .f32⟩ : BufTy).Contents (Elt F) → (⟨S64x64, .f32⟩ : BufTy).Contents (Elt F)),
    StableHlo.unary main_v7 main_v16 ((transpose S262144x64 [1, 0] · transposes_S64x262144_S262144x64_1_0) : (⟨S64x262144, .f32⟩ : BufTy).Contents (Elt F) → (⟨S262144x64, .f32⟩ : BufTy).Contents (Elt F)),
    StableHlo.binary main_v7 main_v16 main_v17 ((fun l r => Host.dotGeneral dot_S64x262144_S262144x64_S64x64_1_0_0_1_n_n none l r) : (⟨S64x262144, .f32⟩ : BufTy).Contents (Elt F) → (⟨S262144x64, .f32⟩ : BufTy).Contents (Elt F) → (⟨S64x64, .f32⟩ : BufTy).Contents (Elt F)),
    StableHlo.nullary main_cst_2 (constant S_ .f32 0x36800000#32),
    StableHlo.unary main_cst_2 main_v18 (broadcastInDim S64x64 ![] bcast_S_S64x64 : (⟨S_, .f32⟩ : BufTy).Contents (Elt F) → (⟨S64x64, .f32⟩ : BufTy).Contents (Elt F)),
    StableHlo.binary main_v17 main_v18 main_v19 (mulf : (⟨S64x64, .f32⟩ : BufTy).Contents (Elt F) → (⟨S64x64, .f32⟩ : BufTy).Contents (Elt F) → (⟨S64x64, .f32⟩ : BufTy).Contents (Elt F)),
    StableHlo.binary main_v15 main_v19 main_v20 (addf : (⟨S64x64, .f32⟩ : BufTy).Contents (Elt F) → (⟨S64x64, .f32⟩ : BufTy).Contents (Elt F) → (⟨S64x64, .f32⟩ : BufTy).Contents (Elt F)),
    StableHlo.TRef.nullary main_call0.v0 (iotaInDim S64x64 32 0),
    StableHlo.TRef.nullary main_call0.v1 (iotaInDim S64x64 32 1),
    StableHlo.TRef.nullary main_call0.c (constantI S_ 32 0#32),
    StableHlo.TRef.unary main_call0.c main_call0.v2 (broadcastInDim S64x64 ![] bcast_S_S64x64),
    StableHlo.TRef.binary main_call0.v0 main_call0.v2 main_call0.v3 addi,
    StableHlo.TRef.binary main_call0.v3 main_call0.v1 main_call0.v4 (cmpi .eq),
    StableHlo.TRef.nullary main_call0.cst (constant S_ .f32 0x00000000#32),
    StableHlo.TRef.unary main_call0.cst main_call0.v5 (broadcastInDim S64x64 ![] bcast_S_S64x64),
    StableHlo.TRef.ternary main_call0.v4 (.of main_v20) main_call0.v5 main_call0.call0.v0 select,
    StableHlo.TRef.nullary main_call0.cst_0 (constant S_ .f32 0x00000000#32),
    StableHlo.TRef.binary main_call0.call0.v0 main_call0.cst_0 main_call0.v7 (fun x v => Host.reduceAdd x v reducesTo_S64x64_S_d0_1 h_S_),
    StableHlo.nullary main_cst_3 (constant S_ .f32 0x3F800000#32),
    StableHlo.binary main_cst_3 main_v21 main_v22 (Host.divf : (⟨S_, .f32⟩ : BufTy).Contents (Elt F) → (⟨S_, .f32⟩ : BufTy).Contents (Elt F) → (⟨S_, .f32⟩ : BufTy).Contents (Elt F)),
    StableHlo.unary main_v22 main_v23 (broadcastInDim S64x64 ![] bcast_S_S64x64 : (⟨S_, .f32⟩ : BufTy).Contents (Elt F) → (⟨S64x64, .f32⟩ : BufTy).Contents (Elt F)),
    StableHlo.binary main_v20 main_v23 main_v24 (mulf : (⟨S64x64, .f32⟩ : BufTy).Contents (Elt F) → (⟨S64x64, .f32⟩ : BufTy).Contents (Elt F) → (⟨S64x64, .f32⟩ : BufTy).Contents (Elt F)),
    StableHlo.nullary main_cst_4 (constant S_ .f32 0x3FC00000#32),
    StableHlo.unary main_cst_4 main_v25 (broadcastInDim S64x64 ![] bcast_S_S64x64 : (⟨S_, .f32⟩ : BufTy).Contents (Elt F) → (⟨S64x64, .f32⟩ : BufTy).Contents (Elt F)),
    StableHlo.binary main_v25 main_v13 main_v26 (mulf : (⟨S64x64, .f32⟩ : BufTy).Contents (Elt F) → (⟨S64x64, .f32⟩ : BufTy).Contents (Elt F) → (⟨S64x64, .f32⟩ : BufTy).Contents (Elt F)),
    StableHlo.binary main_v13 main_v13 main_v27 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v27 main_v13 main_v28 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_5 (constant S_ .f32 0x3F000000#32),
    StableHlo.unary main_cst_5 main_v29 (broadcastInDim S64x64 ![] bcast_S_S64x64 : (⟨S_, .f32⟩ : BufTy).Contents (Elt F) → (⟨S64x64, .f32⟩ : BufTy).Contents (Elt F)),
    StableHlo.binary main_v29 main_v28 main_v30 (mulf : (⟨S64x64, .f32⟩ : BufTy).Contents (Elt F) → (⟨S64x64, .f32⟩ : BufTy).Contents (Elt F) → (⟨S64x64, .f32⟩ : BufTy).Contents (Elt F)),
    StableHlo.binary main_v30 main_v24 main_v31 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v26 main_v31 main_v32 (subf : (⟨S64x64, .f32⟩ : BufTy).Contents (Elt F) → (⟨S64x64, .f32⟩ : BufTy).Contents (Elt F) → (⟨S64x64, .f32⟩ : BufTy).Contents (Elt F)),
    StableHlo.nullary main_cst_6 (constant S_ .f32 0x3FC00000#32),
    StableHlo.unary main_cst_6 main_v33 (broadcastInDim S64x64 ![] bcast_S_S64x64 : (⟨S_, .f32⟩ : BufTy).Contents (Elt F) → (⟨S64x64, .f32⟩ : BufTy).Contents (Elt F)),
    StableHlo.binary main_v33 main_v32 main_v34 (mulf : (⟨S64x64, .f32⟩ : BufTy).Contents (Elt F) → (⟨S64x64, .f32⟩ : BufTy).Contents (Elt F) → (⟨S64x64, .f32⟩ : BufTy).Contents (Elt F)),
    StableHlo.binary main_v32 main_v32 main_v35 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v35 main_v32 main_v36 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_7 (constant S_ .f32 0x3F000000#32),
    StableHlo.unary main_cst_7 main_v37 (broadcastInDim S64x64 ![] bcast_S_S64x64 : (⟨S_, .f32⟩ : BufTy).Contents (Elt F) → (⟨S64x64, .f32⟩ : BufTy).Contents (Elt F)),
    StableHlo.binary main_v37 main_v36 main_v38 (mulf : (⟨S64x64, .f32⟩ : BufTy).Contents (Elt F) → (⟨S64x64, .f32⟩ : BufTy).Contents (Elt F) → (⟨S64x64, .f32⟩ : BufTy).Contents (Elt F)),
    StableHlo.binary main_v38 main_v24 main_v39 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v34 main_v39 main_v40 (subf : (⟨S64x64, .f32⟩ : BufTy).Contents (Elt F) → (⟨S64x64, .f32⟩ : BufTy).Contents (Elt F) → (⟨S64x64, .f32⟩ : BufTy).Contents (Elt F)),
    StableHlo.nullary main_cst_8 (constant S_ .f32 0x3FC00000#32),
    StableHlo.unary main_cst_8 main_v41 (broadcastInDim S64x64 ![] bcast_S_S64x64 : (⟨S_, .f32⟩ : BufTy).Contents (Elt F) → (⟨S64x64, .f32⟩ : BufTy).Contents (Elt F)),
    StableHlo.binary main_v41 main_v40 main_v42 (mulf : (⟨S64x64, .f32⟩ : BufTy).Contents (Elt F) → (⟨S64x64, .f32⟩ : BufTy).Contents (Elt F) → (⟨S64x64, .f32⟩ : BufTy).Contents (Elt F)),
    StableHlo.binary main_v40 main_v40 main_v43 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v43 main_v40 main_v44 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_9 (constant S_ .f32 0x3F000000#32),
    StableHlo.unary main_cst_9 main_v45 (broadcastInDim S64x64 ![] bcast_S_S64x64 : (⟨S_, .f32⟩ : BufTy).Contents (Elt F) → (⟨S64x64, .f32⟩ : BufTy).Contents (Elt F)),
    StableHlo.binary main_v45 main_v44 main_v46 (mulf : (⟨S64x64, .f32⟩ : BufTy).Contents (Elt F) → (⟨S64x64, .f32⟩ : BufTy).Contents (Elt F) → (⟨S64x64, .f32⟩ : BufTy).Contents (Elt F)),
    StableHlo.binary main_v46 main_v24 main_v47 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v42 main_v47 main_v48 (subf : (⟨S64x64, .f32⟩ : BufTy).Contents (Elt F) → (⟨S64x64, .f32⟩ : BufTy).Contents (Elt F) → (⟨S64x64, .f32⟩ : BufTy).Contents (Elt F)),
    StableHlo.nullary main_cst_10 (constant S_ .f32 0x3FC00000#32),
    StableHlo.unary main_cst_10 main_v49 (broadcastInDim S64x64 ![] bcast_S_S64x64 : (⟨S_, .f32⟩ : BufTy).Contents (Elt F) → (⟨S64x64, .f32⟩ : BufTy).Contents (Elt F)),
    StableHlo.binary main_v49 main_v48 main_v50 (mulf : (⟨S64x64, .f32⟩ : BufTy).Contents (Elt F) → (⟨S64x64, .f32⟩ : BufTy).Contents (Elt F) → (⟨S64x64, .f32⟩ : BufTy).Contents (Elt F)),
    StableHlo.binary main_v48 main_v48 main_v51 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v51 main_v48 main_v52 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_11 (constant S_ .f32 0x3F000000#32),
    StableHlo.unary main_cst_11 main_v53 (broadcastInDim S64x64 ![] bcast_S_S64x64 : (⟨S_, .f32⟩ : BufTy).Contents (Elt F) → (⟨S64x64, .f32⟩ : BufTy).Contents (Elt F)),
    StableHlo.binary main_v53 main_v52 main_v54 (mulf : (⟨S64x64, .f32⟩ : BufTy).Contents (Elt F) → (⟨S64x64, .f32⟩ : BufTy).Contents (Elt F) → (⟨S64x64, .f32⟩ : BufTy).Contents (Elt F)),
    StableHlo.binary main_v54 main_v24 main_v55 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v50 main_v55 main_v56 (subf : (⟨S64x64, .f32⟩ : BufTy).Contents (Elt F) → (⟨S64x64, .f32⟩ : BufTy).Contents (Elt F) → (⟨S64x64, .f32⟩ : BufTy).Contents (Elt F)),
    StableHlo.nullary main_cst_12 (constant S_ .f32 0x3FC00000#32),
    StableHlo.unary main_cst_12 main_v57 (broadcastInDim S64x64 ![] bcast_S_S64x64 : (⟨S_, .f32⟩ : BufTy).Contents (Elt F) → (⟨S64x64, .f32⟩ : BufTy).Contents (Elt F)),
    StableHlo.binary main_v57 main_v56 main_v58 (mulf : (⟨S64x64, .f32⟩ : BufTy).Contents (Elt F) → (⟨S64x64, .f32⟩ : BufTy).Contents (Elt F) → (⟨S64x64, .f32⟩ : BufTy).Contents (Elt F)),
    StableHlo.binary main_v56 main_v56 main_v59 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v59 main_v56 main_v60 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_13 (constant S_ .f32 0x3F000000#32),
    StableHlo.unary main_cst_13 main_v61 (broadcastInDim S64x64 ![] bcast_S_S64x64 : (⟨S_, .f32⟩ : BufTy).Contents (Elt F) → (⟨S64x64, .f32⟩ : BufTy).Contents (Elt F)),
    StableHlo.binary main_v61 main_v60 main_v62 (mulf : (⟨S64x64, .f32⟩ : BufTy).Contents (Elt F) → (⟨S64x64, .f32⟩ : BufTy).Contents (Elt F) → (⟨S64x64, .f32⟩ : BufTy).Contents (Elt F)),
    StableHlo.binary main_v62 main_v24 main_v63 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v58 main_v63 main_v64 (subf : (⟨S64x64, .f32⟩ : BufTy).Contents (Elt F) → (⟨S64x64, .f32⟩ : BufTy).Contents (Elt F) → (⟨S64x64, .f32⟩ : BufTy).Contents (Elt F)),
    StableHlo.unary main_v22 main_v65 (Host.sqrt : (⟨S_, .f32⟩ : BufTy).Contents (Elt F) → (⟨S_, .f32⟩ : BufTy).Contents (Elt F)),
    StableHlo.unary main_v65 main_v66 (broadcastInDim S64x64 ![] bcast_S_S64x64 : (⟨S_, .f32⟩ : BufTy).Contents (Elt F) → (⟨S64x64, .f32⟩ : BufTy).Contents (Elt F)),
    StableHlo.binary main_v64 main_v66 main_v67 (mulf : (⟨S64x64, .f32⟩ : BufTy).Contents (Elt F) → (⟨S64x64, .f32⟩ : BufTy).Contents (Elt F) → (⟨S64x64, .f32⟩ : BufTy).Contents (Elt F)),
    StableHlo.binary main_v67 main_v7 main_v68 ((fun l r => Host.dotGeneral dot_S64x64_S64x262144_S64x262144_1_0_0_1_n_n none l r) : (⟨S64x64, .f32⟩ : BufTy).Contents (Elt F) → (⟨S64x262144, .f32⟩ : BufTy).Contents (Elt F) → (⟨S64x262144, .f32⟩ : BufTy).Contents (Elt F)),
    StableHlo.reshape main_v68 main_v69 rfl shapeCasts_S64x262144_S64x32x8192,
    StableHlo.unary main_v69 main_v70 ((transpose S32x64x8192 [1, 0, 2] · transposes_S64x32x8192_S32x64x8192_1_0_2) : (⟨S64x32x8192, .f32⟩ : BufTy).Contents (Elt F) → (⟨S32x64x8192, .f32⟩ : BufTy).Contents (Elt F)) ]

set_option maxRecDepth 16384 in
set_option maxHeartbeats 4000000 in
/-- @main is that straight line: its two parts and the two functions unfolded, the sequencing reassociated. -/
theorem main_eq (c : Dev nD) : main (F := F) c = seq ops := by
  simp only [main, main_part0, main_part1, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., binary_bufs_sub .., unary_bufs_sub .., nullary_bufs_sub .., unary_bufs_sub .., binary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., unary_bufs_sub .., binary_bufs_sub .., binary_bufs_sub .., nullary_bufs_sub .., unary_bufs_sub .., ternary_bufs_sub .., nullary_bufs_sub .., binary_bufs_sub .., nullary_bufs_sub .., binary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub .., binary_bufs_sub .., reshape_bufs_sub .., unary_bufs_sub ..⟩

/-- Operations 1 … 10. -/
abbrev w1 : List (HloOp τ sig (Elt F)) :=
  [ StableHlo.unary main_arg0 main_v0 ((transpose S64x32x8192 [1, 0, 2] · transposes_S32x64x8192_S64x32x8192_1_0_2) : (⟨S32x64x8192, .f32⟩ : BufTy).Contents (Elt F) → (⟨S64x32x8192, .f32⟩ : BufTy).Contents (Elt F)),
    StableHlo.reshape main_v0 main_v1 rfl shapeCasts_S64x32x8192_S64x262144,
    StableHlo.nullary main_cst (constant S_ .f32 0x00000000#32),
    StableHlo.binary main_v1 main_cst main_v2 ((fun x v => Host.reduceAdd x v reducesTo_S64x262144_S64_d1 h_S_) : (⟨S64x262144, .f32⟩ : BufTy).Contents (Elt F) → (⟨S_, .f32⟩ : BufTy).Contents (Elt F) → (⟨S64, .f32⟩ : BufTy).Contents (Elt F)),
    StableHlo.unary main_v2 main_v3 (broadcastInDim S64x1 ![0] bcast_S64_S64x1_0 : (⟨S64, .f32⟩ : BufTy).Contents (Elt F) → (⟨S64x1, .f32⟩ : BufTy).Contents (Elt F)),
    StableHlo.nullary main_cst_0 (constant S_ .f32 0x48800000#32),
    StableHlo.unary main_cst_0 main_v4 (broadcastInDim S64x1 ![] bcast_S_S64x1 : (⟨S_, .f32⟩ : BufTy).Contents (Elt F) → (⟨S64x1, .f32⟩ : BufTy).Contents (Elt F)),
    StableHlo.binary main_v3 main_v4 main_v5 (Host.divf : (⟨S64x1, .f32⟩ : BufTy).Contents (Elt F) → (⟨S64x1, .f32⟩ : BufTy).Contents (Elt F) → (⟨S64x1, .f32⟩ : BufTy).Contents (Elt F)),
    StableHlo.unary main_v5 main_v6 (broadcastInDim S64x262144 ![0, 1] bcast_S64x1_S64x262144_0_1 : (⟨S64x1, .f32⟩ : BufTy).Contents (Elt F) → (⟨S64x262144, .f32⟩ : BufTy).Contents (Elt F)),
    StableHlo.binary main_v1 main_v6 main_v7 (subf : (⟨S64x262144, .f32⟩ : BufTy).Contents (Elt F) → (⟨S64x262144, .f32⟩ : BufTy).Contents (Elt F) → (⟨S64x262144, .f32⟩ : BufTy).Contents (Elt F)) ]

/-- Operations 11 … 20. -/
abbrev w2 : List (HloOp τ sig (Elt F)) :=
  [ StableHlo.nullary main_v8 (iotaInDim S64x64 32 0),
    StableHlo.nullary main_v9 (iotaInDim S64x64 32 1),
    StableHlo.nullary main_c (constantI S_ 32 0#32),
    StableHlo.unary main_c main_v10 (broadcastInDim S64x64 ![] bcast_S_S64x64 : (⟨S_, .i32⟩ : BufTy).Contents (Elt F) → (⟨S64x64, .i32⟩ : BufTy).Contents (Elt F)),
    StableHlo.binary main_v8 main_v10 main_v11 (addi : (⟨S64x64, .i32⟩ : BufTy).Contents (Elt F) → (⟨S64x64, .i32⟩ : BufTy).Contents (Elt F) → (⟨S64x64, .i32⟩ : BufTy).Contents (Elt F)),
    StableHlo.binary main_v11 main_v9 main_v12 (cmpi .eq : (⟨S64x64, .i32⟩ : BufTy).Contents (Elt F) → (⟨S64x64, .i32⟩ : BufTy).Contents (Elt F) → (⟨S64x64, .i1⟩ : BufTy).Contents (Elt F)),
    StableHlo.unary main_v12 main_v13 (uitofp .f32 : (⟨S64x64, .i1⟩ : BufTy).Contents (Elt F) → (⟨S64x64, .f32⟩ : BufTy).Contents (Elt F)),
    StableHlo.nullary main_cst_1 (constant S_ .f32 0x3727C5AC#32),
    StableHlo.unary main_cst_1 main_v14 (broadcastInDim S64x64 ![] bcast_S_S64x64 : (⟨S_, .f32⟩ : BufTy).Contents (Elt F) → (⟨S64x64, .f32⟩ : BufTy).Contents (Elt F)),
    StableHlo.binary main_v13 main_v14 main_v15 (mulf : (⟨S64x64, .f32⟩ : BufTy).Contents (Elt F) → (⟨S64x64, .f32⟩ : BufTy).Contents (Elt F) → (⟨S64x64, .f32⟩ : BufTy).Contents (Elt F)) ]

/-- Operations 21 … 26. -/
abbrev w3 : List (HloOp τ sig (Elt F)) :=
  [ StableHlo.unary main_v7 main_v16 ((transpose S262144x64 [1, 0] · transposes_S64x262144_S262144x64_1_0) : (⟨S64x262144, .f32⟩ : BufTy).Contents (Elt F) → (⟨S262144x64, .f32⟩ : BufTy).Contents (Elt F)),
    StableHlo.binary main_v7 main_v16 main_v17 ((fun l r => Host.dotGeneral dot_S64x262144_S262144x64_S64x64_1_0_0_1_n_n none l r) : (⟨S64x262144, .f32⟩ : BufTy).Contents (Elt F) → (⟨S262144x64, .f32⟩ : BufTy).Contents (Elt F) → (⟨S64x64, .f32⟩ : BufTy).Contents (Elt F)),
    StableHlo.nullary main_cst_2 (constant S_ .f32 0x36800000#32),
    StableHlo.unary main_cst_2 main_v18 (broadcastInDim S64x64 ![] bcast_S_S64x64 : (⟨S_, .f32⟩ : BufTy).Contents (Elt F) → (⟨S64x64, .f32⟩ : BufTy).Contents (Elt F)),
    StableHlo.binary main_v17 main_v18 main_v19 (mulf : (⟨S64x64, .f32⟩ : BufTy).Contents (Elt F) → (⟨S64x64, .f32⟩ : BufTy).Contents (Elt F) → (⟨S64x64, .f32⟩ : BufTy).Contents (Elt F)),
    StableHlo.binary main_v15 main_v19 main_v20 (addf : (⟨S64x64, .f32⟩ : BufTy).Contents (Elt F) → (⟨S64x64, .f32⟩ : BufTy).Contents (Elt F) → (⟨S64x64, .f32⟩ : BufTy).Contents (Elt F)) ]

/-- Operations 27 … 37. -/
abbrev w4 : List (HloOp τ sig (Elt F)) :=
  [ StableHlo.TRef.nullary main_call0.v0 (iotaInDim S64x64 32 0),
    StableHlo.TRef.nullary main_call0.v1 (iotaInDim S64x64 32 1),
    StableHlo.TRef.nullary main_call0.c (constantI S_ 32 0#32),
    StableHlo.TRef.unary main_call0.c main_call0.v2 (broadcastInDim S64x64 ![] bcast_S_S64x64),
    StableHlo.TRef.binary main_call0.v0 main_call0.v2 main_call0.v3 addi,
    StableHlo.TRef.binary main_call0.v3 main_call0.v1 main_call0.v4 (cmpi .eq),
    StableHlo.TRef.nullary main_call0.cst (constant S_ .f32 0x00000000#32),
    StableHlo.TRef.unary main_call0.cst main_call0.v5 (broadcastInDim S64x64 ![] bcast_S_S64x64),
    StableHlo.TRef.ternary main_call0.v4 (.of main_v20) main_call0.v5 main_call0.call0.v0 select,
    StableHlo.TRef.nullary main_call0.cst_0 (constant S_ .f32 0x00000000#32),
    StableHlo.TRef.binary main_call0.call0.v0 main_call0.cst_0 main_call0.v7 (fun x v => Host.reduceAdd x v reducesTo_S64x64_S_d0_1 h_S_) ]

/-- Operations 38 … 41. -/
abbrev w5 : List (HloOp τ sig (Elt F)) :=
  [ StableHlo.nullary main_cst_3 (constant S_ .f32 0x3F800000#32),
    StableHlo.binary main_cst_3 main_v21 main_v22 (Host.divf : (⟨S_, .f32⟩ : BufTy).Contents (Elt F) → (⟨S_, .f32⟩ : BufTy).Contents (Elt F) → (⟨S_, .f32⟩ : BufTy).Contents (Elt F)),
    StableHlo.unary main_v22 main_v23 (broadcastInDim S64x64 ![] bcast_S_S64x64 : (⟨S_, .f32⟩ : BufTy).Contents (Elt F) → (⟨S64x64, .f32⟩ : BufTy).Contents (Elt F)),
    StableHlo.binary main_v20 main_v23 main_v24 (mulf : (⟨S64x64, .f32⟩ : BufTy).Contents (Elt F) → (⟨S64x64, .f32⟩ : BufTy).Contents (Elt F) → (⟨S64x64, .f32⟩ : BufTy).Contents (Elt F)) ]

/-- Operations 42 … 51. -/
abbrev w6 : List (HloOp τ sig (Elt F)) :=
  [ StableHlo.nullary main_cst_4 (constant S_ .f32 0x3FC00000#32),
    StableHlo.unary main_cst_4 main_v25 (broadcastInDim S64x64 ![] bcast_S_S64x64 : (⟨S_, .f32⟩ : BufTy).Contents (Elt F) → (⟨S64x64, .f32⟩ : BufTy).Contents (Elt F)),
    StableHlo.binary main_v25 main_v13 main_v26 (mulf : (⟨S64x64, .f32⟩ : BufTy).Contents (Elt F) → (⟨S64x64, .f32⟩ : BufTy).Contents (Elt F) → (⟨S64x64, .f32⟩ : BufTy).Contents (Elt F)),
    StableHlo.binary main_v13 main_v13 main_v27 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v27 main_v13 main_v28 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_5 (constant S_ .f32 0x3F000000#32),
    StableHlo.unary main_cst_5 main_v29 (broadcastInDim S64x64 ![] bcast_S_S64x64 : (⟨S_, .f32⟩ : BufTy).Contents (Elt F) → (⟨S64x64, .f32⟩ : BufTy).Contents (Elt F)),
    StableHlo.binary main_v29 main_v28 main_v30 (mulf : (⟨S64x64, .f32⟩ : BufTy).Contents (Elt F) → (⟨S64x64, .f32⟩ : BufTy).Contents (Elt F) → (⟨S64x64, .f32⟩ : BufTy).Contents (Elt F)),
    StableHlo.binary main_v30 main_v24 main_v31 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v26 main_v31 main_v32 (subf : (⟨S64x64, .f32⟩ : BufTy).Contents (Elt F) → (⟨S64x64, .f32⟩ : BufTy).Contents (Elt F) → (⟨S64x64, .f32⟩ : BufTy).Contents (Elt F)) ]

/-- Operations 52 … 61. -/
abbrev w7 : List (HloOp τ sig (Elt F)) :=
  [ StableHlo.nullary main_cst_6 (constant S_ .f32 0x3FC00000#32),
    StableHlo.unary main_cst_6 main_v33 (broadcastInDim S64x64 ![] bcast_S_S64x64 : (⟨S_, .f32⟩ : BufTy).Contents (Elt F) → (⟨S64x64, .f32⟩ : BufTy).Contents (Elt F)),
    StableHlo.binary main_v33 main_v32 main_v34 (mulf : (⟨S64x64, .f32⟩ : BufTy).Contents (Elt F) → (⟨S64x64, .f32⟩ : BufTy).Contents (Elt F) → (⟨S64x64, .f32⟩ : BufTy).Contents (Elt F)),
    StableHlo.binary main_v32 main_v32 main_v35 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v35 main_v32 main_v36 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_7 (constant S_ .f32 0x3F000000#32),
    StableHlo.unary main_cst_7 main_v37 (broadcastInDim S64x64 ![] bcast_S_S64x64 : (⟨S_, .f32⟩ : BufTy).Contents (Elt F) → (⟨S64x64, .f32⟩ : BufTy).Contents (Elt F)),
    StableHlo.binary main_v37 main_v36 main_v38 (mulf : (⟨S64x64, .f32⟩ : BufTy).Contents (Elt F) → (⟨S64x64, .f32⟩ : BufTy).Contents (Elt F) → (⟨S64x64, .f32⟩ : BufTy).Contents (Elt F)),
    StableHlo.binary main_v38 main_v24 main_v39 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v34 main_v39 main_v40 (subf : (⟨S64x64, .f32⟩ : BufTy).Contents (Elt F) → (⟨S64x64, .f32⟩ : BufTy).Contents (Elt F) → (⟨S64x64, .f32⟩ : BufTy).Contents (Elt F)) ]

/-- Operations 62 … 71. -/
abbrev w8 : List (HloOp τ sig (Elt F)) :=
  [ StableHlo.nullary main_cst_8 (constant S_ .f32 0x3FC00000#32),
    StableHlo.unary main_cst_8 main_v41 (broadcastInDim S64x64 ![] bcast_S_S64x64 : (⟨S_, .f32⟩ : BufTy).Contents (Elt F) → (⟨S64x64, .f32⟩ : BufTy).Contents (Elt F)),
    StableHlo.binary main_v41 main_v40 main_v42 (mulf : (⟨S64x64, .f32⟩ : BufTy).Contents (Elt F) → (⟨S64x64, .f32⟩ : BufTy).Contents (Elt F) → (⟨S64x64, .f32⟩ : BufTy).Contents (Elt F)),
    StableHlo.binary main_v40 main_v40 main_v43 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v43 main_v40 main_v44 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_9 (constant S_ .f32 0x3F000000#32),
    StableHlo.unary main_cst_9 main_v45 (broadcastInDim S64x64 ![] bcast_S_S64x64 : (⟨S_, .f32⟩ : BufTy).Contents (Elt F) → (⟨S64x64, .f32⟩ : BufTy).Contents (Elt F)),
    StableHlo.binary main_v45 main_v44 main_v46 (mulf : (⟨S64x64, .f32⟩ : BufTy).Contents (Elt F) → (⟨S64x64, .f32⟩ : BufTy).Contents (Elt F) → (⟨S64x64, .f32⟩ : BufTy).Contents (Elt F)),
    StableHlo.binary main_v46 main_v24 main_v47 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v42 main_v47 main_v48 (subf : (⟨S64x64, .f32⟩ : BufTy).Contents (Elt F) → (⟨S64x64, .f32⟩ : BufTy).Contents (Elt F) → (⟨S64x64, .f32⟩ : BufTy).Contents (Elt F)) ]

/-- Operations 72 … 81. -/
abbrev w9 : List (HloOp τ sig (Elt F)) :=
  [ StableHlo.nullary main_cst_10 (constant S_ .f32 0x3FC00000#32),
    StableHlo.unary main_cst_10 main_v49 (broadcastInDim S64x64 ![] bcast_S_S64x64 : (⟨S_, .f32⟩ : BufTy).Contents (Elt F) → (⟨S64x64, .f32⟩ : BufTy).Contents (Elt F)),
    StableHlo.binary main_v49 main_v48 main_v50 (mulf : (⟨S64x64, .f32⟩ : BufTy).Contents (Elt F) → (⟨S64x64, .f32⟩ : BufTy).Contents (Elt F) → (⟨S64x64, .f32⟩ : BufTy).Contents (Elt F)),
    StableHlo.binary main_v48 main_v48 main_v51 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v51 main_v48 main_v52 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_11 (constant S_ .f32 0x3F000000#32),
    StableHlo.unary main_cst_11 main_v53 (broadcastInDim S64x64 ![] bcast_S_S64x64 : (⟨S_, .f32⟩ : BufTy).Contents (Elt F) → (⟨S64x64, .f32⟩ : BufTy).Contents (Elt F)),
    StableHlo.binary main_v53 main_v52 main_v54 (mulf : (⟨S64x64, .f32⟩ : BufTy).Contents (Elt F) → (⟨S64x64, .f32⟩ : BufTy).Contents (Elt F) → (⟨S64x64, .f32⟩ : BufTy).Contents (Elt F)),
    StableHlo.binary main_v54 main_v24 main_v55 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v50 main_v55 main_v56 (subf : (⟨S64x64, .f32⟩ : BufTy).Contents (Elt F) → (⟨S64x64, .f32⟩ : BufTy).Contents (Elt F) → (⟨S64x64, .f32⟩ : BufTy).Contents (Elt F)) ]

/-- Operations 82 … 91. -/
abbrev w10 : List (HloOp τ sig (Elt F)) :=
  [ StableHlo.nullary main_cst_12 (constant S_ .f32 0x3FC00000#32),
    StableHlo.unary main_cst_12 main_v57 (broadcastInDim S64x64 ![] bcast_S_S64x64 : (⟨S_, .f32⟩ : BufTy).Contents (Elt F) → (⟨S64x64, .f32⟩ : BufTy).Contents (Elt F)),
    StableHlo.binary main_v57 main_v56 main_v58 (mulf : (⟨S64x64, .f32⟩ : BufTy).Contents (Elt F) → (⟨S64x64, .f32⟩ : BufTy).Contents (Elt F) → (⟨S64x64, .f32⟩ : BufTy).Contents (Elt F)),
    StableHlo.binary main_v56 main_v56 main_v59 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v59 main_v56 main_v60 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_13 (constant S_ .f32 0x3F000000#32),
    StableHlo.unary main_cst_13 main_v61 (broadcastInDim S64x64 ![] bcast_S_S64x64 : (⟨S_, .f32⟩ : BufTy).Contents (Elt F) → (⟨S64x64, .f32⟩ : BufTy).Contents (Elt F)),
    StableHlo.binary main_v61 main_v60 main_v62 (mulf : (⟨S64x64, .f32⟩ : BufTy).Contents (Elt F) → (⟨S64x64, .f32⟩ : BufTy).Contents (Elt F) → (⟨S64x64, .f32⟩ : BufTy).Contents (Elt F)),
    StableHlo.binary main_v62 main_v24 main_v63 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v58 main_v63 main_v64 (subf : (⟨S64x64, .f32⟩ : BufTy).Contents (Elt F) → (⟨S64x64, .f32⟩ : BufTy).Contents (Elt F) → (⟨S64x64, .f32⟩ : BufTy).Contents (Elt F)) ]

/-- Operations 92 … 97. -/
abbrev w11 : List (HloOp τ sig (Elt F)) :=
  [ StableHlo.unary main_v22 main_v65 (Host.sqrt : (⟨S_, .f32⟩ : BufTy).Contents (Elt F) → (⟨S_, .f32⟩ : BufTy).Contents (Elt F)),
    StableHlo.unary main_v65 main_v66 (broadcastInDim S64x64 ![] bcast_S_S64x64 : (⟨S_, .f32⟩ : BufTy).Contents (Elt F) → (⟨S64x64, .f32⟩ : BufTy).Contents (Elt F)),
    StableHlo.binary main_v64 main_v66 main_v67 (mulf : (⟨S64x64, .f32⟩ : BufTy).Contents (Elt F) → (⟨S64x64, .f32⟩ : BufTy).Contents (Elt F) → (⟨S64x64, .f32⟩ : BufTy).Contents (Elt F)),
    StableHlo.binary main_v67 main_v7 main_v68 ((fun l r => Host.dotGeneral dot_S64x64_S64x262144_S64x262144_1_0_0_1_n_n none l r) : (⟨S64x64, .f32⟩ : BufTy).Contents (Elt F) → (⟨S64x262144, .f32⟩ : BufTy).Contents (Elt F) → (⟨S64x262144, .f32⟩ : BufTy).Contents (Elt F)),
    StableHlo.reshape main_v68 main_v69 rfl shapeCasts_S64x262144_S64x32x8192,
    StableHlo.unary main_v69 main_v70 ((transpose S32x64x8192 [1, 0, 2] · transposes_S64x32x8192_S32x64x8192_1_0_2) : (⟨S64x32x8192, .f32⟩ : BufTy).Contents (Elt F) → (⟨S32x64x8192, .f32⟩ : BufTy).Contents (Elt F)) ]

end Program

/-! ## The stages -/

section Stages

/-- The argument's type: an array [32, 64, 8192] of extended reals. -/
abbrev TX : Type := FVec Ideal S32x64x8192 .f32
/-- A [64, 262144] array. -/
abbrev TW : Type := FVec Ideal S64x262144 .f32
/-- A 64 × 64 matrix. -/
abbrev TM : Type := FVec Ideal S64x64 .f32
/-- A scalar. -/
abbrev TS : Type := FVec Ideal S_ .f32

/-- A scalar literal broadcast to a matrix. -/
def sFill (b : BitVec 32) : TM := broadcastInDim S64x64 ![] bcast_S_S64x64 (constant (F := Ideal) S_ .f32 b)

/-- x as a [64, 262144] array: channels first, then batches and positions in one axis. -/
def sT (X : TX) : TW :=
  shapeCast S64x262144 (transpose S64x32x8192 [1, 0, 2] X transposes_S32x64x8192_S64x32x8192_1_0_2) shapeCasts_S64x32x8192_S64x262144
/-- The row sums. -/
def sRowSum (X : TX) : FVec Ideal S64 .f32 :=
  Host.reduceAdd (F := Ideal) (sT X) (constant (F := Ideal) S_ .f32 0x00000000#32) reducesTo_S64x262144_S64_d1 h_S_
/-- The column of means. -/
def sMeanCol (X : TX) : FVec Ideal S64x1 .f32 :=
  Host.divf (F := Ideal) (broadcastInDim S64x1 ![0] bcast_S64_S64x1_0 (sRowSum X))
    (broadcastInDim S64x1 ![] bcast_S_S64x1 (constant (F := Ideal) S_ .f32 0x48800000#32))
/-- The centred array. -/
def sC (X : TX) : TW :=
  subf (F := Ideal) (sT X) (broadcastInDim S64x262144 ![0, 1] bcast_S64x1_S64x262144_0_1 (sMeanCol X))
/-- The mask of the diagonal. -/
def sDiag : IVec S64x64 1 :=
  cmpi .eq (addi (iotaInDim S64x64 32 0) (broadcastInDim S64x64 ![] bcast_S_S64x64 (constantI S_ 32 0#32))) (iotaInDim S64x64 32 1)
/-- The identity matrix. -/
def sEye : TM := uitofp (F := Ideal) .f32 sDiag
/-- ε times the identity. -/
def sEpsEye : TM := mulf (F := Ideal) sEye (sFill 0x3727C5AC#32)
/-- The centred array times its transpose. -/
def sGram (X : TX) : TM :=
  Host.dotGeneral (F := Ideal) dot_S64x262144_S262144x64_S64x64_1_0_0_1_n_n none (sC X)
    (transpose S262144x64 [1, 0] (sC X) transposes_S64x262144_S262144x64_1_0)
/-- The covariance. -/
def sSigma (X : TX) : TM := addf (F := Ideal) sEpsEye (mulf (F := Ideal) (sGram X) (sFill 0x36800000#32))
/-- The trace of a matrix: the sum over both axes of the matrix masked to its diagonal. -/
def sTrace (A : TM) : TS :=
  Host.reduceAdd (F := Ideal) (select sDiag A (sFill 0x00000000#32)) (constant (F := Ideal) S_ .f32 0x00000000#32)
    reducesTo_S64x64_S_d0_1 h_S_
/-- The reciprocal of the covariance's trace. -/
def sRTr (X : TX) : TS := Host.divf (F := Ideal) (constant (F := Ideal) S_ .f32 0x3F800000#32) (sTrace (sSigma X))
/-- The covariance scaled to unit trace. -/
def sSigN (X : TX) : TM := mulf (F := Ideal) (sSigma X) (broadcastInDim S64x64 ![] bcast_S_S64x64 (sRTr X))
/-- The product of two 64 × 64 matrices. -/
def sMM (A B : TM) : TM := Host.dotGeneral (F := Ideal) dot_S64x64_S64x64_S64x64_1_0_0_1_n_n none A B
/-- One step of the iteration. -/
def sStep (SN P : TM) : TM :=
  subf (F := Ideal) (mulf (F := Ideal) (sFill 0x3FC00000#32) P)
    (sMM (mulf (F := Ideal) (sFill 0x3F000000#32) (sMM (sMM P P) P)) SN)
/-- The five iterates. -/
def sP1 (X : TX) : TM := sStep (sSigN X) sEye
def sP2 (X : TX) : TM := sStep (sSigN X) (sP1 X)
def sP3 (X : TX) : TM := sStep (sSigN X) (sP2 X)
def sP4 (X : TX) : TM := sStep (sSigN X) (sP3 X)
def sP5 (X : TX) : TM := sStep (sSigN X) (sP4 X)
/-- The whitening matrix. -/
def sWm (X : TX) : TM :=
  mulf (F := Ideal) (sP5 X) (broadcastInDim S64x64 ![] bcast_S_S64x64 (Host.sqrt (F := Ideal) (sRTr X)))
/-- The whitening matrix times the centred array. -/
def sProd (X : TX) : TW :=
  Host.dotGeneral (F := Ideal) dot_S64x64_S64x262144_S64x262144_1_0_0_1_n_n none (sWm X) (sC X)
/-- The result: back to [32, 64, 8192]. -/
def sOut (X : TX) : TX :=
  transpose S32x64x8192 [1, 0, 2] (shapeCast S64x32x8192 (sProd X) shapeCasts_S64x262144_S64x32x8192)
    transposes_S64x32x8192_S32x64x8192_1_0_2

end Stages

/-! ## The line read window by window -/

section Windows

/-- The device's buffer contents after the first window. -/
def v1 (V : Valuation τ sig (Elt Ideal)) : Valuation τ sig (Elt Ideal) := after (w1 (F := Ideal)) V
/-- The contents after the first 2 windows. -/
def v2 (V : Valuation τ sig (Elt Ideal)) : Valuation τ sig (Elt Ideal) := after (w2 (F := Ideal)) (v1 V)
/-- The contents after the first 3 windows. -/
def v3 (V : Valuation τ sig (Elt Ideal)) : Valuation τ sig (Elt Ideal) := after (w3 (F := Ideal)) (v2 V)
/-- The contents after the first 4 windows. -/
def v4 (V : Valuation τ sig (Elt Ideal)) : Valuation τ sig (Elt Ideal) := after (w4 (F := Ideal)) (v3 V)
/-- The contents after the first 5 windows. -/
def v5 (V : Valuation τ sig (Elt Ideal)) : Valuation τ sig (Elt Ideal) := after (w5 (F := Ideal)) (v4 V)
/-- The contents after the first 6 windows. -/
def v6 (V : Valuation τ sig (Elt Ideal)) : Valuation τ sig (Elt Ideal) := after (w6 (F := Ideal)) (v5 V)
/-- The contents after the first 7 windows. -/
def v7 (V : Valuation τ sig (Elt Ideal)) : Valuation τ sig (Elt Ideal) := after (w7 (F := Ideal)) (v6 V)
/-- The contents after the first 8 windows. -/
def v8 (V : Valuation τ sig (Elt Ideal)) : Valuation τ sig (Elt Ideal) := after (w8 (F := Ideal)) (v7 V)
/-- The contents after the first 9 windows. -/
def v9 (V : Valuation τ sig (Elt Ideal)) : Valuation τ sig (Elt Ideal) := after (w9 (F := Ideal)) (v8 V)
/-- The contents after the first 10 windows. -/
def v10 (V : Valuation τ sig (Elt Ideal)) : Valuation τ sig (Elt Ideal) := after (w10 (F := Ideal)) (v9 V)
/-- The contents after the first 11 windows. -/
def v11 (V : Valuation τ sig (Elt Ideal)) : Valuation τ sig (Elt Ideal) := after (w11 (F := Ideal)) (v10 V)

/-- The windows, one after the other, are the whole line. -/
theorem after_ops (V : Valuation τ sig (Elt Ideal)) : after (ops (F := Ideal)) V = v11 V := rfl

/-! ### Window 1 -/

set_option maxRecDepth 16384 in
set_option maxHeartbeats 1000000 in
theorem v1_main_arg0 (V : Valuation τ sig (Elt Ideal)) :
    v1 V (no_index (Proc.devRef .tc main_arg0)) = (V (Proc.devRef .tc main_arg0)) := by
  unfold v1; simp only [w1]; after_results_simp
  all_goals rfl

set_option maxRecDepth 16384 in
set_option maxHeartbeats 1000000 in
theorem v1_main_v7 (V : Valuation τ sig (Elt Ideal)) :
    v1 V (no_index (Proc.devRef .tc main_v7)) = sC (V (Proc.devRef .tc main_arg0)) := by
  unfold v1; simp only [w1]; after_results_simp
  all_goals rfl

/-! ### Window 2 -/

set_option maxRecDepth 16384 in
set_option maxHeartbeats 1000000 in
theorem v2_main_arg0 (V : Valuation τ sig (Elt Ideal)) :
    v2 V (no_index (Proc.devRef .tc main_arg0)) = (V (Proc.devRef .tc main_arg0)) := by
  unfold v2; simp only [w2]; after_results_simp
  try simp only [v1_main_arg0, v1_main_v7]
  all_goals rfl

set_option maxRecDepth 16384 in
set_option maxHeartbeats 1000000 in
theorem v2_main_v7 (V : Valuation τ sig (Elt Ideal)) :
    v2 V (no_index (Proc.devRef .tc main_v7)) = sC (V (Proc.devRef .tc main_arg0)) := by
  unfold v2; simp only [w2]; after_results_simp
  try simp only [v1_main_arg0, v1_main_v7]
  all_goals rfl

set_option maxRecDepth 16384 in
set_option maxHeartbeats 1000000 in
theorem v2_main_v13 (V : Valuation τ sig (Elt Ideal)) :
    v2 V (no_index (Proc.devRef .tc main_v13)) = sEye := by
  unfold v2; simp only [w2]; after_results_simp
  try simp only [v1_main_arg0, v1_main_v7]
  all_goals rfl

set_option maxRecDepth 16384 in
set_option maxHeartbeats 1000000 in
theorem v2_main_v15 (V : Valuation τ sig (Elt Ideal)) :
    v2 V (no_index (Proc.devRef .tc main_v15)) = sEpsEye := by
  unfold v2; simp only [w2]; after_results_simp
  try simp only [v1_main_arg0, v1_main_v7]
  all_goals rfl

/-! ### Window 3 -/

set_option maxRecDepth 16384 in
set_option maxHeartbeats 1000000 in
theorem v3_main_arg0 (V : Valuation τ sig (Elt Ideal)) :
    v3 V (no_index (Proc.devRef .tc main_arg0)) = (V (Proc.devRef .tc main_arg0)) := by
  unfold v3; simp only [w3]; after_results_simp
  try simp only [v2_main_arg0, v2_main_v7, v2_main_v13, v2_main_v15]
  all_goals rfl

set_option maxRecDepth 16384 in
set_option maxHeartbeats 1000000 in
theorem v3_main_v7 (V : Valuation τ sig (Elt Ideal)) :
    v3 V (no_index (Proc.devRef .tc main_v7)) = sC (V (Proc.devRef .tc main_arg0)) := by
  unfold v3; simp only [w3]; after_results_simp
  try simp only [v2_main_arg0, v2_main_v7, v2_main_v13, v2_main_v15]
  all_goals rfl

set_option maxRecDepth 16384 in
set_option maxHeartbeats 1000000 in
theorem v3_main_v13 (V : Valuation τ sig (Elt Ideal)) :
    v3 V (no_index (Proc.devRef .tc main_v13)) = sEye := by
  unfold v3; simp only [w3]; after_results_simp
  try simp only [v2_main_arg0, v2_main_v7, v2_main_v13, v2_main_v15]
  all_goals rfl

set_option maxRecDepth 16384 in
set_option maxHeartbeats 1000000 in
theorem v3_main_v20 (V : Valuation τ sig (Elt Ideal)) :
    v3 V (no_index (Proc.devRef .tc main_v20)) = sSigma (V (Proc.devRef .tc main_arg0)) := by
  unfold v3; simp only [w3]; after_results_simp
  try simp only [v2_main_arg0, v2_main_v7, v2_main_v13, v2_main_v15]
  all_goals rfl

/-! ### Window 4 -/

set_option maxRecDepth 16384 in
set_option maxHeartbeats 1000000 in
theorem v4_main_arg0 (V : Valuation τ sig (Elt Ideal)) :
    v4 V (no_index (Proc.devRef .tc main_arg0)) = (V (Proc.devRef .tc main_arg0)) := by
  unfold v4; simp only [w4]; after_results_simp
  try simp only [v3_main_arg0, v3_main_v7, v3_main_v13, v3_main_v20]
  all_goals rfl

set_option maxRecDepth 16384 in
set_option maxHeartbeats 1000000 in
theorem v4_main_v7 (V : Valuation τ sig (Elt Ideal)) :
    v4 V (no_index (Proc.devRef .tc main_v7)) = sC (V (Proc.devRef .tc main_arg0)) := by
  unfold v4; simp only [w4]; after_results_simp
  try simp only [v3_main_arg0, v3_main_v7, v3_main_v13, v3_main_v20]
  all_goals rfl

set_option maxRecDepth 16384 in
set_option maxHeartbeats 1000000 in
theorem v4_main_v13 (V : Valuation τ sig (Elt Ideal)) :
    v4 V (no_index (Proc.devRef .tc main_v13)) = sEye := by
  unfold v4; simp only [w4]; after_results_simp
  try simp only [v3_main_arg0, v3_main_v7, v3_main_v13, v3_main_v20]
  all_goals rfl

set_option maxRecDepth 16384 in
set_option maxHeartbeats 1000000 in
theorem v4_main_v20 (V : Valuation τ sig (Elt Ideal)) :
    v4 V (no_index (Proc.devRef .tc main_v20)) = sSigma (V (Proc.devRef .tc main_arg0)) := by
  unfold v4; simp only [w4]; after_results_simp
  try simp only [v3_main_arg0, v3_main_v7, v3_main_v13, v3_main_v20]
  all_goals rfl

set_option maxRecDepth 16384 in
set_option maxHeartbeats 1000000 in
theorem v4_main_v21 (V : Valuation τ sig (Elt Ideal)) :
    v4 V (no_index (Proc.devRef .tc main_v21)) = sTrace (sSigma (V (Proc.devRef .tc main_arg0))) := by
  unfold v4; simp only [w4]; after_results_simp
  try simp only [v3_main_arg0, v3_main_v7, v3_main_v13, v3_main_v20]
  all_goals rfl

/-! ### Window 5 -/

set_option maxRecDepth 16384 in
set_option maxHeartbeats 1000000 in
theorem v5_main_arg0 (V : Valuation τ sig (Elt Ideal)) :
    v5 V (no_index (Proc.devRef .tc main_arg0)) = (V (Proc.devRef .tc main_arg0)) := by
  unfold v5; simp only [w5]; after_results_simp
  try simp only [v4_main_arg0, v4_main_v7, v4_main_v13, v4_main_v20, v4_main_v21]
  all_goals rfl

set_option maxRecDepth 16384 in
set_option maxHeartbeats 1000000 in
theorem v5_main_v7 (V : Valuation τ sig (Elt Ideal)) :
    v5 V (no_index (Proc.devRef .tc main_v7)) = sC (V (Proc.devRef .tc main_arg0)) := by
  unfold v5; simp only [w5]; after_results_simp
  try simp only [v4_main_arg0, v4_main_v7, v4_main_v13, v4_main_v20, v4_main_v21]
  all_goals rfl

set_option maxRecDepth 16384 in
set_option maxHeartbeats 1000000 in
theorem v5_main_v13 (V : Valuation τ sig (Elt Ideal)) :
    v5 V (no_index (Proc.devRef .tc main_v13)) = sEye := by
  unfold v5; simp only [w5]; after_results_simp
  try simp only [v4_main_arg0, v4_main_v7, v4_main_v13, v4_main_v20, v4_main_v21]
  all_goals rfl

set_option maxRecDepth 16384 in
set_option maxHeartbeats 1000000 in
theorem v5_main_v22 (V : Valuation τ sig (Elt Ideal)) :
    v5 V (no_index (Proc.devRef .tc main_v22)) = sRTr (V (Proc.devRef .tc main_arg0)) := by
  unfold v5; simp only [w5]; after_results_simp
  try simp only [v4_main_arg0, v4_main_v7, v4_main_v13, v4_main_v20, v4_main_v21]
  all_goals rfl

set_option maxRecDepth 16384 in
set_option maxHeartbeats 1000000 in
theorem v5_main_v24 (V : Valuation τ sig (Elt Ideal)) :
    v5 V (no_index (Proc.devRef .tc main_v24)) = sSigN (V (Proc.devRef .tc main_arg0)) := by
  unfold v5; simp only [w5]; after_results_simp
  try simp only [v4_main_arg0, v4_main_v7, v4_main_v13, v4_main_v20, v4_main_v21]
  all_goals rfl

/-! ### Window 6 -/

set_option maxRecDepth 16384 in
set_option maxHeartbeats 1000000 in
theorem v6_main_arg0 (V : Valuation τ sig (Elt Ideal)) :
    v6 V (no_index (Proc.devRef .tc main_arg0)) = (V (Proc.devRef .tc main_arg0)) := by
  unfold v6; simp only [w6]; after_results_simp
  try simp only [v5_main_arg0, v5_main_v7, v5_main_v13, v5_main_v22, v5_main_v24]
  all_goals rfl

set_option maxRecDepth 16384 in
set_option maxHeartbeats 1000000 in
theorem v6_main_v7 (V : Valuation τ sig (Elt Ideal)) :
    v6 V (no_index (Proc.devRef .tc main_v7)) = sC (V (Proc.devRef .tc main_arg0)) := by
  unfold v6; simp only [w6]; after_results_simp
  try simp only [v5_main_arg0, v5_main_v7, v5_main_v13, v5_main_v22, v5_main_v24]
  all_goals rfl

set_option maxRecDepth 16384 in
set_option maxHeartbeats 1000000 in
theorem v6_main_v22 (V : Valuation τ sig (Elt Ideal)) :
    v6 V (no_index (Proc.devRef .tc main_v22)) = sRTr (V (Proc.devRef .tc main_arg0)) := by
  unfold v6; simp only [w6]; after_results_simp
  try simp only [v5_main_arg0, v5_main_v7, v5_main_v13, v5_main_v22, v5_main_v24]
  all_goals rfl

set_option maxRecDepth 16384 in
set_option maxHeartbeats 1000000 in
theorem v6_main_v24 (V : Valuation τ sig (Elt Ideal)) :
    v6 V (no_index (Proc.devRef .tc main_v24)) = sSigN (V (Proc.devRef .tc main_arg0)) := by
  unfold v6; simp only [w6]; after_results_simp
  try simp only [v5_main_arg0, v5_main_v7, v5_main_v13, v5_main_v22, v5_main_v24]
  all_goals rfl

set_option maxRecDepth 16384 in
set_option maxHeartbeats 1000000 in
theorem v6_main_v32 (V : Valuation τ sig (Elt Ideal)) :
    v6 V (no_index (Proc.devRef .tc main_v32)) = sP1 (V (Proc.devRef .tc main_arg0)) := by
  unfold v6; simp only [w6]; after_results_simp
  try simp only [v5_main_arg0, v5_main_v7, v5_main_v13, v5_main_v22, v5_main_v24]
  all_goals rfl

/-! ### Window 7 -/

set_option maxRecDepth 16384 in
set_option maxHeartbeats 1000000 in
theorem v7_main_arg0 (V : Valuation τ sig (Elt Ideal)) :
    v7 V (no_index (Proc.devRef .tc main_arg0)) = (V (Proc.devRef .tc main_arg0)) := by
  unfold v7; simp only [w7]; after_results_simp
  try simp only [v6_main_arg0, v6_main_v7, v6_main_v22, v6_main_v24, v6_main_v32]
  all_goals rfl

set_option maxRecDepth 16384 in
set_option maxHeartbeats 1000000 in
theorem v7_main_v7 (V : Valuation τ sig (Elt Ideal)) :
    v7 V (no_index (Proc.devRef .tc main_v7)) = sC (V (Proc.devRef .tc main_arg0)) := by
  unfold v7; simp only [w7]; after_results_simp
  try simp only [v6_main_arg0, v6_main_v7, v6_main_v22, v6_main_v24, v6_main_v32]
  all_goals rfl

set_option maxRecDepth 16384 in
set_option maxHeartbeats 1000000 in
theorem v7_main_v22 (V : Valuation τ sig (Elt Ideal)) :
    v7 V (no_index (Proc.devRef .tc main_v22)) = sRTr (V (Proc.devRef .tc main_arg0)) := by
  unfold v7; simp only [w7]; after_results_simp
  try simp only [v6_main_arg0, v6_main_v7, v6_main_v22, v6_main_v24, v6_main_v32]
  all_goals rfl

set_option maxRecDepth 16384 in
set_option maxHeartbeats 1000000 in
theorem v7_main_v24 (V : Valuation τ sig (Elt Ideal)) :
    v7 V (no_index (Proc.devRef .tc main_v24)) = sSigN (V (Proc.devRef .tc main_arg0)) := by
  unfold v7; simp only [w7]; after_results_simp
  try simp only [v6_main_arg0, v6_main_v7, v6_main_v22, v6_main_v24, v6_main_v32]
  all_goals rfl

set_option maxRecDepth 16384 in
set_option maxHeartbeats 1000000 in
theorem v7_main_v40 (V : Valuation τ sig (Elt Ideal)) :
    v7 V (no_index (Proc.devRef .tc main_v40)) = sP2 (V (Proc.devRef .tc main_arg0)) := by
  unfold v7; simp only [w7]; after_results_simp
  try simp only [v6_main_arg0, v6_main_v7, v6_main_v22, v6_main_v24, v6_main_v32]
  all_goals rfl

/-! ### Window 8 -/

set_option maxRecDepth 16384 in
set_option maxHeartbeats 1000000 in
theorem v8_main_arg0 (V : Valuation τ sig (Elt Ideal)) :
    v8 V (no_index (Proc.devRef .tc main_arg0)) = (V (Proc.devRef .tc main_arg0)) := by
  unfold v8; simp only [w8]; after_results_simp
  try simp only [v7_main_arg0, v7_main_v7, v7_main_v22, v7_main_v24, v7_main_v40]
  all_goals rfl

set_option maxRecDepth 16384 in
set_option maxHeartbeats 1000000 in
theorem v8_main_v7 (V : Valuation τ sig (Elt Ideal)) :
    v8 V (no_index (Proc.devRef .tc main_v7)) = sC (V (Proc.devRef .tc main_arg0)) := by
  unfold v8; simp only [w8]; after_results_simp
  try simp only [v7_main_arg0, v7_main_v7, v7_main_v22, v7_main_v24, v7_main_v40]
  all_goals rfl

set_option maxRecDepth 16384 in
set_option maxHeartbeats 1000000 in
theorem v8_main_v22 (V : Valuation τ sig (Elt Ideal)) :
    v8 V (no_index (Proc.devRef .tc main_v22)) = sRTr (V (Proc.devRef .tc main_arg0)) := by
  unfold v8; simp only [w8]; after_results_simp
  try simp only [v7_main_arg0, v7_main_v7, v7_main_v22, v7_main_v24, v7_main_v40]
  all_goals rfl

set_option maxRecDepth 16384 in
set_option maxHeartbeats 1000000 in
theorem v8_main_v24 (V : Valuation τ sig (Elt Ideal)) :
    v8 V (no_index (Proc.devRef .tc main_v24)) = sSigN (V (Proc.devRef .tc main_arg0)) := by
  unfold v8; simp only [w8]; after_results_simp
  try simp only [v7_main_arg0, v7_main_v7, v7_main_v22, v7_main_v24, v7_main_v40]
  all_goals rfl

set_option maxRecDepth 16384 in
set_option maxHeartbeats 1000000 in
theorem v8_main_v48 (V : Valuation τ sig (Elt Ideal)) :
    v8 V (no_index (Proc.devRef .tc main_v48)) = sP3 (V (Proc.devRef .tc main_arg0)) := by
  unfold v8; simp only [w8]; after_results_simp
  try simp only [v7_main_arg0, v7_main_v7, v7_main_v22, v7_main_v24, v7_main_v40]
  all_goals rfl

/-! ### Window 9 -/

set_option maxRecDepth 16384 in
set_option maxHeartbeats 1000000 in
theorem v9_main_arg0 (V : Valuation τ sig (Elt Ideal)) :
    v9 V (no_index (Proc.devRef .tc main_arg0)) = (V (Proc.devRef .tc main_arg0)) := by
  unfold v9; simp only [w9]; after_results_simp
  try simp only [v8_main_arg0, v8_main_v7, v8_main_v22, v8_main_v24, v8_main_v48]
  all_goals rfl

set_option maxRecDepth 16384 in
set_option maxHeartbeats 1000000 in
theorem v9_main_v7 (V : Valuation τ sig (Elt Ideal)) :
    v9 V (no_index (Proc.devRef .tc main_v7)) = sC (V (Proc.devRef .tc main_arg0)) := by
  unfold v9; simp only [w9]; after_results_simp
  try simp only [v8_main_arg0, v8_main_v7, v8_main_v22, v8_main_v24, v8_main_v48]
  all_goals rfl

set_option maxRecDepth 16384 in
set_option maxHeartbeats 1000000 in
theorem v9_main_v22 (V : Valuation τ sig (Elt Ideal)) :
    v9 V (no_index (Proc.devRef .tc main_v22)) = sRTr (V (Proc.devRef .tc main_arg0)) := by
  unfold v9; simp only [w9]; after_results_simp
  try simp only [v8_main_arg0, v8_main_v7, v8_main_v22, v8_main_v24, v8_main_v48]
  all_goals rfl

set_option maxRecDepth 16384 in
set_option maxHeartbeats 1000000 in
theorem v9_main_v24 (V : Valuation τ sig (Elt Ideal)) :
    v9 V (no_index (Proc.devRef .tc main_v24)) = sSigN (V (Proc.devRef .tc main_arg0)) := by
  unfold v9; simp only [w9]; after_results_simp
  try simp only [v8_main_arg0, v8_main_v7, v8_main_v22, v8_main_v24, v8_main_v48]
  all_goals rfl

set_option maxRecDepth 16384 in
set_option maxHeartbeats 1000000 in
theorem v9_main_v56 (V : Valuation τ sig (Elt Ideal)) :
    v9 V (no_index (Proc.devRef .tc main_v56)) = sP4 (V (Proc.devRef .tc main_arg0)) := by
  unfold v9; simp only [w9]; after_results_simp
  try simp only [v8_main_arg0, v8_main_v7, v8_main_v22, v8_main_v24, v8_main_v48]
  all_goals rfl

/-! ### Window 10 -/

set_option maxRecDepth 16384 in
set_option maxHeartbeats 1000000 in
theorem v10_main_arg0 (V : Valuation τ sig (Elt Ideal)) :
    v10 V (no_index (Proc.devRef .tc main_arg0)) = (V (Proc.devRef .tc main_arg0)) := by
  unfold v10; simp only [w10]; after_results_simp
  try simp only [v9_main_arg0, v9_main_v7, v9_main_v22, v9_main_v24, v9_main_v56]
  all_goals rfl

set_option maxRecDepth 16384 in
set_option maxHeartbeats 1000000 in
theorem v10_main_v7 (V : Valuation τ sig (Elt Ideal)) :
    v10 V (no_index (Proc.devRef .tc main_v7)) = sC (V (Proc.devRef .tc main_arg0)) := by
  unfold v10; simp only [w10]; after_results_simp
  try simp only [v9_main_arg0, v9_main_v7, v9_main_v22, v9_main_v24, v9_main_v56]
  all_goals rfl

set_option maxRecDepth 16384 in
set_option maxHeartbeats 1000000 in
theorem v10_main_v22 (V : Valuation τ sig (Elt Ideal)) :
    v10 V (no_index (Proc.devRef .tc main_v22)) = sRTr (V (Proc.devRef .tc main_arg0)) := by
  unfold v10; simp only [w10]; after_results_simp
  try simp only [v9_main_arg0, v9_main_v7, v9_main_v22, v9_main_v24, v9_main_v56]
  all_goals rfl

set_option maxRecDepth 16384 in
set_option maxHeartbeats 1000000 in
theorem v10_main_v64 (V : Valuation τ sig (Elt Ideal)) :
    v10 V (no_index (Proc.devRef .tc main_v64)) = sP5 (V (Proc.devRef .tc main_arg0)) := by
  unfold v10; simp only [w10]; after_results_simp
  try simp only [v9_main_arg0, v9_main_v7, v9_main_v22, v9_main_v24, v9_main_v56]
  all_goals rfl

/-! ### Window 11 -/

set_option maxRecDepth 16384 in
set_option maxHeartbeats 1000000 in
theorem v11_main_arg0 (V : Valuation τ sig (Elt Ideal)) :
    v11 V (no_index (Proc.devRef .tc main_arg0)) = (V (Proc.devRef .tc main_arg0)) := by
  unfold v11; simp only [w11]; after_results_simp
  try simp only [v10_main_arg0, v10_main_v7, v10_main_v22, v10_main_v64]
  all_goals rfl

set_option maxRecDepth 16384 in
set_option maxHeartbeats 1000000 in
theorem v11_main_v70 (V : Valuation τ sig (Elt Ideal)) :
    v11 V (no_index (Proc.devRef .tc main_v70)) = sOut (V (Proc.devRef .tc main_arg0)) := by
  unfold v11; simp only [w11]; after_results_simp
  try simp only [v10_main_arg0, v10_main_v7, v10_main_v22, v10_main_v64]
  all_goals rfl

end Windows

/-! ## The run -/

/-- From any memory with zero counters every weakly fair execution of @main terminates with the result buffer at
    the stages' composed term of the argument array, and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v70) = sOut (m ((c.tc : Thread nD τ).loc main_arg0))
      ∧ r.2.mem ((c.tc : Thread nD τ).loc main_arg0) = m ((c.tc : Thread nD τ).loc main_arg0) :=
  (θ_run defs _ _).mono (fun _ h c => ⟨(h c main_v70).trans ((congrFun (after_ops _) _).trans (v11_main_v70 _)),
      (h c main_arg0).trans ((congrFun (after_ops _) _).trans (v11_main_arg0 _))⟩)
    (run_seq scopedRefs_eq scopedSems_eq defs main (fun _ => ops) main_eq (fun _ => ops_sub) m ρ)

end Cert.ReferenceIdeal.RefValue

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.LibTiles.lean ====
/-
  General lemmas on sums cut into tiles, no program in sight:

  * a sum over `m·n` positions as the sum over `m` tiles of the sums over each tile's `n` positions, position `n·j + p`
    being position `p` of tile `j` (and its instance for 1024 = 8·128);
  * a running total that starts at the first term and adds one term per step is, after step `j`, the sum of the terms
    up to `j`; after the last step it is the sum of all of them.
-/
import Idealize.ShloMosaic.Lib.ValueIdx

open scoped BigOperators

namespace Cert.LibTiles

variable {M : Type*} [AddCommMonoid M]

/-- A sum over `m·n` positions, tile by tile: tile `j` holds the positions `n·j + p`, `p < n`. -/
theorem sum_tiles_mul (m n : ℕ) (g : Fin (m * n) → M) (hlt : ∀ (j : Fin m) (p : Fin n), n * j.val + p.val < m * n) :
    ∑ j : Fin m, ∑ p : Fin n, g ⟨n * j.val + p.val, hlt j p⟩ = ∑ k : Fin (m * n), g k := by
  rw [← Equiv.sum_comp finProdFinEquiv g, Fintype.sum_prod_type]
  refine Finset.sum_congr rfl fun j _ => Finset.sum_congr rfl fun p _ => congrArg g (Fin.ext ?_)
  rw [finProdFinEquiv_apply_val]
  exact Nat.add_comm _ _

/-- 1024 positions as 8 tiles of 128. -/
theorem sum_tiles (g : Fin 1024 → M) :
    ∑ j : Fin 8, ∑ p : Fin 128, g ⟨128 * j.val + p.val, by omega⟩ = ∑ n : Fin 1024, g n :=
  sum_tiles_mul 8 128 g fun j p => by omega

/-- A running total over `n` terms, after step `j`: the sum of the terms `0, …, j`. -/
theorem fold_partial {n : ℕ} (x : Fin n → M) (acc : ℕ → M) (h0 : ∀ h : 0 < n, acc 0 = x ⟨0, h⟩)
    (hs : ∀ j : ℕ, ∀ hj : j + 1 < n, acc (j + 1) = acc j + x ⟨j + 1, hj⟩) (j : ℕ) (hj : j < n) :
    acc j = ∑ i : Fin (j + 1), x (Fin.castLE (Nat.succ_le_of_lt hj) i) := by
  induction j with
  | zero =>
    rw [Fin.sum_univ_castSucc, Fin.sum_univ_zero, zero_add]
    exact h0 hj
  | succ k ih =>
    rw [Fin.sum_univ_castSucc, hs k hj, ih (Nat.lt_of_succ_lt hj)]
    rfl

/-- The same with the terms indexed by the naturals: after step `j` the total is the sum of the terms `0, …, j`. -/
theorem fold_range (x : ℕ → M) (acc : ℕ → M) (n : ℕ) (h0 : acc 0 = x 0)
    (hs : ∀ j : ℕ, j + 1 < n → acc (j + 1) = acc j + x (j + 1)) (j : ℕ) (hj : j < n) :
    acc j = ∑ i ∈ Finset.range (j + 1), x i := by
  induction j with
  | zero => rw [Finset.sum_range_one]; exact h0
  | succ k ih => rw [Finset.sum_range_succ, hs k hj, ih (Nat.lt_of_succ_lt hj)]

/-- A running total over all `n + 1` terms, after the last step: the sum of all of them. -/
theorem fold_all {n : ℕ} (x : Fin (n + 1) → M) (acc : ℕ → M) (h0 : acc 0 = x 0)
    (hs : ∀ j : ℕ, ∀ hj : j + 1 < n + 1, acc (j + 1) = acc j + x ⟨j + 1, hj⟩) : acc n = ∑ j : Fin (n + 1), x j :=
  (fold_partial x acc (fun _ => h0) hs n (Nat.lt_succ_self n)).trans
    (Finset.sum_congr rfl fun i _ => congrArg x (Fin.ext rfl))

/-- Eight tiles: a running total that starts at tile 0's term and adds tile `j + 1`'s at each step is, after tile 7, the sum over the tiles. -/
theorem fold_tiles (x : Fin 8 → M) (acc : ℕ → M) (h0 : acc 0 = x 0)
    (hs : ∀ j : ℕ, ∀ hj : j + 1 < 8, acc (j + 1) = acc j + x ⟨j + 1, hj⟩) : acc 7 = ∑ j : Fin 8, x j :=
  fold_all x acc h0 hs

end Cert.LibTiles
-- ==== Proof.RefRead.lean ====
/-
  The reference program's value by coordinates. Each stage of its run, read at an index, is the specification's
  two-pass computation at the coordinates of that index:

  * x as a [64, 262144] array at row i and column 8192·b + l is x(b, i, l): the transpose puts the channel first
    and the reshape runs batch and position together, batch-major;
  * a row sum is the sum over the 262144 columns, regrouped as the sum over batches of the sums over positions;
  * the means, the centred array, the covariance (a product with the transposed centred array, scaled, plus ε on
    the diagonal), its trace and the reciprocal of the trace, the scaled covariance, each step of the iteration
    (three matrix products, the literals 1.5 and 0.5 kept as their words), the whitening matrix, its product with
    the centred array, and the way back to [32, 64, 8192] follow one operation at a time.

  The run's statement then holds with the result written as the specification's function of the argument.
-/
import proofs.«114804_j29222957482780_2_alg».proof.Proof.RefRun
import proofs.«114804_j29222957482780_2_alg».proof.Proof.Whitening
import proofs.«114804_j29222957482780_2_alg».proof.Proof.LibEyeTrace
import proofs.«114804_j29222957482780_2_alg».proof.Proof.LibHostKeepdims
import proofs.«114804_j29222957482780_2_alg».proof.Proof.LibHostMatmulNN
import proofs.«114804_j29222957482780_2_alg».proof.Proof.LibTiles
import Idealize.ShloMosaic.Lib.ValueLayout
import Idealize.ShloMosaic.Lib.Pipeline.Value
import Idealize.ShloMosaic.PureOps.Ideal.Laws

open scoped BigOperators

noncomputable section

namespace Cert.ReferenceIdeal.RefValue

open Cert.ReferenceIdeal Cert.ReferenceIdeal.Gen Idealize.ShloMosaic Idealize.ShloMosaic.ValueIdx Idealize.ShloMosaic.TcCoe
  Idealize.SL.Sem Cert.Whitening

/-! ## Columns of the [64, 262144] array -/

/-- The column of batch b's position l. -/
abbrev col (b : Fin 32) (l : Fin 8192) : Fin 262144 := ⟨8192 * b.val + l.val, by have := b.isLt; have := l.isLt; omega⟩

/-- A sum over the 262144 columns is the sum over the batches of the sums over the positions. -/
theorem sum_cols {M : Type*} [AddCommMonoid M] (g : Fin 262144 → M) :
    ∑ c, g c = ∑ b : Fin 32, ∑ l : Fin 8192, g (col b l) :=
  (Cert.LibTiles.sum_tiles_mul 32 8192 g (fun j p => by have := j.isLt; have := p.isLt; omega)).symm

/-! ## The stages at an index -/

/-- The host's quotient at an index is the extended reals' division of the elements. -/
theorem hostDivf_at {s : Shape} {φ : FTy} (a b : FVec Ideal s φ) (i : s.Idx) : Host.divf a b i = Ideal.div (a i) (b i) := rfl
/-- The host's square root at an index is the extended reals' square root of the element. -/
theorem hostSqrt_at {s : Shape} {φ : FTy} (a : FVec Ideal s φ) (i : s.Idx) : Host.sqrt a i = Ideal.sqrt (a i) := rfl

/-- x as a [64, 262144] array, at row i and the column of (b, l), is x(b, i, l). -/
theorem sT_apply (X : TX) (i : Fin 64) (b : Fin 32) (l : Fin 8192) : sT X (ix2 i (col b l)) = X (ix3 b i l) := by
  unfold sT
  refine (shapeCast_apply _ shapeCasts_S64x32x8192_S64x262144 (ix2 i (col b l)) (ix3 i b l) ?_).trans ?_
  · rw [Shape.rowMajor_val_three, Shape.rowMajor_val_two]
    show (i.val * 32 + b.val) * 8192 + l.val = i.val * 262144 + (8192 * b.val + l.val)
    omega
  · exact transpose_apply _ X transposes_S32x64x8192_S64x32x8192_1_0_2 (ix3 i b l) (ix3 b i l)
      fun c => match c with | ⟨0, _⟩ => rfl | ⟨1, _⟩ => rfl | ⟨2, _⟩ => rfl

/-- A row sum is the channel's sum over batches and positions. -/
theorem sRowSum_apply (X : TX) (i : Fin 64) : sRowSum X (ix1 i) = rSum (coords X) i := by
  unfold sRowSum
  rw [hostReduceAdd_rows_apply (sT X) _ reducesTo_S64x262144_S64_d1 (by decide) h_S_ i, constant_apply,
    Ideal.ofBits_zero_f32, zero_add, sum_cols]
  exact Finset.sum_congr rfl fun b _ => Finset.sum_congr rfl fun l _ => sT_apply X i b l

/-- The column of means at row i is the channel's mean. -/
theorem sMeanCol_apply (X : TX) (i : Fin 64) : sMeanCol X (ix2 i (0 : Fin 1)) = rMean (coords X) i := by
  unfold sMeanCol
  rw [hostDivf_at, broadcastInDim_a_a1_apply _ _ rfl, broadcastInDim_scalar_apply, constant_apply, sRowSum_apply]
  rfl

/-- The centred array at row i and the column of (b, l). -/
theorem sC_apply (X : TX) (i : Fin 64) (b : Fin 32) (l : Fin 8192) : sC X (ix2 i (col b l)) = rC (coords X) b i l := by
  unfold sC
  rw [subf_apply, broadcastInDim_a1_ab_apply _ _ rfl, sT_apply, sMeanCol_apply]
  rfl

/-- The identity matrix. -/
theorem sEye_apply (i j : Fin 64) : sEye (ix2 i j) = eye i j := by
  unfold sEye sDiag
  exact Cert.MidOps.eye_apply bcast_S_S64x64 i j

/-- A scalar literal broadcast to a matrix reads the literal everywhere. -/
theorem sFill_apply (w : BitVec 32) (y : S64x64.Idx) : sFill w y = Ideal.ofBits .f32 w := by
  unfold sFill
  rw [broadcastInDim_scalar_apply, constant_apply]

/-- The centred array times its transpose, at (i, j). -/
theorem sGram_apply (X : TX) (i j : Fin 64) :
    sGram X (ix2 i j) = ∑ b, ∑ l, rC (coords X) b i l * rC (coords X) b j l := by
  unfold sGram
  refine (Cert.LibHostMatmulNN.hostDot_nn_apply (M := 64) (K := 262144) (N := 64) _ rfl rfl rfl rfl rfl rfl none _ _ i j).trans ?_
  refine (sum_cols _).trans ?_
  refine Finset.sum_congr rfl fun b _ => Finset.sum_congr rfl fun l _ => ?_
  rw [transpose_ix2_apply, sC_apply, sC_apply]

/-- The covariance. -/
theorem sSigma_apply (X : TX) (i j : Fin 64) : sSigma X (ix2 i j) = rSigma (coords X) i j := by
  unfold sSigma sEpsEye
  rw [addf_apply, mulf_apply, mulf_apply, sEye_apply, sFill_apply, sFill_apply, sGram_apply]
  rfl

/-- The trace of a matrix read by coordinates. -/
theorem sTrace_apply (A : TM) (M : Mat) (h : ∀ i j, A (ix2 i j) = M i j) : sTrace A ix0 = tr M := by
  unfold sTrace sDiag sFill
  rw [Cert.MidOps.trace_apply bcast_S_S64x64 reducesTo_S64x64_S_d0_1 h_S_ A]
  exact Finset.sum_congr rfl fun i _ => h i i

/-- The reciprocal of the covariance's trace. -/
theorem sRTr_apply (X : TX) (y : S_.Idx) : sRTr X y = rTr (rSigma (coords X)) := by
  rw [eq_ix0 y]
  unfold sRTr
  rw [hostDivf_at, constant_apply, sTrace_apply _ _ (sSigma_apply X)]
  rfl

/-- The covariance scaled to unit trace. -/
theorem sSigN_apply (X : TX) (i j : Fin 64) : sSigN X (ix2 i j) = sigN (rSigma (coords X)) i j := by
  unfold sSigN
  rw [mulf_apply, broadcastInDim_scalar_apply, sSigma_apply, sRTr_apply]
  rfl

/-- The product of two 64 × 64 matrices at (i, j). -/
theorem sMM_apply (A B : TM) (i j : Fin 64) : sMM A B (ix2 i j) = ∑ k : Fin 64, A (ix2 i k) * B (ix2 k j) := by
  unfold sMM
  exact Cert.LibHostMatmulNN.hostDot_nn_apply _ rfl rfl rfl rfl rfl rfl none A B i j

/-- One step of the iteration, on matrices read by coordinates. -/
theorem sStep_apply (SNv Pv : TM) (SN P : Mat) (hS : ∀ i j, SNv (ix2 i j) = SN i j) (hP : ∀ i j, Pv (ix2 i j) = P i j)
    (i j : Fin 64) : sStep SNv Pv (ix2 i j) = rStep SN P i j := by
  unfold sStep
  simp only [subf_apply, mulf_apply, sMM_apply, sFill_apply, hS, hP]
  rfl

theorem sP1_apply (X : TX) (i j : Fin 64) : sP1 X (ix2 i j) = rStep (sigN (rSigma (coords X))) eye i j :=
  sStep_apply _ _ _ _ (sSigN_apply X) sEye_apply i j
theorem sP2_apply (X : TX) (i j : Fin 64) :
    sP2 X (ix2 i j) = rStep (sigN (rSigma (coords X))) (rStep (sigN (rSigma (coords X))) eye) i j :=
  sStep_apply _ _ _ _ (sSigN_apply X) (sP1_apply X) i j
theorem sP3_apply (X : TX) (i j : Fin 64) :
    sP3 X (ix2 i j) = rStep (sigN (rSigma (coords X))) (rStep (sigN (rSigma (coords X)))
      (rStep (sigN (rSigma (coords X))) eye)) i j :=
  sStep_apply _ _ _ _ (sSigN_apply X) (sP2_apply X) i j
theorem sP4_apply (X : TX) (i j : Fin 64) :
    sP4 X (ix2 i j) = rStep (sigN (rSigma (coords X))) (rStep (sigN (rSigma (coords X))) (rStep (sigN (rSigma (coords X)))
      (rStep (sigN (rSigma (coords X))) eye))) i j :=
  sStep_apply _ _ _ _ (sSigN_apply X) (sP3_apply X) i j
/-- The last iterate. -/
theorem sP5_apply (X : TX) (i j : Fin 64) : sP5 X (ix2 i j) = rP (coords X) i j :=
  sStep_apply _ _ _ _ (sSigN_apply X) (sP4_apply X) i j

/-- The whitening matrix. -/
theorem sWm_apply (X : TX) (i j : Fin 64) : sWm X (ix2 i j) = rWm (coords X) i j := by
  unfold sWm
  rw [mulf_apply, broadcastInDim_scalar_apply, sP5_apply, hostSqrt_at, sRTr_apply]
  rfl

/-- The whitening matrix times the centred array, at row i and the column of (b, l). -/
theorem sProd_apply (X : TX) (i : Fin 64) (b : Fin 32) (l : Fin 8192) :
    sProd X (ix2 i (col b l)) = rOut (coords X) b i l := by
  unfold sProd
  refine (Cert.LibHostMatmulNN.hostDot_nn_apply (M := 64) (K := 64) (N := 262144) _ rfl rfl rfl rfl rfl rfl none _ _ i (col b l)).trans ?_
  refine Finset.sum_congr rfl fun k _ => ?_
  rw [sWm_apply, sC_apply]

/-- The result at (b, i, l). -/
theorem sOut_apply (X : TX) (b : Fin 32) (i : Fin 64) (l : Fin 8192) : sOut X (ix3 b i l) = rOut (coords X) b i l := by
  unfold sOut
  refine (transpose_apply _ _ transposes_S64x32x8192_S32x64x8192_1_0_2 (ix3 b i l) (ix3 i b l)
    fun c => match c with | ⟨0, _⟩ => rfl | ⟨1, _⟩ => rfl | ⟨2, _⟩ => rfl).trans ?_
  refine (shapeCast_apply _ shapeCasts_S64x262144_S64x32x8192 (ix3 i b l) (ix2 i (col b l)) ?_).trans (sProd_apply X i b l)
  rw [Shape.rowMajor_val_three, Shape.rowMajor_val_two]
  show i.val * 262144 + (8192 * b.val + l.val) = (i.val * 32 + b.val) * 8192 + l.val
  omega

/-- The run's result term is the specification's two-pass computation of the argument. -/
theorem sOut_eq (X : TX) : sOut X = ofCoords (rOut (coords X)) := by
  funext y
  exact (congrArg (sOut X) (eq_ix3 y)).trans (sOut_apply X (y 0) (y 1) (y 2))

/-! ## The run with its value -/

/-- From any memory with zero counters every weakly fair execution of the reference terminates with the result buffer
    at the two-pass computation of the argument array, by coordinates, and the argument unchanged. -/
theorem run_value
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩
      (fun r => ∀ c : Dev Cert.ReferenceIdeal.nD,
        r.2.mem ((c.tc : Thread Cert.ReferenceIdeal.nD Cert.ReferenceIdeal.τ).loc Cert.ReferenceIdeal.main_v70)
            = Cert.Whitening.ofCoords (Cert.Whitening.rOut (Cert.Whitening.coords
                (m ((c.tc : Thread Cert.ReferenceIdeal.nD Cert.ReferenceIdeal.τ).loc Cert.ReferenceIdeal.main_arg0))))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run (Cert.ReferenceIdeal.defs (F := Ideal)) _ _).mono (fun _ h c => ⟨(h c).1.trans (sOut_eq _), (h c).2⟩) (run m ρ)

end Cert.ReferenceIdeal.RefValue

end
-- ==== Proof.WhiteningConsts.lean ====
/-
  The float literals of the whitening computations as real numbers.

  Each literal is a 32-bit word: sign bit, eight exponent bits E (bias 127) and 23 fraction bits T, denoting
  (2^23 + T) · 2^(E − 127 − 23) when 0 < E < 255. The words here are
    0x48800000 = 2^18 = 262144 (the number of samples per channel),  0x51800000 = 2^36 (its square),
    0x36800000 = 2^-18,  0x3F800000 = 1,  0x3FC00000 = 3/2,  0x3F000000 = 1/2,
    0x3727C5AC = 10995116 · 2^-40, a positive real (about 10^-5): only its sign is used.
-/
import proofs.«114804_j29222957482780_2_alg».proof.Proof.Whitening

noncomputable section

namespace Cert.WhiteningConsts

open Idealize.ShloMosaic Cert.Whitening

theorem wM_eq : wM = ((262144 : ℝ) : EReal) := by
  unfold wM
  simp [Ideal.ofBits, Ideal.ieee]
  rw [← EReal.coe_mul, EReal.coe_eq_coe_iff]
  norm_num

theorem wMM_eq : wMM = ((68719476736 : ℝ) : EReal) := by
  unfold wMM
  simp [Ideal.ofBits, Ideal.ieee]
  rw [← EReal.coe_pow, ← EReal.coe_mul, EReal.coe_eq_coe_iff]
  norm_num

theorem wInvM_eq : wInvM = ((1 / 262144 : ℝ) : EReal) := by
  unfold wInvM
  simp [Ideal.ofBits, Ideal.ieee]
  rw [← EReal.coe_mul, EReal.coe_eq_coe_iff]
  norm_num

theorem wOne_eq : wOne = ((1 : ℝ) : EReal) := by
  unfold wOne
  simp [Ideal.ofBits, Ideal.ieee]
  rw [← EReal.coe_mul, ← EReal.coe_one, EReal.coe_eq_coe_iff]
  norm_num

theorem w15_eq : w15 = ((3 / 2 : ℝ) : EReal) := by
  unfold w15
  simp [Ideal.ofBits, Ideal.ieee]
  rw [← EReal.coe_mul, EReal.coe_eq_coe_iff]
  norm_num

theorem w05_eq : w05 = ((1 / 2 : ℝ) : EReal) := by
  unfold w05
  simp [Ideal.ofBits, Ideal.ieee]
  rw [← EReal.coe_mul, EReal.coe_eq_coe_iff]
  norm_num

/-- The value of the word 0x3727C5AC. -/
def eps : ℝ := 10995116 / 2 ^ 40

theorem eps_pos : 0 < eps := by unfold eps; positivity

theorem wEps_eq : wEps = ((eps : ℝ) : EReal) := by
  unfold wEps eps
  simp [Ideal.ofBits, Ideal.ieee]
  rw [← EReal.coe_mul, EReal.coe_eq_coe_iff]
  norm_num

end Cert.WhiteningConsts

end
-- ==== Proof.LibVariance.lean ====
/-
  The variance of finitely many real numbers, computed two ways.

  For real numbers x_i over a finite index set of N elements (N ≠ 0), with S1 = Σ x_i, S2 = Σ x_i·x_i and the mean
  μ = S1/N:
      ( Σ (x_i − μ)·(x_i − μ) ) / N  =  S2/N − μ·μ,
  because Σ (x_i − μ)·(x_i − μ) = S2 − 2μ·S1 + N·μ·μ and μ·S1 = N·μ·μ. The left side is a sum of squares divided by a
  positive count, so both sides are ≥ 0 and taking the larger of the right side and 0 changes nothing.

  Over the extended reals the sum, the product and the difference are total but the laws used above fail at the
  infinities. When every x_i is a real number, every sum, product, difference and quotient by the nonzero real N in the
  two expressions is the real one, coerced, and so is the larger of a real and 0; the real identity then carries over.
-/
import Idealize.ShloMosaic.PureOps.Ideal

noncomputable section

open scoped BigOperators

namespace Cert.LibVariance

open Idealize.ShloMosaic

variable {ι : Type*} [Fintype ι]

/-- Σ (x_i − μ)·(x_i − μ) = Σ x_i·x_i − 2μ·Σ x_i + N·(μ·μ), N the number of indices, for any real μ. -/
theorem sum_sq_dev (x : ι → ℝ) (μ : ℝ) :
    ∑ i, (x i - μ) * (x i - μ) = (∑ i, x i * x i) - 2 * μ * (∑ i, x i) + (Fintype.card ι : ℝ) * (μ * μ) := by
  calc ∑ i, (x i - μ) * (x i - μ) = ∑ i, (x i * x i - 2 * μ * x i + μ * μ) :=
        Finset.sum_congr rfl (fun i _ => by ring)
    _ = _ := by
        rw [Finset.sum_add_distrib, Finset.sum_sub_distrib, ← Finset.mul_sum, Finset.sum_const, Finset.card_univ,
          nsmul_eq_mul]

/-- The mean of the squared deviations from the mean is the mean of the squares minus the square of the mean. -/
theorem var_real (x : ι → ℝ) (N : ℝ) (hN : (Fintype.card ι : ℝ) = N) (hN0 : N ≠ 0) :
    (∑ i, (x i - (∑ j, x j) / N) * (x i - (∑ j, x j) / N)) / N
      = (∑ i, x i * x i) / N - (∑ i, x i) / N * ((∑ i, x i) / N) := by
  rw [sum_sq_dev, hN]
  field_simp
  ring

/-- The mean of the squares minus the square of the mean is ≥ 0: it is a mean of squares. -/
theorem var_real_nonneg (x : ι → ℝ) (N : ℝ) (hN : (Fintype.card ι : ℝ) = N) (hN0 : N ≠ 0) :
    0 ≤ (∑ i, x i * x i) / N - (∑ i, x i) / N * ((∑ i, x i) / N) := by
  rw [← var_real x N hN hN0]
  have hpos : (0 : ℝ) ≤ N := hN ▸ Nat.cast_nonneg _
  exact div_nonneg (Finset.sum_nonneg fun i _ => mul_self_nonneg _) hpos

/-- The larger of (mean of squares − square of mean) and 0 is the mean of the squared deviations from the mean. -/
theorem max_var_real (x : ι → ℝ) (N : ℝ) (hN : (Fintype.card ι : ℝ) = N) (hN0 : N ≠ 0) :
    max ((∑ i, x i * x i) / N - (∑ i, x i) / N * ((∑ i, x i) / N)) 0
      = (∑ i, (x i - (∑ j, x j) / N) * (x i - (∑ j, x j) / N)) / N := by
  rw [max_eq_left (var_real_nonneg x N hN hN0), var_real x N hN hN0]

/-- The coercion of a finite sum of real numbers is the sum of the coercions. -/
theorem coe_sum {κ : Type*} (s : Finset κ) (f : κ → ℝ) : ∑ i ∈ s, (f i : EReal) = ((∑ i ∈ s, f i : ℝ) : EReal) := by
  classical
  refine Finset.induction_on s (by simp) ?_
  intro i s hi ih
  rw [Finset.sum_insert hi, Finset.sum_insert hi, ih, EReal.coe_add]

/-- The quotient of a real by a nonzero real, taken in the extended reals, is the real quotient. -/
theorem div_coe_coe (a : ℝ) {N : ℝ} (hN0 : N ≠ 0) : Ideal.div (a : EReal) (N : EReal) = ((a / N : ℝ) : EReal) := by
  rw [Ideal.div_coe hN0, ← EReal.coe_mul, mul_one_div]

/-- The larger of two reals, taken in the extended reals, is the real one. -/
theorem coe_max (a b : ℝ) : max (a : EReal) (b : EReal) = ((max a b : ℝ) : EReal) :=
  (EReal.coe_strictMono.monotone.map_max).symm

/-- Over the extended reals, for real numbers x_i and N their nonzero count: the larger of
    S2/N − (S1/N)·(S1/N) and 0 is ( Σ (x_i − S1/N)·(x_i − S1/N) ) / N. -/
theorem max_var_ereal (x : ι → EReal) (hx : ∀ i, ∃ r : ℝ, x i = (r : EReal)) (N : ℝ)
    (hN : (Fintype.card ι : ℝ) = N) (hN0 : N ≠ 0) :
    max (Ideal.div (∑ i, x i * x i) (N : EReal)
          - Ideal.div (∑ i, x i) (N : EReal) * Ideal.div (∑ i, x i) (N : EReal)) 0
      = Ideal.div (∑ i, (x i - Ideal.div (∑ j, x j) (N : EReal)) * (x i - Ideal.div (∑ j, x j) (N : EReal)))
          (N : EReal) := by
  choose r hr using hx
  obtain rfl : x = fun i => (r i : EReal) := funext hr
  simp only [← EReal.coe_mul, coe_sum, div_coe_coe _ hN0, ← EReal.coe_sub]
  rw [← EReal.coe_zero, coe_max, max_var_real r N hN hN0]

/-- The same with the two arguments of the larger-of exchanged. -/
theorem max_zero_var_ereal (x : ι → EReal) (hx : ∀ i, ∃ r : ℝ, x i = (r : EReal)) (N : ℝ)
    (hN : (Fintype.card ι : ℝ) = N) (hN0 : N ≠ 0) :
    max 0 (Ideal.div (∑ i, x i * x i) (N : EReal)
          - Ideal.div (∑ i, x i) (N : EReal) * Ideal.div (∑ i, x i) (N : EReal))
      = Ideal.div (∑ i, (x i - Ideal.div (∑ j, x j) (N : EReal)) * (x i - Ideal.div (∑ j, x j) (N : EReal)))
          (N : EReal) := by
  rw [max_comm]
  exact max_var_ereal x hx N hN hN0

/-- The same with the mean named: for m = S1/N, the larger of S2/N − m·m and 0 is ( Σ (x_i − m)·(x_i − m) ) / N. -/
theorem max_var_ereal_mean (x : ι → EReal) (hx : ∀ i, ∃ r : ℝ, x i = (r : EReal)) (N : ℝ)
    (hN : (Fintype.card ι : ℝ) = N) (hN0 : N ≠ 0) (m : EReal) (hm : m = Ideal.div (∑ i, x i) (N : EReal)) :
    max (Ideal.div (∑ i, x i * x i) (N : EReal) - m * m) 0
      = Ideal.div (∑ i, (x i - m) * (x i - m)) (N : EReal) := by
  subst hm
  exact max_var_ereal x hx N hN hN0

/-- The pattern 0x4A800000 of the 32-bit format is the real number 4194304 = 2^22: sign 0, exponent field 149,
    fraction 0, so 2^23 · 2^(149 − 127 − 23). -/
theorem ofBits_4194304 : Ideal.ofBits .f32 0x4A800000#32 = ((4194304 : ℝ) : EReal) := by
  simp [Ideal.ofBits, Ideal.ieee]
  rw [← EReal.coe_mul, EReal.coe_eq_coe_iff]
  norm_num

end Cert.LibVariance

end
-- ==== Proof.WhiteningReal.lean ====
/-
  The operations the two whitening computations share, over the real numbers.

  A matrix of extended reals all of whose entries are real numbers is the entrywise coercion `cm A` of a real
  matrix `A`. On such matrices the identity matrix, the matrix product, the trace, the reciprocal of a nonzero trace,
  the scaling to unit trace, the whitening matrix and the two spellings of the Newton–Schulz step are the coercions
  of the same operations over ℝ. Over ℝ the two spellings of the step agree, because a constant factor moves across
  a finite sum:  Σ_k (½ · Q(i,k)) · N(k,j) = ½ · Σ_k Q(i,k) · N(k,j).
-/
import proofs.«114804_j29222957482780_2_alg».proof.Proof.Whitening
import proofs.«114804_j29222957482780_2_alg».proof.Proof.WhiteningConsts
import proofs.«114804_j29222957482780_2_alg».proof.Proof.LibVariance

open scoped BigOperators

noncomputable section

namespace Cert.WhiteningReal

open Idealize.ShloMosaic Cert.Whitening Cert.WhiteningConsts

/-- A 64 × 64 real matrix by coordinates. -/
abbrev MatR := Fin 64 → Fin 64 → ℝ

/-- The matrix of extended reals with the real entries `A i j`. -/
def cm (A : MatR) : Mat := fun i j => (A i j : EReal)

theorem cm_apply (A : MatR) (i j : Fin 64) : cm A i j = (A i j : EReal) := rfl

def eyeR : MatR := fun i j => if i = j then 1 else 0
def mmR (A B : MatR) : MatR := fun i j => ∑ k, A i k * B k j
def trR (A : MatR) : ℝ := ∑ i, A i i
def sigNR (S : MatR) : MatR := fun i j => S i j * (1 / trR S)
def wmR (S P : MatR) : MatR := fun i j => P i j * Real.sqrt (1 / trR S)
/-- One Newton–Schulz step: P ← (3/2)·P − (1/2)·((P·P)·P)·N. -/
def stepR (SN P : MatR) : MatR := fun i j => 3 / 2 * P i j - 1 / 2 * mmR (mmR (mmR P P) P) SN i j

theorem eye_cm : eye = cm eyeR := by
  funext i j
  unfold eye cm eyeR
  split <;> simp

theorem mm_cm (A B : MatR) : mm (cm A) (cm B) = cm (mmR A B) := by
  funext i j
  simp only [mm, cm, mmR, ← EReal.coe_mul, LibVariance.coe_sum]

theorem tr_cm (A : MatR) : tr (cm A) = (trR A : EReal) := by
  simp only [tr, cm, trR, LibVariance.coe_sum]

theorem rTr_cm (S : MatR) (h : trR S ≠ 0) : rTr (cm S) = ((1 / trR S : ℝ) : EReal) := by
  rw [rTr, tr_cm, wOne_eq, LibVariance.div_coe_coe _ h]

theorem sigN_cm (S : MatR) (h : trR S ≠ 0) : sigN (cm S) = cm (sigNR S) := by
  funext i j
  simp only [sigN, rTr_cm S h, cm, sigNR, ← EReal.coe_mul]

theorem wmOf_cm (S P : MatR) (h : 0 < trR S) : wmOf (cm S) (cm P) = cm (wmR S P) := by
  funext i j
  have h0 : ¬ (1 / trR S < 0) := not_lt.mpr (one_div_pos.mpr h).le
  simp only [wmOf, rTr_cm S h.ne', Ideal.sqrt_coe, if_neg h0, cm, wmR, ← EReal.coe_mul]

theorem kStep_cm (SN P : MatR) : kStep (cm SN) (cm P) = cm (stepR SN P) := by
  funext i j
  simp only [kStep, mm_cm, w15_eq, w05_eq, cm, stepR, ← EReal.coe_mul, ← EReal.coe_sub]

/-- A constant factor on the left matrix of a product moves out of the product. -/
theorem mmR_smul_left (c : ℝ) (Q N : MatR) (i j : Fin 64) :
    mmR (fun a b => c * Q a b) N i j = c * mmR Q N i j := by
  simp only [mmR, Finset.mul_sum, mul_assoc]

theorem rStep_cm (SN P : MatR) : rStep (cm SN) (cm P) = cm (stepR SN P) := by
  funext i j
  have hQ : (fun a b => w05 * mm (mm (cm P) (cm P)) (cm P) a b)
      = cm (fun a b => 1 / 2 * mmR (mmR P P) P a b) := by
    funext a b
    simp only [mm_cm, w05_eq, cm, ← EReal.coe_mul]
  show w15 * cm P i j - mm (fun a b => w05 * mm (mm (cm P) (cm P)) (cm P) a b) (cm SN) i j = _
  rw [hQ, mm_cm]
  simp only [w15_eq, cm, stepR, mmR_smul_left, ← EReal.coe_mul, ← EReal.coe_sub]

/-- Five steps from the identity. -/
def iterR (SN : MatR) : MatR := stepR SN (stepR SN (stepR SN (stepR SN (stepR SN eyeR))))

theorem kIter_cm (SN : MatR) :
    kStep (cm SN) (kStep (cm SN) (kStep (cm SN) (kStep (cm SN) (kStep (cm SN) eye)))) = cm (iterR SN) := by
  rw [eye_cm, kStep_cm, kStep_cm, kStep_cm, kStep_cm, kStep_cm, iterR]

theorem rIter_cm (SN : MatR) :
    rStep (cm SN) (rStep (cm SN) (rStep (cm SN) (rStep (cm SN) (rStep (cm SN) eye)))) = cm (iterR SN) := by
  rw [eye_cm, rStep_cm, rStep_cm, rStep_cm, rStep_cm, rStep_cm, iterR]

end Cert.WhiteningReal

end
-- ==== Proof.WhiteningCov.lean ====
/-
  The sums, the means and the covariance of the two whitening computations agree on real inputs.

  The input is the entrywise coercion `ca x` of a real array x(b, i, l). Write M = 32 · 8192 = 262144,
  s_i = Σ_{b,l} x(b,i,l),  S1_ij = Σ_{b,l} x(b,i,l)·x(b,j,l)  and  μ_i = s_i / M.

  * The one-pass computation adds the 32 batches as 8 blocks of 4, batch b = 4n + a; a sum over blocks of sums
    inside each block is the sum over all batches, so its sums are s and S1.
  * For any reals m, n:  Σ_{b,l} (x_i − m)(x_j − n) = S1_ij − m·s_j − n·s_i + M·m·n; at m = μ_i, n = μ_j this is
    S1_ij − s_i·s_j / M, hence
        ε·δ_ij + (Σ_{b,l} (x_i − μ_i)(x_j − μ_j)) · (1/M)  =  ε·δ_ij + S1_ij / M − s_i·s_j / M²,
    the two covariances.
  * Each diagonal entry of the covariance is ε plus a sum of squares times 1/M, hence positive, and so is the trace.
-/
import proofs.«114804_j29222957482780_2_alg».proof.Proof.Whitening
import proofs.«114804_j29222957482780_2_alg».proof.Proof.WhiteningConsts
import proofs.«114804_j29222957482780_2_alg».proof.Proof.WhiteningReal
import proofs.«114804_j29222957482780_2_alg».proof.Proof.LibVariance
import proofs.«114804_j29222957482780_2_alg».proof.Proof.LibTiles

open scoped BigOperators

noncomputable section

namespace Cert.WhiteningCov

open Idealize.ShloMosaic Cert.Whitening Cert.WhiteningConsts Cert.WhiteningReal

/-- A real array by coordinates: batch, channel, position. -/
abbrev ArrR := Fin 32 → Fin 64 → Fin 8192 → ℝ

/-- The array of extended reals with the real entries `x b i l`. -/
def ca (x : ArrR) : Arr := fun b i l => (x b i l : EReal)

def sR (x : ArrR) (i : Fin 64) : ℝ := ∑ b, ∑ l, x b i l
def s1R (x : ArrR) (i j : Fin 64) : ℝ := ∑ b, ∑ l, x b i l * x b j l
def meanR (x : ArrR) (i : Fin 64) : ℝ := sR x i / 262144
def devR (x : ArrR) (i j : Fin 64) : ℝ := ∑ b, ∑ l, (x b i l - meanR x i) * (x b j l - meanR x j)
/-- The covariance as the two-pass computation writes it. -/
def sigmaR (x : ArrR) : MatR := fun i j => eyeR i j * eps + devR x i j * (1 / 262144)
/-- The covariance as the one-pass computation writes it. -/
def sigmaK (x : ArrR) : MatR := fun i j =>
  eyeR i j * eps + s1R x i j / 262144 - sR x i * sR x j / 68719476736

/-! ## The 32 batches as 8 blocks of 4 -/

theorem sum_blocks {M : Type*} [AddCommMonoid M] (g : Fin 32 → M) :
    ∑ n : Fin 8, ∑ a : Fin 4, g ⟨4 * n.val + a.val, by omega⟩ = ∑ b : Fin 32, g b :=
  LibTiles.sum_tiles_mul 8 4 g fun j p => by omega

theorem kS_eq (X : Arr) (i : Fin 64) : kS X i = rSum X i :=
  sum_blocks fun b => ∑ l, X b i l

theorem kS1_eq (X : Arr) (i j : Fin 64) : kS1 X i j = ∑ b, ∑ l, X b i l * X b j l :=
  sum_blocks fun b => ∑ l, X b i l * X b j l

/-! ## The sums and the means of a real array -/

theorem rSum_ca (x : ArrR) (i : Fin 64) : rSum (ca x) i = (sR x i : EReal) := by
  simp only [rSum, ca, sR, LibVariance.coe_sum]

theorem kS_ca (x : ArrR) (i : Fin 64) : kS (ca x) i = (sR x i : EReal) := by
  rw [kS_eq, rSum_ca]

theorem kS1_ca (x : ArrR) (i j : Fin 64) : kS1 (ca x) i j = (s1R x i j : EReal) := by
  rw [kS1_eq]
  simp only [ca, s1R, ← EReal.coe_mul, LibVariance.coe_sum]

theorem M_ne : (262144 : ℝ) ≠ 0 := by norm_num
theorem MM_ne : (68719476736 : ℝ) ≠ 0 := by norm_num

theorem rMean_ca (x : ArrR) (i : Fin 64) : rMean (ca x) i = (meanR x i : EReal) := by
  rw [rMean, rSum_ca, wM_eq, LibVariance.div_coe_coe _ M_ne, meanR]

theorem kMean_ca (x : ArrR) (i : Fin 64) : kMean (ca x) i = (meanR x i : EReal) := by
  rw [kMean, kS_ca, wM_eq, LibVariance.div_coe_coe _ M_ne, meanR]

/-! ## The covariance -/

theorem rC_ca (x : ArrR) (b : Fin 32) (k : Fin 64) (l : Fin 8192) :
    rC (ca x) b k l = ((x b k l - meanR x k : ℝ) : EReal) := by
  rw [rC, rMean_ca, ca, EReal.coe_sub]

theorem rSigma_ca (x : ArrR) : rSigma (ca x) = cm (sigmaR x) := by
  funext i j
  simp only [rSigma, rC_ca, eye_cm, cm, wEps_eq, wInvM_eq, sigmaR, devR, ← EReal.coe_mul, LibVariance.coe_sum,
    ← EReal.coe_add]

theorem kSigma_ca (x : ArrR) : kSigma (ca x) = cm (sigmaK x) := by
  funext i j
  simp only [kSigma, kS_ca, kS1_ca, eye_cm, cm, wEps_eq, wM_eq, wMM_eq, sigmaK, ← EReal.coe_mul,
    LibVariance.div_coe_coe _ M_ne, LibVariance.div_coe_coe _ MM_ne, ← EReal.coe_add, ← EReal.coe_sub]

/-- Σ_{b,l} (x_i − m)(x_j − n) = S1_ij − m·s_j − n·s_i + M·(m·n) for any reals m, n. -/
theorem sum_dev (x : ArrR) (i j : Fin 64) (m n : ℝ) :
    ∑ b, ∑ l, (x b i l - m) * (x b j l - n) = s1R x i j - m * sR x j - n * sR x i + 262144 * (m * n) := by
  have hin : ∀ b : Fin 32, ∑ l : Fin 8192, (x b i l - m) * (x b j l - n)
      = (∑ l, x b i l * x b j l) - m * (∑ l, x b j l) - n * (∑ l, x b i l) + 8192 * (m * n) := by
    intro b
    have hc : (8192 : ℝ) * (m * n) = ∑ _l : Fin 8192, m * n := by
      rw [Finset.sum_const, Finset.card_univ, Fintype.card_fin, nsmul_eq_mul]; norm_num
    rw [hc, Finset.mul_sum, Finset.mul_sum, ← Finset.sum_sub_distrib, ← Finset.sum_sub_distrib,
      ← Finset.sum_add_distrib]
    exact Finset.sum_congr rfl fun l _ => by ring
  have hc : (262144 : ℝ) * (m * n) = ∑ _b : Fin 32, 8192 * (m * n) := by
    rw [Finset.sum_const, Finset.card_univ, Fintype.card_fin, nsmul_eq_mul]; push_cast; ring
  rw [Finset.sum_congr rfl fun b _ => hin b, s1R, sR, sR, hc, Finset.mul_sum, Finset.mul_sum,
    ← Finset.sum_sub_distrib, ← Finset.sum_sub_distrib, ← Finset.sum_add_distrib]

theorem sigma_eq (x : ArrR) : sigmaK x = sigmaR x := by
  funext i j
  unfold sigmaK sigmaR devR
  rw [sum_dev x i j (meanR x i) (meanR x j), meanR, meanR]
  field_simp
  ring

/-- The trace of the covariance is positive: every diagonal entry is ε plus a sum of squares times 1/M. -/
theorem trace_pos (x : ArrR) : 0 < trR (sigmaR x) := by
  unfold trR
  refine Finset.sum_pos (fun i _ => ?_) Finset.univ_nonempty
  have h1 : eyeR i i = 1 := by unfold eyeR; simp
  have h2 : 0 ≤ devR x i i :=
    Finset.sum_nonneg fun b _ => Finset.sum_nonneg fun l _ => mul_self_nonneg _
  show 0 < eyeR i i * eps + devR x i i * (1 / 262144)
  rw [h1, one_mul]
  have h3 : 0 ≤ devR x i i * (1 / 262144) := mul_nonneg h2 (by norm_num)
  linarith [eps_pos]

end Cert.WhiteningCov

end
-- ==== Proof.LibReal.lean ====
/-
  Real numbers among the extended reals.

  Over the extended reals the sum and the product are total, but the laws that move a factor across a sum hold only
  away from the infinities. `IsReal z` says `z` is a real number; real numbers are closed under the sum, the product,
  finite sums and the logistic function, a real factor moves inside a finite sum of real numbers
  (`mul_sum_of_real`), and a scatter that adds real updates into a real array gives a real array.

  How an input is known to be real: a precondition that compares the absolute value of every element of a 32-bit float
  array with plus infinity (the pattern 0x7F800000) says, element by element, that the element is a real number
  (`elem_real`: one element of that comparison being 1; the all-reduce by "and" of the comparison gives every element's).
-/
import Idealize.ShloMosaic.PureOps.Ideal
import Idealize.ShloMosaic.PureOps.Ideal.Laws

noncomputable section

open scoped BigOperators

namespace Cert.LibReal

open Idealize.ShloMosaic

/-- An extended real that is a real number. -/
def IsReal (z : EReal) : Prop := ∃ r : ℝ, z = (r : EReal)

theorem IsReal.coe (r : ℝ) : IsReal (r : EReal) := ⟨r, rfl⟩

theorem IsReal.zero : IsReal 0 := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The logistic function of a real number is a real number. -/
theorem IsReal.logistic {a : EReal} (ha : IsReal a) : IsReal (Ideal.logistic a) := by
  obtain ⟨r, rfl⟩ := ha; exact ⟨_, Ideal.logistic_coe r⟩

/-- A real factor times a finite sum of real numbers is the sum of the products. -/
theorem mul_sum_of_real {ι : Type*} (s : Finset ι) (g : EReal) (a : ι → EReal) (hg : IsReal g)
    (ha : ∀ i ∈ s, IsReal (a i)) : g * ∑ i ∈ s, a i = ∑ i ∈ s, g * a i := by
  classical
  obtain ⟨r, rfl⟩ := hg
  revert ha
  refine Finset.induction_on s ?_ ?_
  · intro _; simp
  · intro i s hi ih ha
    rw [Finset.sum_insert hi, Finset.sum_insert hi, ← ih (fun j hj => ha j (Finset.mem_insert_of_mem hj))]
    obtain ⟨x, hx⟩ := ha i (Finset.mem_insert_self i s)
    obtain ⟨y, hy⟩ := IsReal.sum s a (fun j hj => ha j (Finset.mem_insert_of_mem hj))
    rw [hx, hy, ← EReal.coe_add, ← EReal.coe_mul, ← EReal.coe_mul, ← EReal.coe_mul, ← EReal.coe_add, mul_add]

/-- Adding real updates into a real array leaves every element real: the element plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact IsReal.add (hx i) (IsReal.sum _ _ fun j _ => hu j)

/-- The rank-zero shape has one index. -/
instance scalarIdx_subsingleton : Subsingleton (⟨0, ![]⟩ : Shape).Idx := ⟨fun a b => funext fun d => d.elim0⟩

/-- An extended real whose absolute value, the larger of it and its negation, is below plus infinity is a real number. -/
theorem isReal_of_abs_lt_top (x : EReal) (h : max x (-x) < ⊤) : IsReal x := by
  induction x using EReal.rec with
  | bot => simp at h
  | coe r => exact ⟨r, rfl⟩
  | top => simp at h

/-- The pattern 0x7F800000 of the 32-bit format is plus infinity. -/
theorem ofBits_inf : Ideal.ofBits .f32 0x7F800000#32 = ⊤ := by simp [Ideal.ofBits, Ideal.ieee]

/-- One element of the comparison of the absolute values against a splat of plus infinity being 1 says the
    element is a real number. -/
theorem elem_real {s : Shape} (hb : (⟨0, ![]⟩ : Shape).BroadcastsInDim s (![] : Fin 0 → Fin s.rank))
    (a : FVec Ideal s .f32) (i : s.Idx)
    (h : cmpf .olt (Host.absf a) (broadcastInDim s ![] hb (constant (⟨0, ![]⟩ : Shape) .f32 0x7F800000#32)) i = 1#1) :
    IsReal (a i) := by
  have h' : Ideal.cmp .olt (max (a i) (-(a i))) (Ideal.ofBits .f32 0x7F800000#32) = 1#1 := h
  rw [ofBits_inf] at h'
  unfold Ideal.cmp at h'
  refine isReal_of_abs_lt_top (a i) ?_
  by_contra hn
  simp [hn] at h'

end Cert.LibReal

end
-- ==== Proof.WhiteningAlgebra.lean ====
/-
  The one-pass and the two-pass whitening computations agree on real inputs.

  With every entry of the input a real number, the input is the coercion of a real array x, both covariances are
  the coercion of one real matrix Σ with positive trace t, and so are Σ_N = Σ · (1/t), the five Newton–Schulz
  iterates (the two spellings of the step agree over ℝ) and the whitening matrix W = P · √(1/t). With the means
  μ_k real as well, the two results are the coercions of
      Σ_k W(i,k)·x(b,k,l) − Σ_k W(i,k)·μ_k      and      Σ_k W(i,k)·(x(b,k,l) − μ_k),
  which are equal over ℝ term by term.
-/
import proofs.«114804_j29222957482780_2_alg».proof.Proof.Whitening
import proofs.«114804_j29222957482780_2_alg».proof.Proof.WhiteningConsts
import proofs.«114804_j29222957482780_2_alg».proof.Proof.WhiteningReal
import proofs.«114804_j29222957482780_2_alg».proof.Proof.WhiteningCov
import proofs.«114804_j29222957482780_2_alg».proof.Proof.LibReal
import proofs.«114804_j29222957482780_2_alg».proof.Proof.LibVariance

open scoped BigOperators

noncomputable section

namespace Cert.WhiteningAlgebra

open Idealize.ShloMosaic Cert.Whitening Cert.WhiteningConsts Cert.WhiteningReal Cert.WhiteningCov

/-- The whitening matrix over ℝ. -/
def wR (x : ArrR) : MatR := wmR (sigmaR x) (iterR (sigNR (sigmaR x)))

theorem kWm_ca (x : ArrR) : kWm (ca x) = cm (wR x) := by
  have hS : kSigma (ca x) = cm (sigmaR x) := by rw [kSigma_ca, sigma_eq]
  have ht := trace_pos x
  unfold kWm kP
  rw [hS, sigN_cm _ ht.ne', kIter_cm, wmOf_cm _ _ ht, wR]

theorem rWm_ca (x : ArrR) : rWm (ca x) = cm (wR x) := by
  have ht := trace_pos x
  unfold rWm rP
  rw [rSigma_ca, sigN_cm _ ht.ne', rIter_cm, wmOf_cm _ _ ht, wR]

theorem kOut_ca (x : ArrR) (b : Fin 32) (i : Fin 64) (l : Fin 8192) :
    kOut (ca x) b i l = (((∑ k, wR x i k * x b k l) - ∑ k, wR x i k * meanR x k : ℝ) : EReal) := by
  simp only [kOut, kBias, kWm_ca, kMean_ca, cm, ca, ← EReal.coe_mul, LibVariance.coe_sum, ← EReal.coe_sub]

theorem rOut_ca (x : ArrR) (b : Fin 32) (i : Fin 64) (l : Fin 8192) :
    rOut (ca x) b i l = ((∑ k, wR x i k * (x b k l - meanR x k) : ℝ) : EReal) := by
  simp only [rOut, rWm_ca, rC_ca, cm, ← EReal.coe_mul, LibVariance.coe_sum]

theorem out_ca (x : ArrR) : kOut (ca x) = rOut (ca x) := by
  funext b i l
  rw [kOut_ca, rOut_ca, EReal.coe_eq_coe_iff, ← Finset.sum_sub_distrib]
  exact Finset.sum_congr rfl fun k _ => by ring

end Cert.WhiteningAlgebra

/-- On an input all of whose entries are real numbers the one-pass and the two-pass computations give the same
    result. -/
theorem Cert.Whitening.out_eq (X : Cert.Whitening.Arr) (hX : ∀ b i l, Cert.LibReal.IsReal (X b i l)) :
    Cert.Whitening.kOut X = Cert.Whitening.rOut X := by
  have hX' : ∀ b i l, ∃ r : ℝ, X b i l = (r : EReal) := hX
  choose x hx using hX'
  obtain rfl : X = Cert.WhiteningCov.ca x := funext fun b => funext fun i => funext fun l => hx b i l
  exact Cert.WhiteningAlgebra.out_ca x

end
-- ==== Proof.FiniteInput.lean ====
/-
  From the precondition to the input's entries being real numbers.

  The precondition takes the absolute value of every entry, compares it with plus infinity ("less than"), and combines
  all the comparison bits by "and", starting from the bit 1, into a single bit. That bit being 1 says every comparison
  bit is 1; and an entry whose absolute value is below plus infinity is neither infinity, so it is a real number.
-/
import proofs.«114804_j29222957482780_2_alg».proof.Pre_finite_inputs
import proofs.«114804_j29222957482780_2_alg».proof.Proof.LibReal
import proofs.«114804_j29222957482780_2_alg».proof.Proof.Whitening
import Idealize.ShloMosaic.Lib.ReduceAll
import Idealize.ShloMosaic.Lib.ValueIdx

noncomputable section

namespace Cert.FiniteInput

open Idealize.ShloMosaic Idealize.ShloMosaic.ValueIdx

/-- Under the precondition every entry of the input is a real number. -/
theorem entries_real [Cert.Pre_finite_inputs.Facts] (X : FVec Ideal Cert.Pre_finite_inputs.S32x64x8192 .f32)
    (h : Cert.Pre_finite_inputs.fn (F := Ideal) X = fun _ => 1#1) : ∀ i, Cert.LibReal.IsReal (X i) := by
  intro i
  have h1 := congrFun h ValueIdx.ix0
  dsimp only [Cert.Pre_finite_inputs.fn] at h1
  have h2 := Host.reduce_andi_all _ _ _ _ _ h1 i
  exact Cert.LibReal.elem_real _ X i h2

/-- The same by coordinates: batch, channel, position. -/
theorem coords_real [Cert.Pre_finite_inputs.Facts] (X : FVec Ideal Cert.Pre_finite_inputs.S32x64x8192 .f32)
    (h : Cert.Pre_finite_inputs.fn (F := Ideal) X = fun _ => 1#1) (b : Fin 32) (i : Fin 64) (l : Fin 8192) :
    Cert.LibReal.IsReal (Cert.Whitening.coords X b i l) :=
  entries_real X h (ix3 b i l)

end Cert.FiniteInput

end
-- ==== Proof.lean ====
/-
  The one-pass whitening kernel and the two-pass reference compute the same array on real inputs.

  At the exact values the kernel's result is, by coordinates, Σ_k W(i,k)·x(b,k,l) − Σ_k W(i,k)·μ_k with the
  covariance taken as ε·I + S1/M − s·sᵀ/M², and the reference's is Σ_k W(i,k)·(x(b,k,l) − μ_k) with the covariance of
  the centred array. The precondition says every entry of the input is a real number; on real numbers the second
  moments satisfy Σ (x_i − μ_i)(x_j − μ_j) = S1_ij − s_i·s_j/M, a constant factor crosses a finite sum in the
  Newton–Schulz step, and the product with W distributes over the difference, so the two results are equal entry by
  entry. Each program also runs to completion and leaves its argument array as launched.
-/
import proofs.«114804_j29222957482780_2_alg».proof.Defs
import proofs.«114804_j29222957482780_2_alg».proof.Proof.Gen.Kernel
import proofs.«114804_j29222957482780_2_alg».proof.Proof.Gen.Kernel.Skeleton
import proofs.«114804_j29222957482780_2_alg».proof.Proof.Gen.Kernel.Launch
import proofs.«114804_j29222957482780_2_alg».proof.Proof.Gen.Kernel.Points
import proofs.«114804_j29222957482780_2_alg».proof.Proof.Gen.Kernel.Frame
import proofs.«114804_j29222957482780_2_alg».proof.Proof.Gen.KernelIdeal
import proofs.«114804_j29222957482780_2_alg».proof.Proof.Gen.KernelIdeal.Skeleton
import proofs.«114804_j29222957482780_2_alg».proof.Proof.Gen.KernelIdeal.Launch
import proofs.«114804_j29222957482780_2_alg».proof.Proof.Gen.KernelIdeal.Points
import proofs.«114804_j29222957482780_2_alg».proof.Proof.Gen.KernelIdeal.Frame
import proofs.«114804_j29222957482780_2_alg».proof.Proof.Gen.ReferenceIdeal
import proofs.«114804_j29222957482780_2_alg».proof.Proof.Gen.Pre_finite_inputs
import proofs.«114804_j29222957482780_2_alg».proof.Proof.KValue
import proofs.«114804_j29222957482780_2_alg».proof.Proof.RefRead
import proofs.«114804_j29222957482780_2_alg».proof.Proof.WhiteningAlgebra
import proofs.«114804_j29222957482780_2_alg».proof.Proof.FiniteInput
import Idealize.ShloMosaic.Adequacy
import Idealize.ShloMosaic.Init

noncomputable section

namespace Cert.Proof

open Idealize.ShloMosaic Idealize.SL.Sem

/-- The kernel as printed runs and leaves its argument as launched. -/
theorem frame_k : Cert.frame_Kernel := fun m ρ _ => Cert.Kernel.Gen.frame m ρ

/-- The kernel at the exact values runs and leaves its argument as launched. -/
theorem frame_ki : Cert.frame_KernelIdeal := fun m ρ _ => Cert.KernelIdeal.Gen.frame m ρ

/-- The reference at the exact values runs and leaves its argument as launched: its value statement with the
    result dropped. -/
theorem frame_ri : Cert.frame_ReferenceIdeal := fun m ρ _ =>
  (θ_run Cert.ReferenceIdeal.defs _ _).mono (fun _ h c => (h c).2) (Cert.ReferenceIdeal.RefValue.run_value m ρ)

/-- At the exact values, from memories agreeing on the argument, the kernel ends at the one-pass whitening of the
    argument and the reference at the two-pass whitening of the same array; the precondition makes every entry a
    real number, and on real entries the two are equal. -/
theorem algebraic : Cert.algebraic_KernelIdeal_ReferenceIdeal := by
  intro m ρ m' ρ' hpre hagree
  refine ⟨fun c => Cert.Whitening.ofCoords (Cert.Whitening.kOut (Cert.Whitening.coords
      (m ((c.tc : Thread Cert.KernelIdeal.nD Cert.KernelIdeal.τ).loc Cert.KernelIdeal.main_arg0)))),
    Cert.KernelIdeal.KValue.run_value m ρ, ?_⟩
  refine (θ_run Cert.ReferenceIdeal.defs _ _).mono (fun _ h c => ⟨(h c).1.trans ?_, (h c).2⟩)
    (Cert.ReferenceIdeal.RefValue.run_value m' ρ')
  rw [hagree c]
  exact congrArg Cert.Whitening.ofCoords
    (Cert.Whitening.out_eq _ (Cert.FiniteInput.coords_real _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
